-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S256x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S256x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 17
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S10000x128, .bf16⟩
  | .hbm, ⟨14, _⟩ => ⟨S10000x128, .bf16⟩
  | .hbm, ⟨15, _⟩ => ⟨S10000x128, .f32⟩
  | .hbm, ⟨16, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S10000x128, .bf16⟩
  | .local _ .vmem, ⟨8, _⟩ => ⟨S1x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S400x128, .bf16⟩
  | .local _ .vmem, ⟨13, _⟩ => ⟨S400x128, .bf16⟩
  | .local _ .vmem, ⟨14, _⟩ => ⟨S400x128, .f32⟩
  | .local _ .vmem, ⟨15, _⟩ => ⟨S400x128, .f32⟩
  | .local _ .vmem, ⟨16, _⟩ => ⟨S200x10000, .f32⟩
  | .local _ .vmem, ⟨17, _⟩ => ⟨S200x10000, .f32⟩
  | .local _ .vmem, ⟨18, _⟩ => ⟨S200x10000, .f32⟩
  | .local _ .vmem, ⟨19, _⟩ => ⟨S200x10000, .f32⟩
  | .local _ .vmem, ⟨20, _⟩ => ⟨S10000x128, .bf16⟩
  | .local _ .vmem, ⟨21, _⟩ => ⟨S1x128, .f32⟩
  | .local _ .vmem, ⟨22, _⟩ => ⟨S128x128, .f32⟩
  | .local _ .vmem, ⟨23, _⟩ => ⟨S400x128, .f32⟩
  | .local _ .vmem, ⟨24, _⟩ => ⟨S400x128, .f32⟩
  | .local _ .vmem, ⟨25, _⟩ => ⟨S400x128, .f32⟩
  | .local _ .vmem, ⟨26, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg7_1 : Ref sig .tc := ⟨.vmem, 13, rfl⟩
abbrev cc1_stg8_0 : Ref sig .tc := ⟨.vmem, 14, rfl⟩
abbrev cc1_stg8_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13
abbrev cc1_sem8_0 : DmaSem sig := 14
abbrev cc1_sem8_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S400x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc2_transform_1 (i : grid2.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S400x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S128_S1x128 : S128.ShapeCasts S1x128
  slices_S256x128_S128x128_0_0 : S256x128.Slices ![0, 0] S128x128
  slices_S256x128_S128x128_128_0 : S256x128.Slices ![128, 0] S128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S400x128_S200x128_0_0 : ∀ a, (![0, 0] : Fin 2 → Nat) a + S200x128.size a ≤ S400x128.size a
  h_S200x128 : 0 < S200x128.numel
  packedbf16_S400x128_S200x128_0_0 : (Rect.unit (s := S400x128) ![0, 0] S200x128.size inb_S400x128_S200x128_0_0).PackedRows (EltTy.packing .bf16)
  shapeCasts_S128x128_S128x128 : S128x128.ShapeCasts S128x128
  inb_S400x128_S200x128_200_0 : ∀ a, (![200, 0] : Fin 2 → Nat) a + S200x128.size a ≤ S400x128.size a
  packedbf16_S400x128_S200x128_200_0 : (Rect.unit (s := S400x128) ![200, 0] S200x128.size inb_S400x128_S200x128_200_0).PackedRows (EltTy.packing .bf16)
  shapeCasts_S200x128_S200x128 : S200x128.ShapeCasts S200x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x128.size a ≤ S10000x128.size a
  hwx1_7 : ∀ i : grid1.Coords, EltTy.bits .bf16 = 32 ∨ (Rect.block (s := S10000x128) S400x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x128.size a ≤ S10000x128.size a
  hwx1_8 : ∀ i : grid1.Coords, EltTy.bits .f32 = 32 ∨ (Rect.block (s := S10000x128) S400x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .f32 = 32 ∨ (Rect.block (s := S10000x10000) S200x10000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S10000x128.size a
  hwx2_2 : ∀ i : grid2.Coords, EltTy.bits .bf16 = 32 ∨ (Rect.block (s := S10000x128) S10000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x128.size a ≤ S10000x128.size a
  hwx2_6 : ∀ i : grid2.Coords, EltTy.bits .f32 = 32 ∨ (Rect.block (s := S10000x128) S400x128.size (cc2_transform_6 i) (hinb2_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v5) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6_0) S400x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v6_1) S400x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6_0) S10000x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6_1) S400x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v7) S400x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S10000x256 : Shape := ⟨2, ![10000, 256]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x256, .f32⟩
  | .hbm, ⟨25, _⟩ => ⟨S10000x128, .f32⟩
  | .hbm, ⟨26, _⟩ => ⟨S1x128, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  concatenates_S10000x128_S10000x128_S10000x256_d1 : Shape.Concatenates [S10000x128, S10000x128] S10000x256 1
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KbData.lean ====
/-
  The proof data of the three kernel regions, for any float instance.

  The program runs, after five host operations (three bias vectors reshaped to rows, the read-out matrix
  cut into its upper and lower halves), three kernel regions over the core's buffers:

    region 0 (one point):   g0 = x · W0, written whole;
    region 1 (25 points):   point t reads rows [400t, 400t+400) of the support as two slabs of 200 rows, the
                            whole of g0, the bias row, W1, the read-out's upper half and its bias row, and writes
                            rows [400t, 400t+400) of g1 = h0 · W1 and of p = h0 · Wp_top + bp, each as an upper
                            and a lower half of 200 rows;
    region 2 (25 points):   point t reads the same two slabs of the support, the whole of g1, the second bias
                            row, the read-out's lower half and rows [400t, 400t+400) of p, and writes those rows
                            of the result.

  What a region's body leaves in an output window's staging buffer is the canon of its two stores — the lower
  half's store last — over the payloads of the blocks it was handed; an input window's buffer is left as found.
  Between regions the core's unscoped buffers hold: the launch contents after the host operations, then each
  region's output arrays replaced by what the pipeline's write-backs make of them (`arrAt` at the last point).
-/
import proofs.«104506_g65979287601806_cont_sun_c4_486_7_alg».proof.Proof.Gen.Kernel.Regions
import proofs.«104506_g65979287601806_cont_sun_c4_486_7_alg».proof.Proof.Gen.Kernel.Skeleton
import proofs.«104506_g65979287601806_cont_sun_c4_486_7_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-! ## The rectangles the bodies load and store through -/

/-- The whole of a 10000 × 128 buffer. -/
abbrev rX : Rect S10000x128 := Rect.unit (s := S10000x128) ![0, 0] S10000x128.size inb_S10000x128_S10000x128_0_0
/-- The whole of a 128 × 128 buffer. -/
abbrev rW : Rect S128x128 := Rect.unit (s := S128x128) ![0, 0] S128x128.size inb_S128x128_S128x128_0_0
/-- The whole of a 200 × 10000 slab. -/
abbrev rS : Rect S200x10000 := Rect.unit (s := S200x10000) ![0, 0] S200x10000.size inb_S200x10000_S200x10000_0_0
/-- The whole of a 1 × 128 row. -/
abbrev rB : Rect S1x128 := Rect.unit (s := S1x128) ![0, 0] S1x128.size inb_S1x128_S1x128_0_0
/-- Rows [0, 200) of a 400 × 128 block. -/
abbrev rTop : Rect S400x128 := Rect.unit (s := S400x128) ![0, 0] S200x128.size inb_S400x128_S200x128_0_0
/-- Rows [200, 400) of a 400 × 128 block. -/
abbrev rBot : Rect S400x128 := Rect.unit (s := S400x128) ![200, 0] S200x128.size inb_S400x128_S200x128_200_0

/-! ## What each body leaves in its output windows' buffers -/

/-- Region 0's output block: the product of the two input blocks, stored whole. -/
def blk0 (x0 : Vec F S10000x128 .f32) (x1 : Vec F S128x128 .f32) : Vec F S10000x128 .bf16 :=
  View.canon [⟨rX, k0_pay1 (View.ld x0 rX) (View.ld x1 rW)⟩]

/-- Region 1's first output block (rows of `h0 · W1`): the lower half from the second slab, the upper from the first. -/
def blk1_7 (s0 s1 : Vec F S200x10000 .f32) (g : Vec F S10000x128 .bf16) (b : Vec F S1x128 .f32) (w1 : Vec F S128x128 .f32) :
    Vec F S400x128 .bf16 :=
  View.canon [⟨rBot, k1_pay2 (k1_pay8 (View.ld g rX) (View.ld s1 rS) (View.ld b rB)) (k1_pay9 (F := F)) (View.ld w1 rW)⟩,
    ⟨rTop, k1_pay6 (View.ld g rX) (View.ld s0 rS) (View.ld b rB) (View.ld w1 rW)⟩]

/-- Region 1's second output block (rows of `h0 · Wp_top + bp`). -/
def blk1_8 (s0 s1 : Vec F S200x10000 .f32) (g : Vec F S10000x128 .bf16) (b : Vec F S1x128 .f32) (wt : Vec F S128x128 .f32)
    (bpr : Vec F S1x128 .f32) : Vec F S400x128 .f32 :=
  View.canon [⟨rBot, k1_pay3 (k1_pay8 (View.ld g rX) (View.ld s1 rS) (View.ld b rB)) (k1_pay9 (F := F)) (View.ld wt rW) (View.ld bpr rB)⟩,
    ⟨rTop, k1_pay7 (View.ld g rX) (View.ld s0 rS) (View.ld b rB) (View.ld wt rW) (View.ld bpr rB)⟩]

/-- Region 2's output block (rows of the result): each half is that half of the partial block plus the second
    layer's read-out of its slab. -/
def blk2_6 (s0 s1 : Vec F S200x10000 .f32) (g : Vec F S10000x128 .bf16) (b : Vec F S1x128 .f32) (wb : Vec F S128x128 .f32)
    (pb : Vec F S400x128 .f32) : Vec F S400x128 .f32 :=
  View.canon [⟨rBot, k2_pay1 (k2_pay4 (View.ld pb rBot)) (k2_pay5 (View.ld g rX) (View.ld s1 rS) (View.ld b rB) (View.ld wb rW))⟩,
    ⟨rTop, k2_pay3 (View.ld g rX) (View.ld s0 rS) (View.ld b rB) (View.ld pb rTop) (View.ld wb rW)⟩]

/-- The two halves tile a 400 × 128 block. -/
theorem cover400 {e : EltTy} (p0 p1 : Vec F S200x128 e) (y : S400x128.Idx) :
    ∃ pc ∈ ([⟨rBot, p0⟩, ⟨rTop, p1⟩] : List (View.Piece (Elt F) S400x128 e)), y ∈ pc.1.set :=
  View.cover_of_tiled [⟨rBot, p0⟩, ⟨rTop, p1⟩] S200x128.size (by rfl) y

/-- One whole store covers a 10000 × 128 buffer. -/
theorem cover10000 {e : EltTy} (p0 : Vec F S10000x128 e) (y : S10000x128.Idx) :
    ∃ pc ∈ ([⟨rX, p0⟩] : List (View.Piece (Elt F) S10000x128 e)), y ∈ pc.1.set :=
  View.cover_of_tiled [⟨rX, p0⟩] S10000x128.size (by rfl) y

variable (m : (ℓ : Loc nD τ sig) → Buf (Elt F) ℓ)

/-! ## Region 0 -/

/-- The core's unscoped buffers when region 0 is entered: the launch contents after the host operations. -/
abbrev E1 (c : Dev nD) (b : Ref sig .tc) : Buf (Elt F) ((c : Thread nD τ).loc b) := Gen.V1 m c b

/-- Window `w`'s block of its array at point `t` of region 0. -/
def iblk0 (c : Dev nD) (w : Fin cfg0.W) (t : Fin cfg0.N) : ((cfg0.win w).xblock (cfg0.grid.coords t)).Idx → Elt F (cfg0.win w).elt :=
  ((cfg0.win w).blk t).view.read (Elt F) (E1 m c (Pipeline.arrRef spec0 w))

/-- Region 0's proof data. -/
def dats0 (c : Dev nD) : Dat τ (Elt F) Unit ℕ (UR sig nD τ) ℕ cfg0 c where
  A w := E1 m c (Pipeline.arrRef spec0 w)
  after w t := match w with
    | ⟨0, _⟩ => iblk0 m c 0 t
    | ⟨1, _⟩ => iblk0 m c 1 t
    | ⟨2, _⟩ => blk0 (iblk0 m c 0 t) (iblk0 m c 1 t)
  Φ _ := Pipeline.scopedRest (Ix := Unit) (Name := ℕ) (U := UR sig nD τ) (Lvl := ℕ) (Val := Elt F) spec0 c
  q _ := fullShare
  owed _ := 0

/-- What region 0 leaves in `g0`'s array. -/
def out5 (c : Dev nD) : Buf (Elt F) ((c : Thread nD τ).loc main_v5) := (dats0 m c).arrAt 2 cfg0.N

/-- The core's unscoped buffers when region 1 is entered. -/
def W2 (c : Dev nD) : Valuation τ sig (Elt F) := Function.update (Gen.V1 m c) main_v5 (out5 m c)
abbrev E2 (c : Dev nD) (b : Ref sig .tc) : Buf (Elt F) ((c : Thread nD τ).loc b) := W2 m c b

/-! ## Region 1 -/

/-- Window `w`'s block of its array at point `t` of region 1. -/
def iblk1 (c : Dev nD) (w : Fin cfg1.W) (t : Fin cfg1.N) : ((cfg1.win w).xblock (cfg1.grid.coords t)).Idx → Elt F (cfg1.win w).elt :=
  ((cfg1.win w).blk t).view.read (Elt F) (E2 m c (Pipeline.arrRef spec1 w))

/-- Region 1's proof data: the two windows on the support hold the halves of its share. -/
def dats1 (c : Dev nD) : Dat τ (Elt F) Unit ℕ (UR sig nD τ) ℕ cfg1 c where
  A w := E2 m c (Pipeline.arrRef spec1 w)
  after w t := match w with
    | ⟨0, _⟩ => iblk1 m c 0 t
    | ⟨1, _⟩ => iblk1 m c 1 t
    | ⟨2, _⟩ => iblk1 m c 2 t
    | ⟨3, _⟩ => iblk1 m c 3 t
    | ⟨4, _⟩ => iblk1 m c 4 t
    | ⟨5, _⟩ => iblk1 m c 5 t
    | ⟨6, _⟩ => iblk1 m c 6 t
    | ⟨7, _⟩ => blk1_7 (iblk1 m c 0 t) (iblk1 m c 1 t) (iblk1 m c 2 t) (iblk1 m c 3 t) (iblk1 m c 4 t)
    | ⟨8, _⟩ => blk1_8 (iblk1 m c 0 t) (iblk1 m c 1 t) (iblk1 m c 2 t) (iblk1 m c 3 t) (iblk1 m c 5 t) (iblk1 m c 6 t)
  Φ _ := Pipeline.scopedRest (Ix := Unit) (Name := ℕ) (U := UR sig nD τ) (Lvl := ℕ) (Val := Elt F) spec1 c
  q w := match w with
    | ⟨0, _⟩ => fullShare.left
    | ⟨1, _⟩ => fullShare.right
    | _ => fullShare
  owed _ := 0

/-- What region 1 leaves in its two output arrays. -/
def out60 (c : Dev nD) : Buf (Elt F) ((c : Thread nD τ).loc main_v6_0) := (dats1 m c).arrAt 7 cfg1.N
def out61 (c : Dev nD) : Buf (Elt F) ((c : Thread nD τ).loc main_v6_1) := (dats1 m c).arrAt 8 cfg1.N

/-- The core's unscoped buffers when region 2 is entered. -/
def W3 (c : Dev nD) : Valuation τ sig (Elt F) :=
  Function.update (Function.update (W2 m c) main_v6_0 (out60 m c)) main_v6_1 (out61 m c)
abbrev E3 (c : Dev nD) (b : Ref sig .tc) : Buf (Elt F) ((c : Thread nD τ).loc b) := W3 m c b

/-! ## Region 2 -/

/-- Window `w`'s block of its array at point `t` of region 2. -/
def iblk2 (c : Dev nD) (w : Fin cfg2.W) (t : Fin cfg2.N) : ((cfg2.win w).xblock (cfg2.grid.coords t)).Idx → Elt F (cfg2.win w).elt :=
  ((cfg2.win w).blk t).view.read (Elt F) (E3 m c (Pipeline.arrRef spec2 w))

/-- Region 2's proof data. -/
def dats2 (c : Dev nD) : Dat τ (Elt F) Unit ℕ (UR sig nD τ) ℕ cfg2 c where
  A w := E3 m c (Pipeline.arrRef spec2 w)
  after w t := match w with
    | ⟨0, _⟩ => iblk2 m c 0 t
    | ⟨1, _⟩ => iblk2 m c 1 t
    | ⟨2, _⟩ => iblk2 m c 2 t
    | ⟨3, _⟩ => iblk2 m c 3 t
    | ⟨4, _⟩ => iblk2 m c 4 t
    | ⟨5, _⟩ => iblk2 m c 5 t
    | ⟨6, _⟩ => blk2_6 (iblk2 m c 0 t) (iblk2 m c 1 t) (iblk2 m c 2 t) (iblk2 m c 3 t) (iblk2 m c 4 t) (iblk2 m c 5 t)
  Φ _ := Pipeline.scopedRest (Ix := Unit) (Name := ℕ) (U := UR sig nD τ) (Lvl := ℕ) (Val := Elt F) spec2 c
  q w := match w with
    | ⟨0, _⟩ => fullShare.left
    | ⟨1, _⟩ => fullShare.right
    | _ => fullShare
  owed _ := 0

/-- What region 2 leaves in the result's array. -/
def out7 (c : Dev nD) : Buf (Elt F) ((c : Thread nD τ).loc main_v7) := (dats2 m c).arrAt 6 cfg2.N

/-- The core's unscoped buffers at the end. -/
def W4 (c : Dev nD) : Valuation τ sig (Elt F) := Function.update (W3 m c) main_v7 (out7 m c)

/-- The three regions' proof data as one family. -/
def pdats : (p : Fin 3) → (c : Dev nD) → Dat τ (Elt F) Unit ℕ (UR sig nD τ) ℕ (cfgs p) c
  | ⟨0, _⟩ => dats0 m
  | ⟨1, _⟩ => dats1 m
  | ⟨2, _⟩ => dats2 m
  | ⟨n + 3, h⟩ => absurd h (by omega)

end Cert.Kernel.Hand

end
-- ==== Proof.KbBody0.lean ====
/-
  Region 0's body: it loads the whole feature block and the whole weight block, forms their product, and stores
  it over the whole output block (the output block's earlier contents are loaded and dropped).  So, handed the
  two input blocks at `x0`, `x1` and the output block at anything, it returns the inputs as they were and the
  output at the canon of its one store.  At the region's one point the input windows' buffers hold their arrays'
  blocks (both are fetched there), which gives the body obligation of the region's proof data.
-/
import proofs.«104506_g65979287601806_cont_sun_c4_486_7_alg».proof.Proof.KbData
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple on whole staging memrefs. -/
theorem sound_kernel0 (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S10000x128 .bf16) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (blk0 x0 x1)) -∗ K ⟨⟩))
      ⊢ wp frame (wpE (defs₀ (F := F)) Variants.none c none) E (cc0__proj_kernel arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10000 _)

variable (m : (ℓ : Loc nD τ sig) → Buf (Elt F) ℓ)

theorem after0_0 (c : Dev nD) (t : Fin cfg0.N) : (dats0 m c).after 0 t = iblk0 m c 0 t := by dsimp only [dats0]
theorem after0_1 (c : Dev nD) (t : Fin cfg0.N) : (dats0 m c).after 1 t = iblk0 m c 1 t := by dsimp only [dats0]
theorem after0_2 (c : Dev nD) (t : Fin cfg0.N) : (dats0 m c).after 2 t = blk0 (iblk0 m c 0 t) (iblk0 m c 1 t) := by dsimp only [dats0]

/-- Each input window's buffer holds its array's block when the body runs. -/
theorem before0_0 (c : Dev nD) (t : Fin cfg0.N) (d) : (dats0 m c).before 0 t d = iblk0 m c 0 t :=
  ((dats0 m c).before_in_eq_fetched 0 rfl (fun _ => rfl) (fun _ _ _ => rfl) (fun t => by rw [after0_0]; rfl) t d).trans rfl
theorem before0_1 (c : Dev nD) (t : Fin cfg0.N) (d) : (dats0 m c).before 1 t d = iblk0 m c 1 t :=
  ((dats0 m c).before_in_eq_fetched 1 rfl (fun _ => rfl) (fun _ _ _ => rfl) (fun t => by rw [after0_1]; rfl) t d).trans rfl

/-- What the body is called with at point `t`, the windows one by one, -/
def bodyPre0 (c : Dev nD) (t : Fin cfg0.N) : sProp 𝕄 :=
  iprop((dats0 m c).Φ t.castSucc ∗ (dats0 m c).owesAt () t.castSucc
    ∗ (∃ d, owns (c : Thread nD τ) (st0_0 t) fullShare ((dats0 m c).before 0 t d))
    ∗ (∃ d, owns (c : Thread nD τ) (st0_1 t) fullShare ((dats0 m c).before 1 t d))
    ∗ (∃ d, owns (c : Thread nD τ) (st0_2 t) fullShare ((dats0 m c).before 2 t d)))

/-- and what it returns. -/
def bodyPost0 (c : Dev nD) (t : Fin cfg0.N) : sProp 𝕄 :=
  iprop((dats0 m c).Φ t.succ ∗ (dats0 m c).owesAt () t.succ
    ∗ owns (c : Thread nD τ) (st0_0 t) fullShare ((dats0 m c).after 0 t)
    ∗ owns (c : Thread nD τ) (st0_1 t) fullShare ((dats0 m c).after 1 t)
    ∗ owns (c : Thread nD τ) (st0_2 t) fullShare ((dats0 m c).after 2 t))

/-- The body at any point: the invariant and the core's dues pass through unread. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1]
  rw [show (dats0 m c).Φ t.succ = (dats0 m c).Φ t.castSucc from rfl,
    show (dats0 m c).owesAt () t.succ = (dats0 m c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 m c 0 t) (iblk0 m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0's proof data. -/
theorem body_obligation0 (c : Dev nD) : BodyObligation (dats0 (F := F) m c) (defs₀ (F := F)) Variants.none () Set.univ := fun t => by
  rw [bigSep_W0, bigSep_W0]
  exact sound_body0 m c t

end Cert.Kernel.Hand

end
-- ==== Proof.KbBody1.lean ====
/-
  Region 1's body.  Handed the two slabs of the support, the whole of g0, the first bias row, W1, the read-out's
  upper half and its bias row, it forms for each slab the hidden rows max (slab · g0 + b0) 0 and stores their
  products with W1 and with the read-out's upper half (plus its bias) into the matching halves of its two
  output blocks: the first slab's into rows [0, 200), the second slab's into rows [200, 400).  The output blocks'
  earlier contents are loaded and dropped.  So it returns its inputs as they were and each output block at the
  canon of its two stores; the input windows' buffers hold their arrays' blocks at every point, whether fetched
  there (the two slabs) or only at the first point (the resident operands).
-/
import proofs.«104506_g65979287601806_cont_sun_c4_486_7_alg».proof.Proof.KbData
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple on whole staging memrefs: the inputs' at read contents, the outputs' at anything. -/
theorem sound_kernel1 (c : Dev nD) (E : Set ℕ) (i : grid1.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .bf16) (harg8 : arg8.IsWhole) (arg9 : Memref sig .tc .vmem S400x128 .f32) (harg9 : arg9.IsWhole)
    (s0 : Vec F S200x10000 .f32) (s1 : Vec F S200x10000 .f32) (g : Vec F S10000x128 .bf16) (b : Vec F S1x128 .f32) (w1 : Vec F S128x128 .f32) (wt : Vec F S128x128 .f32) (bpr : Vec F S1x128 .f32) (K : PUnit → sProp 𝕄) :
    iprop(owns (c : Thread nD τ) arg1 fullShare s0 ∗ owns (c : Thread nD τ) arg2 fullShare s1 ∗ owns (c : Thread nD τ) arg3 fullShare g ∗ owns (c : Thread nD τ) arg4 fullShare b ∗ owns (c : Thread nD τ) arg5 fullShare w1 ∗ owns (c : Thread nD τ) arg6 fullShare wt ∗ owns (c : Thread nD τ) arg7 fullShare bpr ∗ (∃ d, owns (c : Thread nD τ) arg8 fullShare d) ∗ (∃ d, owns (c : Thread nD τ) arg9 fullShare d)
        ∗ (iprop(owns (c : Thread nD τ) arg1 fullShare s0 ∗ owns (c : Thread nD τ) arg2 fullShare s1 ∗ owns (c : Thread nD τ) arg3 fullShare g ∗ owns (c : Thread nD τ) arg4 fullShare b ∗ owns (c : Thread nD τ) arg5 fullShare w1 ∗ owns (c : Thread nD τ) arg6 fullShare wt ∗ owns (c : Thread nD τ) arg7 fullShare bpr ∗ owns (c : Thread nD τ) arg8 fullShare (blk1_7 s0 s1 g b w1) ∗ owns (c : Thread nD τ) arg9 fullShare (blk1_8 s0 s1 g b wt bpr)) -∗ K ⟨⟩))
      ⊢ wp frame (wpE (defs₀ (F := F)) Variants.none c none) E (cc1__layer1_kernel i arg1 harg1 arg2 harg2 arg3 harg3 arg4 harg4 arg5 harg5 arg6 harg6 arg7 harg7 arg8 harg8 arg9 harg9) K := by
  simp only [cc1__layer1_kernel_eq_skeleton]; unfold cc1__layer1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dd0, %g0, -, G0⟩, ⟨%dd1, %g1, -, G1⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [G0]
  · iexists _; isplitr
    swap; · iexact G0
    ipureintro
    exact View.read_writes_eq_canon _ _ _ (cover400 _ _)
  iexists _; isplitr
  swap; · iexact G1
  ipureintro
  exact View.read_writes_eq_canon _ _ _ (cover400 _ _)

variable (m : (ℓ : Loc nD τ sig) → Buf (Elt F) ℓ)

theorem after1_0 (c : Dev nD) (t : Fin cfg1.N) : (dats1 m c).after 0 t = iblk1 m c 0 t := by dsimp only [dats1]
theorem after1_1 (c : Dev nD) (t : Fin cfg1.N) : (dats1 m c).after 1 t = iblk1 m c 1 t := by dsimp only [dats1]
theorem after1_2 (c : Dev nD) (t : Fin cfg1.N) : (dats1 m c).after 2 t = iblk1 m c 2 t := by dsimp only [dats1]
theorem after1_3 (c : Dev nD) (t : Fin cfg1.N) : (dats1 m c).after 3 t = iblk1 m c 3 t := by dsimp only [dats1]
theorem after1_4 (c : Dev nD) (t : Fin cfg1.N) : (dats1 m c).after 4 t = iblk1 m c 4 t := by dsimp only [dats1]
theorem after1_5 (c : Dev nD) (t : Fin cfg1.N) : (dats1 m c).after 5 t = iblk1 m c 5 t := by dsimp only [dats1]
theorem after1_6 (c : Dev nD) (t : Fin cfg1.N) : (dats1 m c).after 6 t = iblk1 m c 6 t := by dsimp only [dats1]
theorem after1_7 (c : Dev nD) (t : Fin cfg1.N) : (dats1 m c).after 7 t = blk1_7 (iblk1 m c 0 t) (iblk1 m c 1 t) (iblk1 m c 2 t) (iblk1 m c 3 t) (iblk1 m c 4 t) := by dsimp only [dats1]
theorem after1_8 (c : Dev nD) (t : Fin cfg1.N) : (dats1 m c).after 8 t = blk1_8 (iblk1 m c 0 t) (iblk1 m c 1 t) (iblk1 m c 2 t) (iblk1 m c 3 t) (iblk1 m c 5 t) (iblk1 m c 6 t) := by dsimp only [dats1]

/-- Each input window's buffer holds its array's block when the body runs, fetched at that point or not. -/
theorem before1_0 (c : Dev nD) (t : Fin cfg1.N) (d) : (dats1 m c).before 0 t d = iblk1 m c 0 t :=
  ((dats1 m c).before_in_eq_fetched 0 rfl (fun _ => rfl) (fun _ _ _ => rfl) (fun t => by rw [after1_0]; rfl) t d).trans rfl
theorem before1_1 (c : Dev nD) (t : Fin cfg1.N) (d) : (dats1 m c).before 1 t d = iblk1 m c 1 t :=
  ((dats1 m c).before_in_eq_fetched 1 rfl (fun _ => rfl) (fun _ _ _ => rfl) (fun t => by rw [after1_1]; rfl) t d).trans rfl
theorem before1_2 (c : Dev nD) (t : Fin cfg1.N) (d) : (dats1 m c).before 2 t d = iblk1 m c 2 t :=
  ((dats1 m c).before_in_eq_fetched 2 rfl (fun _ => rfl) (fun _ _ _ => rfl) (fun t => by rw [after1_2]; rfl) t d).trans rfl
theorem before1_3 (c : Dev nD) (t : Fin cfg1.N) (d) : (dats1 m c).before 3 t d = iblk1 m c 3 t :=
  ((dats1 m c).before_in_eq_fetched 3 rfl (fun _ => rfl) (fun _ _ _ => rfl) (fun t => by rw [after1_3]; rfl) t d).trans rfl
theorem before1_4 (c : Dev nD) (t : Fin cfg1.N) (d) : (dats1 m c).before 4 t d = iblk1 m c 4 t :=
  ((dats1 m c).before_in_eq_fetched 4 rfl (fun _ => rfl) (fun _ _ _ => rfl) (fun t => by rw [after1_4]; rfl) t d).trans rfl
theorem before1_5 (c : Dev nD) (t : Fin cfg1.N) (d) : (dats1 m c).before 5 t d = iblk1 m c 5 t :=
  ((dats1 m c).before_in_eq_fetched 5 rfl (fun _ => rfl) (fun _ _ _ => rfl) (fun t => by rw [after1_5]; rfl) t d).trans rfl
theorem before1_6 (c : Dev nD) (t : Fin cfg1.N) (d) : (dats1 m c).before 6 t d = iblk1 m c 6 t :=
  ((dats1 m c).before_in_eq_fetched 6 rfl (fun _ => rfl) (fun _ _ _ => rfl) (fun t => by rw [after1_6]; rfl) t d).trans rfl

/-- What the body is called with at point `t`, the windows one by one, -/
def bodyPre1 (c : Dev nD) (t : Fin cfg1.N) : sProp 𝕄 :=
  iprop((dats1 m c).Φ t.castSucc ∗ (dats1 m c).owesAt () t.castSucc
    ∗ (∃ d, owns (c : Thread nD τ) (st1_0 t) fullShare ((dats1 m c).before 0 t d))
    ∗ (∃ d, owns (c : Thread nD τ) (st1_1 t) fullShare ((dats1 m c).before 1 t d))
    ∗ (∃ d, owns (c : Thread nD τ) (st1_2 t) fullShare ((dats1 m c).before 2 t d))
    ∗ (∃ d, owns (c : Thread nD τ) (st1_3 t) fullShare ((dats1 m c).before 3 t d))
    ∗ (∃ d, owns (c : Thread nD τ) (st1_4 t) fullShare ((dats1 m c).before 4 t d))
    ∗ (∃ d, owns (c : Thread nD τ) (st1_5 t) fullShare ((dats1 m c).before 5 t d))
    ∗ (∃ d, owns (c : Thread nD τ) (st1_6 t) fullShare ((dats1 m c).before 6 t d))
    ∗ (∃ d, owns (c : Thread nD τ) (st1_7 t) fullShare ((dats1 m c).before 7 t d))
    ∗ (∃ d, owns (c : Thread nD τ) (st1_8 t) fullShare ((dats1 m c).before 8 t d)))

/-- and what it returns. -/
def bodyPost1 (c : Dev nD) (t : Fin cfg1.N) : sProp 𝕄 :=
  iprop((dats1 m c).Φ t.succ ∗ (dats1 m c).owesAt () t.succ
    ∗ owns (c : Thread nD τ) (st1_0 t) fullShare ((dats1 m c).after 0 t)
    ∗ owns (c : Thread nD τ) (st1_1 t) fullShare ((dats1 m c).after 1 t)
    ∗ owns (c : Thread nD τ) (st1_2 t) fullShare ((dats1 m c).after 2 t)
    ∗ owns (c : Thread nD τ) (st1_3 t) fullShare ((dats1 m c).after 3 t)
    ∗ owns (c : Thread nD τ) (st1_4 t) fullShare ((dats1 m c).after 4 t)
    ∗ owns (c : Thread nD τ) (st1_5 t) fullShare ((dats1 m c).after 5 t)
    ∗ owns (c : Thread nD τ) (st1_6 t) fullShare ((dats1 m c).after 6 t)
    ∗ owns (c : Thread nD τ) (st1_7 t) fullShare ((dats1 m c).after 7 t)
    ∗ owns (c : Thread nD τ) (st1_8 t) fullShare ((dats1 m c).after 8 t))

/-- The body at any point: the invariant and the core's dues pass through unread. -/
theorem sound_body1 (c : Dev nD) (t : Fin cfg1.N) :
    bodyPre1 m c t ⊢ wp frame (wpE (defs₀ (F := F)) Variants.none c none) Set.univ (bodyAt1 t) (fun _ => bodyPost1 m c t) := by
  unfold bodyPre1 bodyPost1 bodyAt1
  simp only [before1_0, before1_1, before1_2, before1_3, before1_4, before1_5, before1_6]
  rw [show (dats1 m c).Φ t.succ = (dats1 m c).Φ t.castSucc from rfl,
    show (dats1 m c).owesAt () t.succ = (dats1 m c).owesAt () t.castSucc from rfl,
    after1_0, after1_1, after1_2, after1_3, after1_4, after1_5, after1_6, after1_7, after1_8]
  iintro ⟨HΦ, Ho, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩⟩
  iapply (sound_kernel1 c Set.univ (grid1.coords t) _ _ _ _ _ _ _ _ _ _ _ _ _ _ _ _ _ _ (iblk1 m c 0 t) (iblk1 m c 1 t) (iblk1 m c 2 t) (iblk1 m c 3 t) (iblk1 m c 4 t) (iblk1 m c 5 t) (iblk1 m c 6 t) _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexists _; iexact B7
  isplitl [B8]; · iexists _; iexact B8
  iintro ⟨B0, B1, B2, B3, B4, B5, B6, B7, B8⟩
  isplitl [HΦ]; · iexact HΦ
  isplitl [Ho]; · iexact Ho
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

/-- The body obligation of region 1's proof data. -/
theorem body_obligation1 (c : Dev nD) : BodyObligation (dats1 (F := F) m c) (defs₀ (F := F)) Variants.none () Set.univ := fun t => by
  rw [bigSep_W1, bigSep_W1]
  exact sound_body1 m c t

end Cert.Kernel.Hand

end
-- ==== Proof.KbBody2.lean ====
/-
  Region 2's body.  Handed the two slabs of the support, the whole of g1, the second bias row, the read-out's
  lower half and a block of 400 rows of the partial result, it forms for each slab the hidden rows
  max (slab · g1 + b1) 0, multiplies them with the read-out's lower half, adds the matching half of the partial
  block, and stores the sums into the matching halves of its output block.  The output block's earlier contents
  are loaded and dropped.  So it returns its inputs as they were and the output block at the canon of its two
  stores; the input windows' buffers hold their arrays' blocks at every point.
-/
import proofs.«104506_g65979287601806_cont_sun_c4_486_7_alg».proof.Proof.KbData
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple on whole staging memrefs: the inputs' at read contents, the outputs' at anything. -/
theorem sound_kernel2 (c : Dev nD) (E : Set ℕ) (i : grid2.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S400x128 .f32) (harg6 : arg6.IsWhole) (arg7 : Memref sig .tc .vmem S400x128 .f32) (harg7 : arg7.IsWhole)
    (s0 : Vec F S200x10000 .f32) (s1 : Vec F S200x10000 .f32) (g : Vec F S10000x128 .bf16) (b : Vec F S1x128 .f32) (wb : Vec F S128x128 .f32) (pb : Vec F S400x128 .f32) (K : PUnit → sProp 𝕄) :
    iprop(owns (c : Thread nD τ) arg1 fullShare s0 ∗ owns (c : Thread nD τ) arg2 fullShare s1 ∗ owns (c : Thread nD τ) arg3 fullShare g ∗ owns (c : Thread nD τ) arg4 fullShare b ∗ owns (c : Thread nD τ) arg5 fullShare wb ∗ owns (c : Thread nD τ) arg6 fullShare pb ∗ (∃ d, owns (c : Thread nD τ) arg7 fullShare d)
        ∗ (iprop(owns (c : Thread nD τ) arg1 fullShare s0 ∗ owns (c : Thread nD τ) arg2 fullShare s1 ∗ owns (c : Thread nD τ) arg3 fullShare g ∗ owns (c : Thread nD τ) arg4 fullShare b ∗ owns (c : Thread nD τ) arg5 fullShare wb ∗ owns (c : Thread nD τ) arg6 fullShare pb ∗ owns (c : Thread nD τ) arg7 fullShare (blk2_6 s0 s1 g b wb pb)) -∗ K ⟨⟩))
      ⊢ wp frame (wpE (defs₀ (F := F)) Variants.none c none) E (cc2__layer2_kernel i arg1 harg1 arg2 harg2 arg3 harg3 arg4 harg4 arg5 harg5 arg6 harg6 arg7 harg7) K := by
  simp only [cc2__layer2_kernel_eq_skeleton]; unfold cc2__layer2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dd0, %g0, -, G0⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact G0
  ipureintro
  exact View.read_writes_eq_canon _ _ _ (cover400 _ _)

variable (m : (ℓ : Loc nD τ sig) → Buf (Elt F) ℓ)

theorem after2_0 (c : Dev nD) (t : Fin cfg2.N) : (dats2 m c).after 0 t = iblk2 m c 0 t := by dsimp only [dats2]
theorem after2_1 (c : Dev nD) (t : Fin cfg2.N) : (dats2 m c).after 1 t = iblk2 m c 1 t := by dsimp only [dats2]
theorem after2_2 (c : Dev nD) (t : Fin cfg2.N) : (dats2 m c).after 2 t = iblk2 m c 2 t := by dsimp only [dats2]
theorem after2_3 (c : Dev nD) (t : Fin cfg2.N) : (dats2 m c).after 3 t = iblk2 m c 3 t := by dsimp only [dats2]
theorem after2_4 (c : Dev nD) (t : Fin cfg2.N) : (dats2 m c).after 4 t = iblk2 m c 4 t := by dsimp only [dats2]
theorem after2_5 (c : Dev nD) (t : Fin cfg2.N) : (dats2 m c).after 5 t = iblk2 m c 5 t := by dsimp only [dats2]
theorem after2_6 (c : Dev nD) (t : Fin cfg2.N) : (dats2 m c).after 6 t = blk2_6 (iblk2 m c 0 t) (iblk2 m c 1 t) (iblk2 m c 2 t) (iblk2 m c 3 t) (iblk2 m c 4 t) (iblk2 m c 5 t) := by dsimp only [dats2]

/-- Each input window's buffer holds its array's block when the body runs, fetched at that point or not. -/
theorem before2_0 (c : Dev nD) (t : Fin cfg2.N) (d) : (dats2 m c).before 0 t d = iblk2 m c 0 t :=
  ((dats2 m c).before_in_eq_fetched 0 rfl (fun _ => rfl) (fun _ _ _ => rfl) (fun t => by rw [after2_0]; rfl) t d).trans rfl
theorem before2_1 (c : Dev nD) (t : Fin cfg2.N) (d) : (dats2 m c).before 1 t d = iblk2 m c 1 t :=
  ((dats2 m c).before_in_eq_fetched 1 rfl (fun _ => rfl) (fun _ _ _ => rfl) (fun t => by rw [after2_1]; rfl) t d).trans rfl
theorem before2_2 (c : Dev nD) (t : Fin cfg2.N) (d) : (dats2 m c).before 2 t d = iblk2 m c 2 t :=
  ((dats2 m c).before_in_eq_fetched 2 rfl (fun _ => rfl) (fun _ _ _ => rfl) (fun t => by rw [after2_2]; rfl) t d).trans rfl
theorem before2_3 (c : Dev nD) (t : Fin cfg2.N) (d) : (dats2 m c).before 3 t d = iblk2 m c 3 t :=
  ((dats2 m c).before_in_eq_fetched 3 rfl (fun _ => rfl) (fun _ _ _ => rfl) (fun t => by rw [after2_3]; rfl) t d).trans rfl
theorem before2_4 (c : Dev nD) (t : Fin cfg2.N) (d) : (dats2 m c).before 4 t d = iblk2 m c 4 t :=
  ((dats2 m c).before_in_eq_fetched 4 rfl (fun _ => rfl) (fun _ _ _ => rfl) (fun t => by rw [after2_4]; rfl) t d).trans rfl
theorem before2_5 (c : Dev nD) (t : Fin cfg2.N) (d) : (dats2 m c).before 5 t d = iblk2 m c 5 t :=
  ((dats2 m c).before_in_eq_fetched 5 rfl (fun _ => rfl) (fun _ _ _ => rfl) (fun t => by rw [after2_5]; rfl) t d).trans rfl

/-- What the body is called with at point `t`, the windows one by one, -/
def bodyPre2 (c : Dev nD) (t : Fin cfg2.N) : sProp 𝕄 :=
  iprop((dats2 m c).Φ t.castSucc ∗ (dats2 m c).owesAt () t.castSucc
    ∗ (∃ d, owns (c : Thread nD τ) (st2_0 t) fullShare ((dats2 m c).before 0 t d))
    ∗ (∃ d, owns (c : Thread nD τ) (st2_1 t) fullShare ((dats2 m c).before 1 t d))
    ∗ (∃ d, owns (c : Thread nD τ) (st2_2 t) fullShare ((dats2 m c).before 2 t d))
    ∗ (∃ d, owns (c : Thread nD τ) (st2_3 t) fullShare ((dats2 m c).before 3 t d))
    ∗ (∃ d, owns (c : Thread nD τ) (st2_4 t) fullShare ((dats2 m c).before 4 t d))
    ∗ (∃ d, owns (c : Thread nD τ) (st2_5 t) fullShare ((dats2 m c).before 5 t d))
    ∗ (∃ d, owns (c : Thread nD τ) (st2_6 t) fullShare ((dats2 m c).before 6 t d)))

/-- and what it returns. -/
def bodyPost2 (c : Dev nD) (t : Fin cfg2.N) : sProp 𝕄 :=
  iprop((dats2 m c).Φ t.succ ∗ (dats2 m c).owesAt () t.succ
    ∗ owns (c : Thread nD τ) (st2_0 t) fullShare ((dats2 m c).after 0 t)
    ∗ owns (c : Thread nD τ) (st2_1 t) fullShare ((dats2 m c).after 1 t)
    ∗ owns (c : Thread nD τ) (st2_2 t) fullShare ((dats2 m c).after 2 t)
    ∗ owns (c : Thread nD τ) (st2_3 t) fullShare ((dats2 m c).after 3 t)
    ∗ owns (c : Thread nD τ) (st2_4 t) fullShare ((dats2 m c).after 4 t)
    ∗ owns (c : Thread nD τ) (st2_5 t) fullShare ((dats2 m c).after 5 t)
    ∗ owns (c : Thread nD τ) (st2_6 t) fullShare ((dats2 m c).after 6 t))

/-- The body at any point: the invariant and the core's dues pass through unread. -/
theorem sound_body2 (c : Dev nD) (t : Fin cfg2.N) :
    bodyPre2 m c t ⊢ wp frame (wpE (defs₀ (F := F)) Variants.none c none) Set.univ (bodyAt2 t) (fun _ => bodyPost2 m c t) := by
  unfold bodyPre2 bodyPost2 bodyAt2
  simp only [before2_0, before2_1, before2_2, before2_3, before2_4, before2_5]
  rw [show (dats2 m c).Φ t.succ = (dats2 m c).Φ t.castSucc from rfl,
    show (dats2 m c).owesAt () t.succ = (dats2 m c).owesAt () t.castSucc from rfl,
    after2_0, after2_1, after2_2, after2_3, after2_4, after2_5, after2_6]
  iintro ⟨HΦ, Ho, ⟨%d0, B0⟩, ⟨%d1, B1⟩, ⟨%d2, B2⟩, ⟨%d3, B3⟩, ⟨%d4, B4⟩, ⟨%d5, B5⟩, ⟨%d6, B6⟩⟩
  iapply (sound_kernel2 c Set.univ (grid2.coords t) _ _ _ _ _ _ _ _ _ _ _ _ _ _ (iblk2 m c 0 t) (iblk2 m c 1 t) (iblk2 m c 2 t) (iblk2 m c 3 t) (iblk2 m c 4 t) (iblk2 m c 5 t) _)
  isplitl [B0]; · iexact B0
  isplitl [B1]; · iexact B1
  isplitl [B2]; · iexact B2
  isplitl [B3]; · iexact B3
  isplitl [B4]; · iexact B4
  isplitl [B5]; · iexact B5
  isplitl [B6]; · iexists _; iexact B6
  iintro ⟨B0, B1, B2, B3, B4, B5, B6⟩
  isplitl [HΦ]; · iexact HΦ
  isplitl [Ho]; · iexact Ho
  isplitl [B0]; · iexact B0
  isplitl [B1]; · iexact B1
  isplitl [B2]; · iexact B2
  isplitl [B3]; · iexact B3
  isplitl [B4]; · iexact B4
  isplitl [B5]; · iexact B5
  iexact B6

/-- The body obligation of region 2's proof data. -/
theorem body_obligation2 (c : Dev nD) : BodyObligation (dats2 (F := F) m c) (defs₀ (F := F)) Variants.none () Set.univ := fun t => by
  rw [bigSep_W2, bigSep_W2]
  exact sound_body2 m c t

end Cert.Kernel.Hand

end
-- ==== Proof.LibSharedFrame.lean ====
/-
  The frame run of a one-region program whose INPUT windows may share an array (one argument handed to the
  kernel through several windows, each reading its own blocks of it).

  For distinct arrays every window holds its array whole, at the full share; when two input windows read one
  array the array's full share has to be dealt among them, and the proof data's `q` says how.  The run below
  takes that dealing as a hypothesis (`hsplit`) and concludes the same post as the run for distinct arrays:
  every window's array ends at what the proof data compute (`Dat.arrAt w N`), every other unscoped buffer ends
  at what it held when the region was entered.  The invariant carried from point to point is the proof data's
  own; it is entered from, and gives back, the core's scoped buffers that are no staging buffer (the scratch).
  The generator register is not handed to the body: a kernel that draws random bits is outside this form.

  `arrays_of_pair` is the dealing itself for the plainest case: exactly two input windows on one array, one
  holding the left half of the full share and the other the right half, every other window's array its own.
-/
import Idealize.ShloMosaic.Lib.Pipeline.Frame

noncomputable section

namespace Idealize.ShloMosaic.Pipeline.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run with a tracking invariant, for a pipeline whose windows may share arrays: from the layout facts
    short of the arrays' distinctness, the body obligation, @main's shape up to the region, the dealing of the arrays'
    buffers among the windows at entry (`hsplit`), and the invariant entered from and returned to the scratch
    buffers, every array ends at `arrAt w N` and every bypassing buffer unchanged. -/
theorem θ_run_frame_shared_track
    (hcell : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hcell p hw emb₁ defs₀ 𝒱₀ m g main hbody hne harr hstage howed
    (u₀ := initOf (cells cfgs hcell) (launchToks cfgs hcell)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr
      · iempintro
      · iexact HU)
    (hin := fun c => (show _ ⊢ (scopedRest (cfg).spec c : sProp 𝕄) from by iintro ⟨-, H⟩; iexact H).trans (hin c))
    (hout := fun c => (hout c).trans (by
      iintro H
      isplitr
      · iempintro
      · iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

/-- A whole points-to read at another name of the same buffer. -/
theorem pointsTo_ref_congr (c : Dev nD) (V : (b : Ref sig .tc) → Buf Val ((c.tc : Thread nD τ).loc b)) (q : PosShare TreeShare)
    {b b' : Ref sig .tc} (h : b' = b) :
    ((((c.tc : Thread nD τ).loc b') ↦{q} V b' : sProp 𝕄)) = (((c.tc : Thread nD τ).loc b) ↦{q} V b) := by
  subst h; rfl

/-- The dealing for exactly two windows `w₁ ≠ w₂` on one array (both inputs: their shares are the proof data's
    `q`): `w₁` holds the left half of the array's full share, `w₂` the right half, and every other window's array
    is its own, held at the full share.  The buffers behind the arrays, whole at the full share at `V`, then make the
    proof data's `arrays` at the same contents. -/
theorem arrays_of_pair (c : Dev nD) (w₁ w₂ : Fin (cfg).W) (h12 : w₁ ≠ w₂)
    (hR : arrRef (cfg).spec w₂ = arrRef (cfg).spec w₁)
    (hinj : Set.InjOn (arrRef (cfg).spec) (Finset.univ.erase w₂ : Finset (Fin (cfg).W)))
    (harr : ∀ w, ((cfg).spec w).arr.IsWhole)
    (hs₁ : (dats p c).share w₁ = fullShare.left) (hs₂ : (dats p c).share w₂ = fullShare.right)
    (hs : ∀ w, w ≠ w₁ → w ≠ w₂ → (dats p c).share w = fullShare)
    (V : (b : Ref sig .tc) → Buf Val ((c.tc : Thread nD τ).loc b))
    (F : (w : Fin (cfg).W) → Buf Val (((cfg).spec w).arr.view.loc (c.tc : Thread nD τ)))
    (hF : ∀ w, F w = V (arrRef (cfg).spec w)) :
    (arrBufs (cfg).spec c V : sProp 𝕄) ⊢ (dats p c).arrays F := by
  classical
  have himg : (Finset.univ.image (arrRef (cfg).spec)) = (Finset.univ.erase w₂).image (arrRef (cfg).spec) := by
    ext b
    simp only [Finset.mem_image, Finset.mem_univ, true_and, Finset.mem_erase, ne_eq]
    constructor
    · rintro ⟨w, rfl⟩
      by_cases hw : w = w₂
      · exact ⟨w₁, ⟨h12, trivial⟩, by rw [hw, hR]⟩
      · exact ⟨w, ⟨hw, trivial⟩, rfl⟩
    · rintro ⟨w, -, rfl⟩; exact ⟨w, rfl⟩
  have hm₁ : w₁ ∈ (Finset.univ.erase w₂ : Finset (Fin (cfg).W)) := Finset.mem_erase.mpr ⟨h12, Finset.mem_univ _⟩
  unfold arrBufs Dat.arrays
  rw [himg, BI.bigSep_image_of_injOn hinj, BI.bigSep_erase hm₁, BI.bigSep_univ_split w₂, BI.bigSep_erase hm₁]
  have hrest : (bigSep ((Finset.univ.erase w₂).erase w₁) fun w => (((c.tc : Thread nD τ).loc (arrRef (cfg).spec w)) ↦{fullShare} V (arrRef (cfg).spec w) : sProp 𝕄))
      = bigSep ((Finset.univ.erase w₂).erase w₁) fun w : Fin (cfg).W =>
          (((cfg).win w).arr.view.loc (c.tc : Thread nD τ) ↦[((cfg).win w).arr.view.set]{(dats p c).share w} F w : sProp 𝕄) :=
    BI.bigSep_congr fun w hw => by
      have h1 : w ≠ w₁ := (Finset.mem_erase.mp hw).1
      have h2 : w ≠ w₂ := (Finset.mem_erase.mp (Finset.mem_erase.mp hw).2).1
      rw [(harr w).set_eq_univ, hs w h1 h2, hF]
  rw [hrest]
  have e₁ : ((((cfg).win w₁).arr.view.loc (c.tc : Thread nD τ) ↦[((cfg).win w₁).arr.view.set]{(dats p c).share w₁} F w₁ : sProp 𝕄))
      = (((c.tc : Thread nD τ).loc (arrRef (cfg).spec w₁)) ↦{fullShare.left} V (arrRef (cfg).spec w₁)) := by
    rw [(harr w₁).set_eq_univ, hs₁, hF]
  have e₂ : ((((cfg).win w₂).arr.view.loc (c.tc : Thread nD τ) ↦[((cfg).win w₂).arr.view.set]{(dats p c).share w₂} F w₂ : sProp 𝕄))
      = (((c.tc : Thread nD τ).loc (arrRef (cfg).spec w₁)) ↦{fullShare.right} V (arrRef (cfg).spec w₁)) := by
    rw [(harr w₂).set_eq_univ, hs₂, hF]
    exact pointsTo_ref_congr c V fullShare.right hR
  rw [e₁, e₂]
  have key : ∀ (A B₁ B₂ R : sProp 𝕄), (A ⊢ iprop(B₁ ∗ B₂)) → iprop(A ∗ R) ⊢ iprop(B₂ ∗ B₁ ∗ R) := by
    intro A B₁ B₂ R h
    refine (sep_mono_left h).trans ?_
    iintro ⟨⟨HL, HRt⟩, HR⟩
    isplitl [HRt]
    · iexact HRt
    isplitl [HL]
    · iexact HL
    · iexact HR
  exact key _ _ _ _ (pointsTo_share (PosShare.mem_left_op_right fullShare)).1

end Idealize.ShloMosaic.Pipeline.SharedFrame

end
-- ==== Proof.LibSharedExit.lean ====
/-
  The reverse of dealing one array between two input windows: when exactly two input windows `w₁ ≠ w₂` of a
  pipeline read one array — `w₁` holding the left half of its full share and `w₂` the right half — and every
  other window's array is its own, held at the full share, the windows' arrays at contents that agree with a
  valuation `V` give back the distinct buffers behind them, each whole at the full share at `V`.  The two halves
  of a share rejoin because both hold the same contents.
-/
import proofs.«104506_g65979287601806_cont_sun_c4_486_7_alg».proof.Proof.LibSharedFrame

noncomputable section

namespace Idealize.ShloMosaic.Pipeline.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)

local notation "cfg" => cfgs p

/-- The windows' arrays, two of them halves of one array's share, rejoined into the distinct buffers behind them. -/
theorem arrBufs_of_pair (c : Dev nD) (w₁ w₂ : Fin (cfg).W) (h12 : w₁ ≠ w₂)
    (hR : arrRef (cfg).spec w₂ = arrRef (cfg).spec w₁)
    (hinj : Set.InjOn (arrRef (cfg).spec) (Finset.univ.erase w₂ : Finset (Fin (cfg).W)))
    (harr : ∀ w, ((cfg).spec w).arr.IsWhole)
    (hs₁ : (dats p c).share w₁ = fullShare.left) (hs₂ : (dats p c).share w₂ = fullShare.right)
    (hs : ∀ w, w ≠ w₁ → w ≠ w₂ → (dats p c).share w = fullShare)
    (V : (b : Ref sig .tc) → Buf Val ((c.tc : Thread nD τ).loc b))
    (F : (w : Fin (cfg).W) → Buf Val (((cfg).spec w).arr.view.loc (c.tc : Thread nD τ)))
    (hF : ∀ w, F w = V (arrRef (cfg).spec w)) :
    (dats p c).arrays F ⊢ (arrBufs (cfg).spec c V : sProp 𝕄) := by
  classical
  have himg : (Finset.univ.image (arrRef (cfg).spec)) = (Finset.univ.erase w₂).image (arrRef (cfg).spec) := by
    ext b
    simp only [Finset.mem_image, Finset.mem_univ, true_and, Finset.mem_erase, ne_eq]
    constructor
    · rintro ⟨w, rfl⟩
      by_cases hw : w = w₂
      · exact ⟨w₁, ⟨h12, trivial⟩, by rw [hw, hR]⟩
      · exact ⟨w, ⟨hw, trivial⟩, rfl⟩
    · rintro ⟨w, -, rfl⟩; exact ⟨w, rfl⟩
  have hm₁ : w₁ ∈ (Finset.univ.erase w₂ : Finset (Fin (cfg).W)) := Finset.mem_erase.mpr ⟨h12, Finset.mem_univ _⟩
  unfold arrBufs Dat.arrays
  rw [himg, BI.bigSep_image_of_injOn hinj, BI.bigSep_erase hm₁, BI.bigSep_univ_split w₂, BI.bigSep_erase hm₁]
  have hrest : (bigSep ((Finset.univ.erase w₂).erase w₁) fun w => (((c.tc : Thread nD τ).loc (arrRef (cfg).spec w)) ↦{fullShare} V (arrRef (cfg).spec w) : sProp 𝕄))
      = bigSep ((Finset.univ.erase w₂).erase w₁) fun w : Fin (cfg).W =>
          (((cfg).win w).arr.view.loc (c.tc : Thread nD τ) ↦[((cfg).win w).arr.view.set]{(dats p c).share w} F w : sProp 𝕄) :=
    BI.bigSep_congr fun w hw => by
      have h1 : w ≠ w₁ := (Finset.mem_erase.mp hw).1
      have h2 : w ≠ w₂ := (Finset.mem_erase.mp (Finset.mem_erase.mp hw).2).1
      rw [(harr w).set_eq_univ, hs w h1 h2, hF]
  rw [hrest]
  have e₁ : ((((cfg).win w₁).arr.view.loc (c.tc : Thread nD τ) ↦[((cfg).win w₁).arr.view.set]{(dats p c).share w₁} F w₁ : sProp 𝕄))
      = (((c.tc : Thread nD τ).loc (arrRef (cfg).spec w₁)) ↦{fullShare.left} V (arrRef (cfg).spec w₁)) := by
    rw [(harr w₁).set_eq_univ, hs₁, hF]
  have e₂ : ((((cfg).win w₂).arr.view.loc (c.tc : Thread nD τ) ↦[((cfg).win w₂).arr.view.set]{(dats p c).share w₂} F w₂ : sProp 𝕄))
      = (((c.tc : Thread nD τ).loc (arrRef (cfg).spec w₁)) ↦{fullShare.right} V (arrRef (cfg).spec w₁)) := by
    rw [(harr w₂).set_eq_univ, hs₂, hF]
    exact pointsTo_ref_congr c V fullShare.right hR
  rw [e₁, e₂]
  have key : ∀ (A B₁ B₂ R : sProp 𝕄), (iprop(B₁ ∗ B₂) ⊢ A) → iprop(B₂ ∗ B₁ ∗ R) ⊢ iprop(A ∗ R) := by
    intro A B₁ B₂ R h
    refine Entails.trans ?_ (sep_mono_left h)
    iintro ⟨H2, H1, HR⟩
    isplitr [HR]
    · isplitl [H1]
      · iexact H1
      · iexact H2
    · iexact HR
  exact key _ _ _ _ (pointsTo_share (PosShare.mem_left_op_right fullShare)).2

end Idealize.ShloMosaic.Pipeline.SharedFrame

end
-- ==== Proof.KbSegs.lean ====
/-
  The three kernel regions as segments of the program, for any float instance.

  Between two items of the program a core holds its unscoped buffers, each whole, at a known valuation — the
  launch contents after the host operations; then, region by region, the output arrays replaced by what the
  write-backs left — and owes no other core anything.  A region is entered by dealing those buffers: the
  arrays its windows stage go to the pipeline (an array read through two windows is dealt as the two halves of
  its share), every other unscoped buffer bypasses the region untouched, and the scoped buffers that are no
  staging buffer of the region are the body's invariant, which the body never opens.  At the region's exit the
  arrays come back at their final contents — an input's as it was found, an output's at what the write-backs
  made — and together with the bypassing buffers they are again all the unscoped buffers, at the next valuation.
-/
import proofs.«104506_g65979287601806_cont_sun_c4_486_7_alg».proof.Proof.KbBody0
import proofs.«104506_g65979287601806_cont_sun_c4_486_7_alg».proof.Proof.KbBody1
import proofs.«104506_g65979287601806_cont_sun_c4_486_7_alg».proof.Proof.KbBody2
import proofs.«104506_g65979287601806_cont_sun_c4_486_7_alg».proof.Proof.LibSharedExit
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev 𝒱₀ : Variants := Variants.none
abbrev L : GSem nD τ sig → Finset Unit := fun _ => ∅
abbrev lv : GSem nD τ sig → Unit → ℕ := fun _ _ => 0

/-- What rides beside the buffers between items: the core owes nothing. -/
abbrev Rw (c : Dev nD) : sProp 𝕄 := iprop(∃ W, owes (c : Thread nD τ) (0 : CellTallies nD τ sig Unit) W)

/-! ## The valuations between the regions -/

theorem W2_v5 (c : Dev nD) : W2 m c main_v5 = out5 m c := by unfold W2; exact Function.update_self _ _ _
theorem W2_of (c : Dev nD) (r : Ref sig .tc) (h : r ≠ main_v5) : W2 m c r = Gen.V1 m c r := by
  unfold W2; exact Function.update_of_ne (StableHlo.devRef_ne_of_ne h) _ _
theorem W3_v61 (c : Dev nD) : W3 m c main_v6_1 = out61 m c := by unfold W3; exact Function.update_self _ _ _
theorem W3_v60 (c : Dev nD) : W3 m c main_v6_0 = out60 m c := by
  unfold W3
  rw [Function.update_of_ne (StableHlo.devRef_ne_of_ne (by decide : main_v6_0 ≠ main_v6_1))]
  exact Function.update_self _ _ _
theorem W3_of (c : Dev nD) (r : Ref sig .tc) (h0 : r ≠ main_v6_0) (h1 : r ≠ main_v6_1) : W3 m c r = W2 m c r := by
  unfold W3
  rw [Function.update_of_ne (StableHlo.devRef_ne_of_ne h1), Function.update_of_ne (StableHlo.devRef_ne_of_ne h0)]
theorem W4_v7 (c : Dev nD) : W4 m c main_v7 = out7 m c := by unfold W4; exact Function.update_self _ _ _
theorem W4_of (c : Dev nD) (r : Ref sig .tc) (h : r ≠ main_v7) : W4 m c r = W3 m c r := by
  unfold W4; exact Function.update_of_ne (StableHlo.devRef_ne_of_ne h) _ _

/-! ## Region 0 -/

/-- Region 0's arrays at its last point are the next valuation's. -/
theorem final0 (c : Dev nD) (w : Fin cfg0.W) : (dats0 m c).arrAt w cfg0.N = E2 m c (Pipeline.arrRef spec0 w) := by
  match w with
  | ⟨0, _⟩ => exact ((dats0 m c).arrAt_in 0 rfl _).trans (W2_of m c main_arg0 (by decide)).symm
  | ⟨1, _⟩ => exact ((dats0 m c).arrAt_in 1 rfl _).trans (W2_of m c main_arg2 (by decide)).symm
  | ⟨2, _⟩ => exact (W2_v5 m c).symm

/-- The buffers bypassing region 0 are the same at both valuations. -/
theorem rest0 (c : Dev nD) :
    (Pipeline.unscopedRest (Ix := Unit) (Name := ℕ) (U := UR sig nD τ) (Lvl := ℕ) spec0 c (E1 m c) : sProp 𝕄)
      = Pipeline.unscopedRest spec0 c (E2 m c) := by
  unfold Pipeline.unscopedRest
  refine bigSep_congr fun b hb => ?_
  have hb' : b ∉ Finset.univ.image (Pipeline.arrRef spec0) := (Finset.mem_sdiff.mp hb).2
  have h5 : b ≠ main_v5 := fun h => hb' (h ▸ Finset.mem_image.mpr ⟨2, Finset.mem_univ _, rfl⟩)
  rw [show E2 m c b = E1 m c b from W2_of m c b h5]

-- the launch lemmas stated over `cfgs p` unify with the pinned configuration only when unification may unfold
-- plain definitions in a metavariable's type
set_option backward.isDefEq.respectTransparency.types false in
/-- REGION 0: entered from the valuation after the host operations, left at the next one. -/
def reg0 : RegionSeg (pcfgs (F := F)) adm (pdats m) () defs₀ 𝒱₀ L lv 0 where
  win := launch0.win.to₀
  block_pos := launch0.block_pos
  stage_whole := launch0.stage_whole
  K := PEmpty
  osem := fun k => k.elim
  ho := Pipeline.OwnSemFacts.none _
  hbody c := (body_obligation0 m c).loose
  hwaits := Pipeline.hwaits_of_owed_zero _ _ _ _ L lv 0 fun _ _ => rfl
  pre c := iprop(StableHlo.held (c : Thread nD τ) (Pipeline.ucRefs τ sig) (Gen.V1 m c) ∗ Rw c)
  post c := iprop(StableHlo.held (c : Thread nD τ) (Pipeline.ucRefs τ sig) (W2 m c) ∗ Rw c)
  X _ := iprop(emp)
  Y _ := iprop(emp)
  Z c := Pipeline.unscopedRest spec0 c (E1 m c)
  hentry c := by
    rw [show StableHlo.held (c : Thread nD τ) (Pipeline.ucRefs τ sig) (Gen.V1 m c) = unscopedBufs c (E1 m c) from (Pipeline.unscopedBufs_held c _).symm]
    have hsplit := Pipeline.arrays_of_unscopedBufs (p := (0 : Fin 3)) (pcfgs (F := F)) adm (pdats m) launch0.win launch0.arr_whole c
      ((dats0 m c).share_full fun _ => rfl) (E1 m c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    show iprop(iprop(emp) ∗ _ ∗ Pipeline.scopedRest spec0 c) ⊢ (Pipeline.scopedRest spec0 c : sProp 𝕄)
    iintro ⟨-, -, Hr⟩
    iexact Hr
  hout c := by
    rw [Pipeline.ownSems0_none]
    show (Pipeline.scopedRest spec0 c : sProp 𝕄) ⊢ iprop(iprop(emp) ∗ emp ∗ Pipeline.scopedRest spec0 c)
    iintro Hr
    isplitr; · iempintro
    isplitr; · iempintro
    iexact Hr
  hexit c := by
    rw [show StableHlo.held (c : Thread nD τ) (Pipeline.ucRefs τ sig) (W2 m c) = unscopedBufs c (E2 m c) from (Pipeline.unscopedBufs_held c _).symm,
      Pipeline.unscopedBufs_split cfgs 0 launch0.win.arr_unscoped launch0.win.arr_inj c (E2 m c)]
    have hA : (pdats m 0 c).arrays (fun w => (pdats m 0 c).arrAt w cfg0.N)
        ⊢ (bigSep Finset.univ fun w => (((c : Thread nD τ).loc (Pipeline.arrRef spec0 w)) ↦{fullShare} E2 m c (Pipeline.arrRef spec0 w) : sProp 𝕄)) := by
      rw [Pipeline.arrays_eq cfgs (pdats m) 0 c launch0.arr_whole ((dats0 m c).share_full fun _ => rfl)]
      exact Entails.of_eq (bigSep_congr fun w _ => by rw [show (pdats m 0 c).arrAt w cfg0.N = E2 m c (Pipeline.arrRef spec0 w) from final0 m c w]; rfl)
    iintro ⟨Ha, HO, -, Hr⟩
    imodintro
    isplitr [HO]
    · isplitl [Ha]
      · iapply hA; iexact Ha
      · iapply (Entails.of_eq (rest0 m c)); iexact Hr
    · unfold Pipeline.Dat.owesAt Pipeline.owesWithin
      icases HO with ⟨%W, -, HO⟩; iexists W; iexact HO

/-! ## Region 1 -/

/-- Region 1's arrays at its last point are the next valuation's. -/
theorem final1 (c : Dev nD) (w : Fin cfg1.W) : (dats1 m c).arrAt w cfg1.N = E3 m c (Pipeline.arrRef spec1 w) := by
  match w with
  | ⟨0, _⟩ => exact ((dats1 m c).arrAt_in 0 rfl _).trans (W3_of m c main_arg1 (by decide) (by decide)).symm
  | ⟨1, _⟩ => exact ((dats1 m c).arrAt_in 1 rfl _).trans (W3_of m c main_arg1 (by decide) (by decide)).symm
  | ⟨2, _⟩ => exact ((dats1 m c).arrAt_in 2 rfl _).trans (W3_of m c main_v5 (by decide) (by decide)).symm
  | ⟨3, _⟩ => exact ((dats1 m c).arrAt_in 3 rfl _).trans (W3_of m c main_v0 (by decide) (by decide)).symm
  | ⟨4, _⟩ => exact ((dats1 m c).arrAt_in 4 rfl _).trans (W3_of m c main_arg4 (by decide) (by decide)).symm
  | ⟨5, _⟩ => exact ((dats1 m c).arrAt_in 5 rfl _).trans (W3_of m c main_v3 (by decide) (by decide)).symm
  | ⟨6, _⟩ => exact ((dats1 m c).arrAt_in 6 rfl _).trans (W3_of m c main_v2 (by decide) (by decide)).symm
  | ⟨7, _⟩ => exact (W3_v60 m c).symm
  | ⟨8, _⟩ => exact (W3_v61 m c).symm

/-- The buffers bypassing region 1 are the same at both valuations. -/
theorem rest1 (c : Dev nD) :
    (Pipeline.unscopedRest (Ix := Unit) (Name := ℕ) (U := UR sig nD τ) (Lvl := ℕ) spec1 c (E2 m c) : sProp 𝕄)
      = Pipeline.unscopedRest spec1 c (E3 m c) := by
  unfold Pipeline.unscopedRest
  refine bigSep_congr fun b hb => ?_
  have hb' : b ∉ Finset.univ.image (Pipeline.arrRef spec1) := (Finset.mem_sdiff.mp hb).2
  have hn0 : b ≠ main_v6_0 := fun h => hb' (h ▸ Finset.mem_image.mpr ⟨7, Finset.mem_univ _, rfl⟩)
  have hn1 : b ≠ main_v6_1 := fun h => hb' (h ▸ Finset.mem_image.mpr ⟨8, Finset.mem_univ _, rfl⟩)
  rw [show E3 m c b = E2 m c b from W3_of m c b hn0 hn1]

/-- Apart from the second window on the support, the windows' arrays are distinct. -/
theorem injOn1 : Set.InjOn (Pipeline.arrRef spec1) (Finset.univ.erase (1 : Fin cfg1.W) : Finset (Fin cfg1.W)) := by
  have key : ∀ a b : Fin 9, a ≠ 1 → b ≠ 1 → Pipeline.arrRef spec1 a = Pipeline.arrRef spec1 b → a = b := by decide
  intro a ha b hb h
  exact key a b (Finset.mem_erase.mp ha).1 (Finset.mem_erase.mp hb).1 h

/-- Every window but the two on the support holds its array at the full share. -/
theorem share1_rest (c : Dev nD) : ∀ w : Fin cfg1.W, w ≠ 0 → w ≠ 1 → (dats1 m c).share w = fullShare := fun w h0 h1 =>
  match w, h0, h1 with
  | ⟨0, _⟩, h0, _ => absurd rfl h0
  | ⟨1, _⟩, _, h1 => absurd rfl h1
  | ⟨2, _⟩, _, _ => rfl
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl

set_option backward.isDefEq.respectTransparency.types false in
/-- REGION 1: the support is dealt to its two windows as the halves of its share and rejoined at the exit. -/
def reg1 : RegionSeg (pcfgs (F := F)) adm (pdats m) () defs₀ 𝒱₀ L lv 1 where
  win := winFacts₀1
  block_pos := block_pos1
  stage_whole := stage_whole1
  K := PEmpty
  osem := fun k => k.elim
  ho := Pipeline.OwnSemFacts.none _
  hbody c := (body_obligation1 m c).loose
  hwaits := Pipeline.hwaits_of_owed_zero _ _ _ _ L lv 1 fun _ _ => rfl
  pre c := iprop(StableHlo.held (c : Thread nD τ) (Pipeline.ucRefs τ sig) (W2 m c) ∗ Rw c)
  post c := iprop(StableHlo.held (c : Thread nD τ) (Pipeline.ucRefs τ sig) (W3 m c) ∗ Rw c)
  X _ := iprop(emp)
  Y _ := iprop(emp)
  Z c := Pipeline.unscopedRest spec1 c (E2 m c)
  hentry c := by
    rw [show StableHlo.held (c : Thread nD τ) (Pipeline.ucRefs τ sig) (W2 m c) = unscopedBufs c (E2 m c) from (Pipeline.unscopedBufs_held c _).symm,
      Pipeline.unscopedBufs_split₀ cfgs 1 winFacts₀1.arr_unscoped c (E2 m c)]
    have hsplit := Pipeline.SharedFrame.arrays_of_pair cfgs (pdats m) 1 c 0 1 (by decide) rfl injOn1 arr_whole1 rfl rfl (share1_rest m c)
      (E2 m c) (fun w => (pdats m 1 c).arrAt w 0) (fun w => rfl)
    iintro ⟨⟨⟨Hab, Hr⟩, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    show iprop(iprop(emp) ∗ _ ∗ Pipeline.scopedRest spec1 c) ⊢ (Pipeline.scopedRest spec1 c : sProp 𝕄)
    iintro ⟨-, -, Hr⟩
    iexact Hr
  hout c := by
    rw [Pipeline.ownSems0_none]
    show (Pipeline.scopedRest spec1 c : sProp 𝕄) ⊢ iprop(iprop(emp) ∗ emp ∗ Pipeline.scopedRest spec1 c)
    iintro Hr
    isplitr; · iempintro
    isplitr; · iempintro
    iexact Hr
  hexit c := by
    rw [show StableHlo.held (c : Thread nD τ) (Pipeline.ucRefs τ sig) (W3 m c) = unscopedBufs c (E3 m c) from (Pipeline.unscopedBufs_held c _).symm,
      Pipeline.unscopedBufs_split₀ cfgs 1 winFacts₀1.arr_unscoped c (E3 m c)]
    have hjoin := Pipeline.SharedFrame.arrBufs_of_pair cfgs (pdats m) 1 c 0 1 (by decide) rfl injOn1 arr_whole1 rfl rfl (share1_rest m c)
      (E3 m c) (fun w => (pdats m 1 c).arrAt w cfg1.N) (final1 m c)
    iintro ⟨Ha, HO, -, Hr⟩
    ihave Hab := hjoin $$ Ha
    imodintro
    isplitr [HO]
    · isplitl [Hab]; · iexact Hab
      iapply (Entails.of_eq (rest1 m c)); iexact Hr
    · unfold Pipeline.Dat.owesAt Pipeline.owesWithin
      icases HO with ⟨%W, -, HO⟩; iexists W; iexact HO

/-- The core's unscoped buffers at the end, as a function of the references. -/
abbrev E4 (c : Dev nD) (b : Ref sig .tc) : Buf (Elt F) ((c : Thread nD τ).loc b) := W4 m c b

/-! ## Region 2 -/

/-- Region 2's arrays at its last point are the next valuation's. -/
theorem final2 (c : Dev nD) (w : Fin cfg2.W) : (dats2 m c).arrAt w cfg2.N = E4 m c (Pipeline.arrRef spec2 w) := by
  match w with
  | ⟨0, _⟩ => exact ((dats2 m c).arrAt_in 0 rfl _).trans (W4_of m c main_arg1 (by decide)).symm
  | ⟨1, _⟩ => exact ((dats2 m c).arrAt_in 1 rfl _).trans (W4_of m c main_arg1 (by decide)).symm
  | ⟨2, _⟩ => exact ((dats2 m c).arrAt_in 2 rfl _).trans (W4_of m c main_v6_0 (by decide)).symm
  | ⟨3, _⟩ => exact ((dats2 m c).arrAt_in 3 rfl _).trans (W4_of m c main_v1 (by decide)).symm
  | ⟨4, _⟩ => exact ((dats2 m c).arrAt_in 4 rfl _).trans (W4_of m c main_v4 (by decide)).symm
  | ⟨5, _⟩ => exact ((dats2 m c).arrAt_in 5 rfl _).trans (W4_of m c main_v6_1 (by decide)).symm
  | ⟨6, _⟩ => exact (W4_v7 m c).symm

/-- The buffers bypassing region 2 are the same at both valuations. -/
theorem rest2 (c : Dev nD) :
    (Pipeline.unscopedRest (Ix := Unit) (Name := ℕ) (U := UR sig nD τ) (Lvl := ℕ) spec2 c (E3 m c) : sProp 𝕄)
      = Pipeline.unscopedRest spec2 c (E4 m c) := by
  unfold Pipeline.unscopedRest
  refine bigSep_congr fun b hb => ?_
  have hb' : b ∉ Finset.univ.image (Pipeline.arrRef spec2) := (Finset.mem_sdiff.mp hb).2
  have hn0 : b ≠ main_v7 := fun h => hb' (h ▸ Finset.mem_image.mpr ⟨6, Finset.mem_univ _, rfl⟩)
  rw [show E4 m c b = E3 m c b from W4_of m c b hn0]

/-- Apart from the second window on the support, the windows' arrays are distinct. -/
theorem injOn2 : Set.InjOn (Pipeline.arrRef spec2) (Finset.univ.erase (1 : Fin cfg2.W) : Finset (Fin cfg2.W)) := by
  have key : ∀ a b : Fin 7, a ≠ 1 → b ≠ 1 → Pipeline.arrRef spec2 a = Pipeline.arrRef spec2 b → a = b := by decide
  intro a ha b hb h
  exact key a b (Finset.mem_erase.mp ha).1 (Finset.mem_erase.mp hb).1 h

/-- Every window but the two on the support holds its array at the full share. -/
theorem share2_rest (c : Dev nD) : ∀ w : Fin cfg2.W, w ≠ 0 → w ≠ 1 → (dats2 m c).share w = fullShare := fun w h0 h1 =>
  match w, h0, h1 with
  | ⟨0, _⟩, h0, _ => absurd rfl h0
  | ⟨1, _⟩, _, h1 => absurd rfl h1
  | ⟨2, _⟩, _, _ => rfl
  | ⟨3, _⟩, _, _ => rfl
  | ⟨4, _⟩, _, _ => rfl
  | ⟨5, _⟩, _, _ => rfl
  | ⟨6, _⟩, _, _ => rfl

set_option backward.isDefEq.respectTransparency.types false in
/-- REGION 2: the support is dealt to its two windows as the halves of its share and rejoined at the exit. -/
def reg2 : RegionSeg (pcfgs (F := F)) adm (pdats m) () defs₀ 𝒱₀ L lv 2 where
  win := winFacts₀2
  block_pos := block_pos2
  stage_whole := stage_whole2
  K := PEmpty
  osem := fun k => k.elim
  ho := Pipeline.OwnSemFacts.none _
  hbody c := (body_obligation2 m c).loose
  hwaits := Pipeline.hwaits_of_owed_zero _ _ _ _ L lv 2 fun _ _ => rfl
  pre c := iprop(StableHlo.held (c : Thread nD τ) (Pipeline.ucRefs τ sig) (W3 m c) ∗ Rw c)
  post c := iprop(StableHlo.held (c : Thread nD τ) (Pipeline.ucRefs τ sig) (W4 m c) ∗ Rw c)
  X _ := iprop(emp)
  Y _ := iprop(emp)
  Z c := Pipeline.unscopedRest spec2 c (E3 m c)
  hentry c := by
    rw [show StableHlo.held (c : Thread nD τ) (Pipeline.ucRefs τ sig) (W3 m c) = unscopedBufs c (E3 m c) from (Pipeline.unscopedBufs_held c _).symm,
      Pipeline.unscopedBufs_split₀ cfgs 2 winFacts₀2.arr_unscoped c (E3 m c)]
    have hsplit := Pipeline.SharedFrame.arrays_of_pair cfgs (pdats m) 2 c 0 1 (by decide) rfl injOn2 arr_whole2 rfl rfl (share2_rest m c)
      (E3 m c) (fun w => (pdats m 2 c).arrAt w 0) (fun w => rfl)
    iintro ⟨⟨⟨Hab, Hr⟩, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    show iprop(iprop(emp) ∗ _ ∗ Pipeline.scopedRest spec2 c) ⊢ (Pipeline.scopedRest spec2 c : sProp 𝕄)
    iintro ⟨-, -, Hr⟩
    iexact Hr
  hout c := by
    rw [Pipeline.ownSems0_none]
    show (Pipeline.scopedRest spec2 c : sProp 𝕄) ⊢ iprop(iprop(emp) ∗ emp ∗ Pipeline.scopedRest spec2 c)
    iintro Hr
    isplitr; · iempintro
    isplitr; · iempintro
    iexact Hr
  hexit c := by
    rw [show StableHlo.held (c : Thread nD τ) (Pipeline.ucRefs τ sig) (W4 m c) = unscopedBufs c (E4 m c) from (Pipeline.unscopedBufs_held c _).symm,
      Pipeline.unscopedBufs_split₀ cfgs 2 winFacts₀2.arr_unscoped c (E4 m c)]
    have hjoin := Pipeline.SharedFrame.arrBufs_of_pair cfgs (pdats m) 2 c 0 1 (by decide) rfl injOn2 arr_whole2 rfl rfl (share2_rest m c)
      (E4 m c) (fun w => (pdats m 2 c).arrAt w cfg2.N) (final2 m c)
    iintro ⟨Ha, HO, -, Hr⟩
    ihave Hab := hjoin $$ Ha
    imodintro
    isplitr [HO]
    · isplitl [Hab]; · iexact Hab
      iapply (Entails.of_eq (rest2 m c)); iexact Hr
    · unfold Pipeline.Dat.owesAt Pipeline.owesWithin
      icases HO with ⟨%W, -, HO⟩; iexists W; iexact HO

end Cert.Kernel.Hand

end
-- ==== Proof.KbRun.lean ====
/-
  The run of the whole program, for any float instance: from any memory with every semaphore counter at zero,
  every weakly fair execution on the TensorCores terminates, faulting nowhere, and in every final state the
  result array holds what region 2's write-backs made of it and every argument array holds what it held at
  launch.  The program is the list of its items — the five host operations, then the three kernel regions —
  each entered from the thread state the one before it left; the first thread state is made from what the
  launch deals (the unscoped buffers at the launch memory, the core owing nothing), and the last is read against
  a final state: the result at the last valuation's contents, each argument at a buffer no item writes.
-/
import proofs.«104506_g65979287601806_cont_sun_c4_486_7_alg».proof.Proof.KbSegs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An argument array is written by no item: it holds its launch contents at the last valuation. -/
theorem W4_arg (c : Dev nD) (r : Ref sig .tc) (h7 : r ≠ main_v7) (h60 : r ≠ main_v6_0) (h61 : r ≠ main_v6_1) (h5 : r ≠ main_v5)
    (hh : r ∉ Gen.hostOps0_W) : W4 m c r = m ((c : Thread nD τ).loc r) :=
  (W4_of m c r h7).trans <| (W3_of m c r h60 h61).trans <| (W2_of m c r h5).trans <| (Gen.V1_of m c r hh).trans rfl

/-- The host operations as a segment: the unscoped buffers from the launch valuation, the core's dues riding along. -/
abbrev hostSeg : HostSeg (Ix := Unit) (Name := ℕ) (U := UR sig nD τ) (Lvl := ℕ) (pcfgs (F := F)) defs₀ 𝒱₀ L lv :=
  Gen.seg0 m 𝒱₀ L lv (fun _ => Rw)

/-- The program's items, in order. -/
abbrev segs : List (Seg (pcfgs (F := F)) adm (pdats m) () defs₀ 𝒱₀ L lv) :=
  [.host (hostSeg m), .region (reg0 m), .region (reg1 m), .region (reg2 m)]

-- the launch theorem's implicit arguments are found by unifying its conclusion with this one, which takes unfolding plain
-- definitions in a metavariable's type
set_option backward.isDefEq.respectTransparency.types false in
/-- THE RUN: the result array at `out7`, every argument as launched. -/
theorem run_main : θ_run defs (onTc (τ := τ) (main (F := F))) ⟨m, fun _ => 0, ρ⟩ (fun r => ∀ c : Dev nD,
      r.2.mem ((c.tc : Thread nD τ).loc main_v7) = out7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (segs m)
    (fun c Q => by rw [main_segs adm (pdats m) () 𝒱₀ L lv (hostSeg m) (reg0 m) (reg1 m) (reg2 m) rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rw c))
    (Tₙ := fun c => StableHlo.held (c : Thread nD τ) (Pipeline.ucRefs τ sig) (W4 m c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c) from Pipeline.unscopedBufs_held c (Gen.V0 m c)]
      iintro ⟨⟨Hh, -, HO, -, -, -⟩, -⟩
      imodintro
      isplitl [Hh]; · iexact Hh
      iexists ∅; iexact HO)
    (QY := fun c s => s.mem ((c.tc : Thread nD τ).loc main_v7) = out7 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => by
      unfold StableHlo.held
      iintro ⟨Hh, HSI⟩
      ihave Hr := (pointsTo_read_all (Pipeline.ucRefs τ sig) (fun b => ((c : Thread nD τ).1, b)) (W4 m c) s') $$ [Hh HSI]
      · isplitl [Hh] <;> iassumption
      icases Hr with ⟨%h, HSI⟩
      imodintro
      isplitr
      · ipureintro
        exact ⟨(h (Proc.devRef .tc main_v7) (Finset.mem_filter.mpr ⟨StableHlo.devRef_mem_tcRefs main_v7, by decide⟩)).trans (W4_v7 m c),
        (h (Proc.devRef .tc main_arg0) (Finset.mem_filter.mpr ⟨StableHlo.devRef_mem_tcRefs main_arg0, by decide⟩)).trans (W4_arg m c main_arg0 (by decide) (by decide) (by decide) (by decide) (by decide)),
        (h (Proc.devRef .tc main_arg1) (Finset.mem_filter.mpr ⟨StableHlo.devRef_mem_tcRefs main_arg1, by decide⟩)).trans (W4_arg m c main_arg1 (by decide) (by decide) (by decide) (by decide) (by decide)),
        (h (Proc.devRef .tc main_arg2) (Finset.mem_filter.mpr ⟨StableHlo.devRef_mem_tcRefs main_arg2, by decide⟩)).trans (W4_arg m c main_arg2 (by decide) (by decide) (by decide) (by decide) (by decide)),
        (h (Proc.devRef .tc main_arg3) (Finset.mem_filter.mpr ⟨StableHlo.devRef_mem_tcRefs main_arg3, by decide⟩)).trans (W4_arg m c main_arg3 (by decide) (by decide) (by decide) (by decide) (by decide)),
        (h (Proc.devRef .tc main_arg4) (Finset.mem_filter.mpr ⟨StableHlo.devRef_mem_tcRefs main_arg4, by decide⟩)).trans (W4_arg m c main_arg4 (by decide) (by decide) (by decide) (by decide) (by decide)),
        (h (Proc.devRef .tc main_arg5) (Finset.mem_filter.mpr ⟨StableHlo.devRef_mem_tcRefs main_arg5, by decide⟩)).trans (W4_arg m c main_arg5 (by decide) (by decide) (by decide) (by decide) (by decide)),
        (h (Proc.devRef .tc main_arg6) (Finset.mem_filter.mpr ⟨StableHlo.devRef_mem_tcRefs main_arg6, by decide⟩)).trans (W4_arg m c main_arg6 (by decide) (by decide) (by decide) (by decide) (by decide)),
        (h (Proc.devRef .tc main_arg7) (Finset.mem_filter.mpr ⟨StableHlo.devRef_mem_tcRefs main_arg7, by decide⟩)).trans (W4_arg m c main_arg7 (by decide) (by decide) (by decide) (by decide) (by decide))⟩
      · iexact HSI)
    (hQ := fun _ h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.Kernel.Hand

end
-- ==== Proof.KiData.lean ====
/-
  The proof data of the three kernel regions, for any float instance.

  The program runs, after five host operations (three bias vectors reshaped to rows, the read-out matrix
  cut into its upper and lower halves), three kernel regions over the core's buffers:

    region 0 (one point):   g0 = x · W0, written whole;
    region 1 (25 points):   point t reads rows [400t, 400t+400) of the support as two slabs of 200 rows, the
                            whole of g0, the bias row, W1, the read-out's upper half and its bias row, and writes
                            rows [400t, 400t+400) of g1 = h0 · W1 and of p = h0 · Wp_top + bp, each as an upper
                            and a lower half of 200 rows;
    region 2 (25 points):   point t reads the same two slabs of the support, the whole of g1, the second bias
                            row, the read-out's lower half and rows [400t, 400t+400) of p, and writes those rows
                            of the result.

  What a region's body leaves in an output window's staging buffer is the canon of its two stores — the lower
  half's store last — over the payloads of the blocks it was handed; an input window's buffer is left as found.
  Between regions the core's unscoped buffers hold: the launch contents after the host operations, then each
  region's output arrays replaced by what the pipeline's write-backs make of them (`arrAt` at the last point).
-/
import proofs.«104506_g65979287601806_cont_sun_c4_486_7_alg».proof.Proof.Gen.KernelIdeal.Regions
import proofs.«104506_g65979287601806_cont_sun_c4_486_7_alg».proof.Proof.Gen.KernelIdeal.Skeleton
import proofs.«104506_g65979287601806_cont_sun_c4_486_7_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-! ## The rectangles the bodies load and store through -/

/-- The whole of a 10000 × 128 buffer. -/
abbrev rX : Rect S10000x128 := Rect.unit (s := S10000x128) ![0, 0] S10000x128.size inb_S10000x128_S10000x128_0_0
/-- The whole of a 128 × 128 buffer. -/
abbrev rW : Rect S128x128 := Rect.unit (s := S128x128) ![0, 0] S128x128.size inb_S128x128_S128x128_0_0
/-- The whole of a 200 × 10000 slab. -/
abbrev rS : Rect S200x10000 := Rect.unit (s := S200x10000) ![0, 0] S200x10000.size inb_S200x10000_S200x10000_0_0
/-- The whole of a 1 × 128 row. -/
abbrev rB : Rect S1x128 := Rect.unit (s := S1x128) ![0, 0] S1x128.size inb_S1x128_S1x128_0_0
/-- Rows [0, 200) of a 400 × 128 block. -/
abbrev rTop : Rect S400x128 := Rect.unit (s := S400x128) ![0, 0] S200x128.size inb_S400x128_S200x128_0_0
/-- Rows [200, 400) of a 400 × 128 block. -/
abbrev rBot : Rect S400x128 := Rect.unit (s := S400x128) ![200, 0] S200x128.size inb_S400x128_S200x128_200_0

/-! ## What each body leaves in its output windows' buffers -/

/-- Region 0's output block: the product of the two input blocks, stored whole. -/
def blk0 (x0 : Vec F S10000x128 .f32) (x1 : Vec F S128x128 .f32) : Vec F S10000x128 .bf16 :=
  View.canon [⟨rX, k0_pay1 (View.ld x0 rX) (View.ld x1 rW)⟩]

/-- Region 1's first output block (rows of `h0 · W1`): the lower half from the second slab, the upper from the first. -/
def blk1_7 (s0 s1 : Vec F S200x10000 .f32) (g : Vec F S10000x128 .bf16) (b : Vec F S1x128 .f32) (w1 : Vec F S128x128 .f32) :
    Vec F S400x128 .bf16 :=
  View.canon [⟨rBot, k1_pay2 (k1_pay8 (View.ld g rX) (View.ld s1 rS) (View.ld b rB)) (k1_pay9 (F := F)) (View.ld w1 rW)⟩,
    ⟨rTop, k1_pay6 (View.ld g rX) (View.ld s0 rS) (View.ld b rB) (View.ld w1 rW)⟩]

/-- Region 1's second output block (rows of `h0 · Wp_top + bp`). -/
def blk1_8 (s0 s1 : Vec F S200x10000 .f32) (g : Vec F S10000x128 .bf16) (b : Vec F S1x128 .f32) (wt : Vec F S128x128 .f32)
    (bpr : Vec F S1x128 .f32) : Vec F S400x128 .f32 :=
  View.canon [⟨rBot, k1_pay3 (k1_pay8 (View.ld g rX) (View.ld s1 rS) (View.ld b rB)) (k1_pay9 (F := F)) (View.ld wt rW) (View.ld bpr rB)⟩,
    ⟨rTop, k1_pay7 (View.ld g rX) (View.ld s0 rS) (View.ld b rB) (View.ld wt rW) (View.ld bpr rB)⟩]

/-- Region 2's output block (rows of the result): each half is that half of the partial block plus the second
    layer's read-out of its slab. -/
def blk2_6 (s0 s1 : Vec F S200x10000 .f32) (g : Vec F S10000x128 .bf16) (b : Vec F S1x128 .f32) (wb : Vec F S128x128 .f32)
    (pb : Vec F S400x128 .f32) : Vec F S400x128 .f32 :=
  View.canon [⟨rBot, k2_pay1 (k2_pay4 (View.ld pb rBot)) (k2_pay5 (View.ld g rX) (View.ld s1 rS) (View.ld b rB) (View.ld wb rW))⟩,
    ⟨rTop, k2_pay3 (View.ld g rX) (View.ld s0 rS) (View.ld b rB) (View.ld pb rTop) (View.ld wb rW)⟩]

/-- The two halves tile a 400 × 128 block. -/
theorem cover400 {e : EltTy} (p0 p1 : Vec F S200x128 e) (y : S400x128.Idx) :
    ∃ pc ∈ ([⟨rBot, p0⟩, ⟨rTop, p1⟩] : List (View.Piece (Elt F) S400x128 e)), y ∈ pc.1.set :=
  View.cover_of_tiled [⟨rBot, p0⟩, ⟨rTop, p1⟩] S200x128.size (by rfl) y

/-- One whole store covers a 10000 × 128 buffer. -/
theorem cover10000 {e : EltTy} (p0 : Vec F S10000x128 e) (y : S10000x128.Idx) :
    ∃ pc ∈ ([⟨rX, p0⟩] : List (View.Piece (Elt F) S10000x128 e)), y ∈ pc.1.set :=
  View.cover_of_tiled [⟨rX, p0⟩] S10000x128.size (by rfl) y

variable (m : (ℓ : Loc nD τ sig) → Buf (Elt F) ℓ)

/-! ## Region 0 -/

/-- The core's unscoped buffers when region 0 is entered: the launch contents after the host operations. -/
abbrev E1 (c : Dev nD) (b : Ref sig .tc) : Buf (Elt F) ((c : Thread nD τ).loc b) := Gen.V1 m c b

/-- Window `w`'s block of its array at point `t` of region 0. -/
def iblk0 (c : Dev nD) (w : Fin cfg0.W) (t : Fin cfg0.N) : ((cfg0.win w).xblock (cfg0.grid.coords t)).Idx → Elt F (cfg0.win w).elt :=
  ((cfg0.win w).blk t).view.read (Elt F) (E1 m c (Pipeline.arrRef spec0 w))

/-- Region 0's proof data. -/
def dats0 (c : Dev nD) : Dat τ (Elt F) Unit ℕ (UR sig nD τ) ℕ cfg0 c where
  A w := E1 m c (Pipeline.arrRef spec0 w)
  after w t := match w with
    | ⟨0, _⟩ => iblk0 m c 0 t
    | ⟨1, _⟩ => iblk0 m c 1 t
    | ⟨2, _⟩ => blk0 (iblk0 m c 0 t) (iblk0 m c 1 t)
  Φ _ := Pipeline.scopedRest (Ix := Unit) (Name := ℕ) (U := UR sig nD τ) (Lvl := ℕ) (Val := Elt F) spec0 c
  q _ := fullShare
  owed _ := 0

/-- What region 0 leaves in `g0`'s array. -/
def out5 (c : Dev nD) : Buf (Elt F) ((c : Thread nD τ).loc main_v5) := (dats0 m c).arrAt 2 cfg0.N

/-- The core's unscoped buffers when region 1 is entered. -/
def W2 (c : Dev nD) : Valuation τ sig (Elt F) := Function.update (Gen.V1 m c) main_v5 (out5 m c)
abbrev E2 (c : Dev nD) (b : Ref sig .tc) : Buf (Elt F) ((c : Thread nD τ).loc b) := W2 m c b

/-! ## Region 1 -/

/-- Window `w`'s block of its array at point `t` of region 1. -/
def iblk1 (c : Dev nD) (w : Fin cfg1.W) (t : Fin cfg1.N) : ((cfg1.win w).xblock (cfg1.grid.coords t)).Idx → Elt F (cfg1.win w).elt :=
  ((cfg1.win w).blk t).view.read (Elt F) (E2 m c (Pipeline.arrRef spec1 w))

/-- Region 1's proof data: the two windows on the support hold the halves of its share. -/
def dats1 (c : Dev nD) : Dat τ (Elt F) Unit ℕ (UR sig nD τ) ℕ cfg1 c where
  A w := E2 m c (Pipeline.arrRef spec1 w)
  after w t := match w with
    | ⟨0, _⟩ => iblk1 m c 0 t
    | ⟨1, _⟩ => iblk1 m c 1 t
    | ⟨2, _⟩ => iblk1 m c 2 t
    | ⟨3, _⟩ => iblk1 m c 3 t
    | ⟨4, _⟩ => iblk1 m c 4 t
    | ⟨5, _⟩ => iblk1 m c 5 t
    | ⟨6, _⟩ => iblk1 m c 6 t
    | ⟨7, _⟩ => blk1_7 (iblk1 m c 0 t) (iblk1 m c 1 t) (iblk1 m c 2 t) (iblk1 m c 3 t) (iblk1 m c 4 t)
    | ⟨8, _⟩ => blk1_8 (iblk1 m c 0 t) (iblk1 m c 1 t) (iblk1 m c 2 t) (iblk1 m c 3 t) (iblk1 m c 5 t) (iblk1 m c 6 t)
  Φ _ := Pipeline.scopedRest (Ix := Unit) (Name := ℕ) (U := UR sig nD τ) (Lvl := ℕ) (Val := Elt F) spec1 c
  q w := match w with
    | ⟨0, _⟩ => fullShare.left
    | ⟨1, _⟩ => fullShare.right
    | _ => fullShare
  owed _ := 0

/-- What region 1 leaves in its two output arrays. -/
def out60 (c : Dev nD) : Buf (Elt F) ((c : Thread nD τ).loc main_v6_0) := (dats1 m c).arrAt 7 cfg1.N
def out61 (c : Dev nD) : Buf (Elt F) ((c : Thread nD τ).loc main_v6_1) := (dats1 m c).arrAt 8 cfg1.N

/-- The core's unscoped buffers when region 2 is entered. -/
def W3 (c : Dev nD) : Valuation τ sig (Elt F) :=
  Function.update (Function.update (W2 m c) main_v6_0 (out60 m c)) main_v6_1 (out61 m c)
abbrev E3 (c : Dev nD) (b : Ref sig .tc) : Buf (Elt F) ((c : Thread nD τ).loc b) := W3 m c b

/-! ## Region 2 -/

/-- Window `w`'s block of its array at point `t` of region 2. -/
def iblk2 (c : Dev nD) (w : Fin cfg2.W) (t : Fin cfg2.N) : ((cfg2.win w).xblock (cfg2.grid.coords t)).Idx → Elt F (cfg2.win w).elt :=
  ((cfg2.win w).blk t).view.read (Elt F) (E3 m c (Pipeline.arrRef spec2 w))

/-- Region 2's proof data. -/
def dats2 (c : Dev nD) : Dat τ (Elt F) Unit ℕ (UR sig nD τ) ℕ cfg2 c where
  A w := E3 m c (Pipeline.arrRef spec2 w)
  after w t := match w with
    | ⟨0, _⟩ => iblk2 m c 0 t
    | ⟨1, _⟩ => iblk2 m c 1 t
    | ⟨2, _⟩ => iblk2 m c 2 t
    | ⟨3, _⟩ => iblk2 m c 3 t
    | ⟨4, _⟩ => iblk2 m c 4 t
    | ⟨5, _⟩ => iblk2 m c 5 t
    | ⟨6, _⟩ => blk2_6 (iblk2 m c 0 t) (iblk2 m c 1 t) (iblk2 m c 2 t) (iblk2 m c 3 t) (iblk2 m c 4 t) (iblk2 m c 5 t)
  Φ _ := Pipeline.scopedRest (Ix := Unit) (Name := ℕ) (U := UR sig nD τ) (Lvl := ℕ) (Val := Elt F) spec2 c
  q w := match w with
    | ⟨0, _⟩ => fullShare.left
    | ⟨1, _⟩ => fullShare.right
    | _ => fullShare
  owed _ := 0

/-- What region 2 leaves in the result's array. -/
def out7 (c : Dev nD) : Buf (Elt F) ((c : Thread nD τ).loc main_v7) := (dats2 m c).arrAt 6 cfg2.N

/-- The core's unscoped buffers at the end. -/
def W4 (c : Dev nD) : Valuation τ sig (Elt F) := Function.update (W3 m c) main_v7 (out7 m c)

/-- The three regions' proof data as one family. -/
def pdats : (p : Fin 3) → (c : Dev nD) → Dat τ (Elt F) Unit ℕ (UR sig nD τ) ℕ (cfgs p) c
  | ⟨0, _⟩ => dats0 m
  | ⟨1, _⟩ => dats1 m
  | ⟨2, _⟩ => dats2 m
  | ⟨n + 3, h⟩ => absurd h (by omega)

end Cert.KernelIdeal.Hand

end
-- ==== Proof.KiBody0.lean ====
/-
  Region 0's body: it loads the whole feature block and the whole weight block, forms their product, and stores
  it over the whole output block (the output block's earlier contents are loaded and dropped).  So, handed the
  two input blocks at `x0`, `x1` and the output block at anything, it returns the inputs as they were and the
  output at the canon of its one store.  At the region's one point the input windows' buffers hold their arrays'
  blocks (both are fetched there), which gives the body obligation of the region's proof data.
-/
import proofs.«104506_g65979287601806_cont_sun_c4_486_7_alg».proof.Proof.KiData
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple on whole staging memrefs. -/
theorem sound_kernel0 (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S10000x128 .bf16) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (blk0 x0 x1)) -∗ K ⟨⟩))
      ⊢ wp frame (wpE (defs₀ (F := F)) Variants.none c none) E (cc0__proj_kernel arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10000 _)

variable (m : (ℓ : Loc nD τ sig) → Buf (Elt F) ℓ)

theorem after0_0 (c : Dev nD) (t : Fin cfg0.N) : (dats0 m c).after 0 t = iblk0 m c 0 t := by dsimp only [dats0]
theorem after0_1 (c : Dev nD) (t : Fin cfg0.N) : (dats0 m c).after 1 t = iblk0 m c 1 t := by dsimp only [dats0]
theorem after0_2 (c : Dev nD) (t : Fin cfg0.N) : (dats0 m c).after 2 t = blk0 (iblk0 m c 0 t) (iblk0 m c 1 t) := by dsimp only [dats0]

/-- Each input window's buffer holds its array's block when the body runs. -/
theorem before0_0 (c : Dev nD) (t : Fin cfg0.N) (d) : (dats0 m c).before 0 t d = iblk0 m c 0 t :=
  ((dats0 m c).before_in_eq_fetched 0 rfl (fun _ => rfl) (fun _ _ _ => rfl) (fun t => by rw [after0_0]; rfl) t d).trans rfl
theorem before0_1 (c : Dev nD) (t : Fin cfg0.N) (d) : (dats0 m c).before 1 t d = iblk0 m c 1 t :=
  ((dats0 m c).before_in_eq_fetched 1 rfl (fun _ => rfl) (fun _ _ _ => rfl) (fun t => by rw [after0_1]; rfl) t d).trans rfl

/-- What the body is called with at point `t`, the windows one by one, -/
def bodyPre0 (c : Dev nD) (t : Fin cfg0.N) : sProp 𝕄 :=
  iprop((dats0 m c).Φ t.castSucc ∗ (dats0 m c).owesAt () t.castSucc
    ∗ (∃ d, owns (c : Thread nD τ) (st0_0 t) fullShare ((dats0 m c).before 0 t d))
    ∗ (∃ d, owns (c : Thread nD τ) (st0_1 t) fullShare ((dats0 m c).before 1 t d))
    ∗ (∃ d, owns (c : Thread nD τ) (st0_2 t) fullShare ((dats0 m c).before 2 t d)))

/-- and what it returns. -/
def bodyPost0 (c : Dev nD) (t : Fin cfg0.N) : sProp 𝕄 :=
  iprop((dats0 m c).Φ t.succ ∗ (dats0 m c).owesAt () t.succ
    ∗ owns (c : Thread nD τ) (st0_0 t) fullShare ((dats0 m c).after 0 t)
    ∗ owns (c : Thread nD τ) (st0_1 t) fullShare ((dats0 m c).after 1 t)
    ∗ owns (c : Thread nD τ) (st0_2 t) fullShare ((dats0 m c).after 2 t))

/-- The body at any point: the invariant and the core's dues pass through unread. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1]
  rw [show (dats0 m c).Φ t.succ = (dats0 m c).Φ t.castSucc from rfl,
    show (dats0 m c).owesAt () t.succ = (dats0 m c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 m c 0 t) (iblk0 m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0's proof data. -/
theorem body_obligation0 (c : Dev nD) : BodyObligation (dats0 (F := F) m c) (defs₀ (F := F)) Variants.none () Set.univ := fun t => by
  rw [bigSep_W0, bigSep_W0]
  exact sound_body0 m c t

end Cert.KernelIdeal.Hand

end
-- ==== Proof.KiBody1.lean ====
/-
  Region 1's body.  Handed the two slabs of the support, the whole of g0, the first bias row, W1, the read-out's
  upper half and its bias row, it forms for each slab the hidden rows max (slab · g0 + b0) 0 and stores their
  products with W1 and with the read-out's upper half (plus its bias) into the matching halves of its two
  output blocks: the first slab's into rows [0, 200), the second slab's into rows [200, 400).  The output blocks'
  earlier contents are loaded and dropped.  So it returns its inputs as they were and each output block at the
  canon of its two stores; the input windows' buffers hold their arrays' blocks at every point, whether fetched
  there (the two slabs) or only at the first point (the resident operands).
-/
import proofs.«104506_g65979287601806_cont_sun_c4_486_7_alg».proof.Proof.KiData
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple on whole staging memrefs: the inputs' at read contents, the outputs' at anything. -/
theorem sound_kernel1 (c : Dev nD) (E : Set ℕ) (i : grid1.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .bf16) (harg8 : arg8.IsWhole) (arg9 : Memref sig .tc .vmem S400x128 .f32) (harg9 : arg9.IsWhole)
    (s0 : Vec F S200x10000 .f32) (s1 : Vec F S200x10000 .f32) (g : Vec F S10000x128 .bf16) (b : Vec F S1x128 .f32) (w1 : Vec F S128x128 .f32) (wt : Vec F S128x128 .f32) (bpr : Vec F S1x128 .f32) (K : PUnit → sProp 𝕄) :
    iprop(owns (c : Thread nD τ) arg1 fullShare s0 ∗ owns (c : Thread nD τ) arg2 fullShare s1 ∗ owns (c : Thread nD τ) arg3 fullShare g ∗ owns (c : Thread nD τ) arg4 fullShare b ∗ owns (c : Thread nD τ) arg5 fullShare w1 ∗ owns (c : Thread nD τ) arg6 fullShare wt ∗ owns (c : Thread nD τ) arg7 fullShare bpr ∗ (∃ d, owns (c : Thread nD τ) arg8 fullShare d) ∗ (∃ d, owns (c : Thread nD τ) arg9 fullShare d)
        ∗ (iprop(owns (c : Thread nD τ) arg1 fullShare s0 ∗ owns (c : Thread nD τ) arg2 fullShare s1 ∗ owns (c : Thread nD τ) arg3 fullShare g ∗ owns (c : Thread nD τ) arg4 fullShare b ∗ owns (c : Thread nD τ) arg5 fullShare w1 ∗ owns (c : Thread nD τ) arg6 fullShare wt ∗ owns (c : Thread nD τ) arg7 fullShare bpr ∗ owns (c : Thread nD τ) arg8 fullShare (blk1_7 s0 s1 g b w1) ∗ owns (c : Thread nD τ) arg9 fullShare (blk1_8 s0 s1 g b wt bpr)) -∗ K ⟨⟩))
      ⊢ wp frame (wpE (defs₀ (F := F)) Variants.none c none) E (cc1__layer1_kernel i arg1 harg1 arg2 harg2 arg3 harg3 arg4 harg4 arg5 harg5 arg6 harg6 arg7 harg7 arg8 harg8 arg9 harg9) K := by
  simp only [cc1__layer1_kernel_eq_skeleton]; unfold cc1__layer1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dd0, %g0, -, G0⟩, ⟨%dd1, %g1, -, G1⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [G0]
  · iexists _; isplitr
    swap; · iexact G0
    ipureintro
    exact View.read_writes_eq_canon _ _ _ (cover400 _ _)
  iexists _; isplitr
  swap; · iexact G1
  ipureintro
  exact View.read_writes_eq_canon _ _ _ (cover400 _ _)

variable (m : (ℓ : Loc nD τ sig) → Buf (Elt F) ℓ)

theorem after1_0 (c : Dev nD) (t : Fin cfg1.N) : (dats1 m c).after 0 t = iblk1 m c 0 t := by dsimp only [dats1]
theorem after1_1 (c : Dev nD) (t : Fin cfg1.N) : (dats1 m c).after 1 t = iblk1 m c 1 t := by dsimp only [dats1]
theorem after1_2 (c : Dev nD) (t : Fin cfg1.N) : (dats1 m c).after 2 t = iblk1 m c 2 t := by dsimp only [dats1]
theorem after1_3 (c : Dev nD) (t : Fin cfg1.N) : (dats1 m c).after 3 t = iblk1 m c 3 t := by dsimp only [dats1]
theorem after1_4 (c : Dev nD) (t : Fin cfg1.N) : (dats1 m c).after 4 t = iblk1 m c 4 t := by dsimp only [dats1]
theorem after1_5 (c : Dev nD) (t : Fin cfg1.N) : (dats1 m c).after 5 t = iblk1 m c 5 t := by dsimp only [dats1]
theorem after1_6 (c : Dev nD) (t : Fin cfg1.N) : (dats1 m c).after 6 t = iblk1 m c 6 t := by dsimp only [dats1]
theorem after1_7 (c : Dev nD) (t : Fin cfg1.N) : (dats1 m c).after 7 t = blk1_7 (iblk1 m c 0 t) (iblk1 m c 1 t) (iblk1 m c 2 t) (iblk1 m c 3 t) (iblk1 m c 4 t) := by dsimp only [dats1]
theorem after1_8 (c : Dev nD) (t : Fin cfg1.N) : (dats1 m c).after 8 t = blk1_8 (iblk1 m c 0 t) (iblk1 m c 1 t) (iblk1 m c 2 t) (iblk1 m c 3 t) (iblk1 m c 5 t) (iblk1 m c 6 t) := by dsimp only [dats1]

/-- Each input window's buffer holds its array's block when the body runs, fetched at that point or not. -/
theorem before1_0 (c : Dev nD) (t : Fin cfg1.N) (d) : (dats1 m c).before 0 t d = iblk1 m c 0 t :=
  ((dats1 m c).before_in_eq_fetched 0 rfl (fun _ => rfl) (fun _ _ _ => rfl) (fun t => by rw [after1_0]; rfl) t d).trans rfl
theorem before1_1 (c : Dev nD) (t : Fin cfg1.N) (d) : (dats1 m c).before 1 t d = iblk1 m c 1 t :=
  ((dats1 m c).before_in_eq_fetched 1 rfl (fun _ => rfl) (fun _ _ _ => rfl) (fun t => by rw [after1_1]; rfl) t d).trans rfl
theorem before1_2 (c : Dev nD) (t : Fin cfg1.N) (d) : (dats1 m c).before 2 t d = iblk1 m c 2 t :=
  ((dats1 m c).before_in_eq_fetched 2 rfl (fun _ => rfl) (fun _ _ _ => rfl) (fun t => by rw [after1_2]; rfl) t d).trans rfl
theorem before1_3 (c : Dev nD) (t : Fin cfg1.N) (d) : (dats1 m c).before 3 t d = iblk1 m c 3 t :=
  ((dats1 m c).before_in_eq_fetched 3 rfl (fun _ => rfl) (fun _ _ _ => rfl) (fun t => by rw [after1_3]; rfl) t d).trans rfl
theorem before1_4 (c : Dev nD) (t : Fin cfg1.N) (d) : (dats1 m c).before 4 t d = iblk1 m c 4 t :=
  ((dats1 m c).before_in_eq_fetched 4 rfl (fun _ => rfl) (fun _ _ _ => rfl) (fun t => by rw [after1_4]; rfl) t d).trans rfl
theorem before1_5 (c : Dev nD) (t : Fin cfg1.N) (d) : (dats1 m c).before 5 t d = iblk1 m c 5 t :=
  ((dats1 m c).before_in_eq_fetched 5 rfl (fun _ => rfl) (fun _ _ _ => rfl) (fun t => by rw [after1_5]; rfl) t d).trans rfl
theorem before1_6 (c : Dev nD) (t : Fin cfg1.N) (d) : (dats1 m c).before 6 t d = iblk1 m c 6 t :=
  ((dats1 m c).before_in_eq_fetched 6 rfl (fun _ => rfl) (fun _ _ _ => rfl) (fun t => by rw [after1_6]; rfl) t d).trans rfl

/-- What the body is called with at point `t`, the windows one by one, -/
def bodyPre1 (c : Dev nD) (t : Fin cfg1.N) : sProp 𝕄 :=
  iprop((dats1 m c).Φ t.castSucc ∗ (dats1 m c).owesAt () t.castSucc
    ∗ (∃ d, owns (c : Thread nD τ) (st1_0 t) fullShare ((dats1 m c).before 0 t d))
    ∗ (∃ d, owns (c : Thread nD τ) (st1_1 t) fullShare ((dats1 m c).before 1 t d))
    ∗ (∃ d, owns (c : Thread nD τ) (st1_2 t) fullShare ((dats1 m c).before 2 t d))
    ∗ (∃ d, owns (c : Thread nD τ) (st1_3 t) fullShare ((dats1 m c).before 3 t d))
    ∗ (∃ d, owns (c : Thread nD τ) (st1_4 t) fullShare ((dats1 m c).before 4 t d))
    ∗ (∃ d, owns (c : Thread nD τ) (st1_5 t) fullShare ((dats1 m c).before 5 t d))
    ∗ (∃ d, owns (c : Thread nD τ) (st1_6 t) fullShare ((dats1 m c).before 6 t d))
    ∗ (∃ d, owns (c : Thread nD τ) (st1_7 t) fullShare ((dats1 m c).before 7 t d))
    ∗ (∃ d, owns (c : Thread nD τ) (st1_8 t) fullShare ((dats1 m c).before 8 t d)))

/-- and what it returns. -/
def bodyPost1 (c : Dev nD) (t : Fin cfg1.N) : sProp 𝕄 :=
  iprop((dats1 m c).Φ t.succ ∗ (dats1 m c).owesAt () t.succ
    ∗ owns (c : Thread nD τ) (st1_0 t) fullShare ((dats1 m c).after 0 t)
    ∗ owns (c : Thread nD τ) (st1_1 t) fullShare ((dats1 m c).after 1 t)
    ∗ owns (c : Thread nD τ) (st1_2 t) fullShare ((dats1 m c).after 2 t)
    ∗ owns (c : Thread nD τ) (st1_3 t) fullShare ((dats1 m c).after 3 t)
    ∗ owns (c : Thread nD τ) (st1_4 t) fullShare ((dats1 m c).after 4 t)
    ∗ owns (c : Thread nD τ) (st1_5 t) fullShare ((dats1 m c).after 5 t)
    ∗ owns (c : Thread nD τ) (st1_6 t) fullShare ((dats1 m c).after 6 t)
    ∗ owns (c : Thread nD τ) (st1_7 t) fullShare ((dats1 m c).after 7 t)
    ∗ owns (c : Thread nD τ) (st1_8 t) fullShare ((dats1 m c).after 8 t))

/-- The body at any point: the invariant and the core's dues pass through unread. -/
theorem sound_body1 (c : Dev nD) (t : Fin cfg1.N) :
    bodyPre1 m c t ⊢ wp frame (wpE (defs₀ (F := F)) Variants.none c none) Set.univ (bodyAt1 t) (fun _ => bodyPost1 m c t) := by
  unfold bodyPre1 bodyPost1 bodyAt1
  simp only [before1_0, before1_1, before1_2, before1_3, before1_4, before1_5, before1_6]
  rw [show (dats1 m c).Φ t.succ = (dats1 m c).Φ t.castSucc from rfl,
    show (dats1 m c).owesAt () t.succ = (dats1 m c).owesAt () t.castSucc from rfl,
    after1_0, after1_1, after1_2, after1_3, after1_4, after1_5, after1_6, after1_7, after1_8]
  iintro ⟨HΦ, Ho, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩⟩
  iapply (sound_kernel1 c Set.univ (grid1.coords t) _ _ _ _ _ _ _ _ _ _ _ _ _ _ _ _ _ _ (iblk1 m c 0 t) (iblk1 m c 1 t) (iblk1 m c 2 t) (iblk1 m c 3 t) (iblk1 m c 4 t) (iblk1 m c 5 t) (iblk1 m c 6 t) _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexists _; iexact B7
  isplitl [B8]; · iexists _; iexact B8
  iintro ⟨B0, B1, B2, B3, B4, B5, B6, B7, B8⟩
  isplitl [HΦ]; · iexact HΦ
  isplitl [Ho]; · iexact Ho
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

/-- The body obligation of region 1's proof data. -/
theorem body_obligation1 (c : Dev nD) : BodyObligation (dats1 (F := F) m c) (defs₀ (F := F)) Variants.none () Set.univ := fun t => by
  rw [bigSep_W1, bigSep_W1]
  exact sound_body1 m c t

end Cert.KernelIdeal.Hand

end
-- ==== Proof.KiBody2.lean ====
/-
  Region 2's body.  Handed the two slabs of the support, the whole of g1, the second bias row, the read-out's
  lower half and a block of 400 rows of the partial result, it forms for each slab the hidden rows
  max (slab · g1 + b1) 0, multiplies them with the read-out's lower half, adds the matching half of the partial
  block, and stores the sums into the matching halves of its output block.  The output block's earlier contents
  are loaded and dropped.  So it returns its inputs as they were and the output block at the canon of its two
  stores; the input windows' buffers hold their arrays' blocks at every point.
-/
import proofs.«104506_g65979287601806_cont_sun_c4_486_7_alg».proof.Proof.KiData
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple on whole staging memrefs: the inputs' at read contents, the outputs' at anything. -/
theorem sound_kernel2 (c : Dev nD) (E : Set ℕ) (i : grid2.Coords) (arg1 : Memref sig .tc .vmem S200x10000 .f32) (harg1 : arg1.IsWhole) (arg2 : Memref sig .tc .vmem S200x10000 .f32) (harg2 : arg2.IsWhole) (arg3 : Memref sig .tc .vmem S10000x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S400x128 .f32) (harg6 : arg6.IsWhole) (arg7 : Memref sig .tc .vmem S400x128 .f32) (harg7 : arg7.IsWhole)
    (s0 : Vec F S200x10000 .f32) (s1 : Vec F S200x10000 .f32) (g : Vec F S10000x128 .bf16) (b : Vec F S1x128 .f32) (wb : Vec F S128x128 .f32) (pb : Vec F S400x128 .f32) (K : PUnit → sProp 𝕄) :
    iprop(owns (c : Thread nD τ) arg1 fullShare s0 ∗ owns (c : Thread nD τ) arg2 fullShare s1 ∗ owns (c : Thread nD τ) arg3 fullShare g ∗ owns (c : Thread nD τ) arg4 fullShare b ∗ owns (c : Thread nD τ) arg5 fullShare wb ∗ owns (c : Thread nD τ) arg6 fullShare pb ∗ (∃ d, owns (c : Thread nD τ) arg7 fullShare d)
        ∗ (iprop(owns (c : Thread nD τ) arg1 fullShare s0 ∗ owns (c : Thread nD τ) arg2 fullShare s1 ∗ owns (c : Thread nD τ) arg3 fullShare g ∗ owns (c : Thread nD τ) arg4 fullShare b ∗ owns (c : Thread nD τ) arg5 fullShare wb ∗ owns (c : Thread nD τ) arg6 fullShare pb ∗ owns (c : Thread nD τ) arg7 fullShare (blk2_6 s0 s1 g b wb pb)) -∗ K ⟨⟩))
      ⊢ wp frame (wpE (defs₀ (F := F)) Variants.none c none) E (cc2__layer2_kernel i arg1 harg1 arg2 harg2 arg3 harg3 arg4 harg4 arg5 harg5 arg6 harg6 arg7 harg7) K := by
  simp only [cc2__layer2_kernel_eq_skeleton]; unfold cc2__layer2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dd0, %g0, -, G0⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact G0
  ipureintro
  exact View.read_writes_eq_canon _ _ _ (cover400 _ _)

variable (m : (ℓ : Loc nD τ sig) → Buf (Elt F) ℓ)

theorem after2_0 (c : Dev nD) (t : Fin cfg2.N) : (dats2 m c).after 0 t = iblk2 m c 0 t := by dsimp only [dats2]
theorem after2_1 (c : Dev nD) (t : Fin cfg2.N) : (dats2 m c).after 1 t = iblk2 m c 1 t := by dsimp only [dats2]
theorem after2_2 (c : Dev nD) (t : Fin cfg2.N) : (dats2 m c).after 2 t = iblk2 m c 2 t := by dsimp only [dats2]
theorem after2_3 (c : Dev nD) (t : Fin cfg2.N) : (dats2 m c).after 3 t = iblk2 m c 3 t := by dsimp only [dats2]
theorem after2_4 (c : Dev nD) (t : Fin cfg2.N) : (dats2 m c).after 4 t = iblk2 m c 4 t := by dsimp only [dats2]
theorem after2_5 (c : Dev nD) (t : Fin cfg2.N) : (dats2 m c).after 5 t = iblk2 m c 5 t := by dsimp only [dats2]
theorem after2_6 (c : Dev nD) (t : Fin cfg2.N) : (dats2 m c).after 6 t = blk2_6 (iblk2 m c 0 t) (iblk2 m c 1 t) (iblk2 m c 2 t) (iblk2 m c 3 t) (iblk2 m c 4 t) (iblk2 m c 5 t) := by dsimp only [dats2]

/-- Each input window's buffer holds its array's block when the body runs, fetched at that point or not. -/
theorem before2_0 (c : Dev nD) (t : Fin cfg2.N) (d) : (dats2 m c).before 0 t d = iblk2 m c 0 t :=
  ((dats2 m c).before_in_eq_fetched 0 rfl (fun _ => rfl) (fun _ _ _ => rfl) (fun t => by rw [after2_0]; rfl) t d).trans rfl
theorem before2_1 (c : Dev nD) (t : Fin cfg2.N) (d) : (dats2 m c).before 1 t d = iblk2 m c 1 t :=
  ((dats2 m c).before_in_eq_fetched 1 rfl (fun _ => rfl) (fun _ _ _ => rfl) (fun t => by rw [after2_1]; rfl) t d).trans rfl
theorem before2_2 (c : Dev nD) (t : Fin cfg2.N) (d) : (dats2 m c).before 2 t d = iblk2 m c 2 t :=
  ((dats2 m c).before_in_eq_fetched 2 rfl (fun _ => rfl) (fun _ _ _ => rfl) (fun t => by rw [after2_2]; rfl) t d).trans rfl
theorem before2_3 (c : Dev nD) (t : Fin cfg2.N) (d) : (dats2 m c).before 3 t d = iblk2 m c 3 t :=
  ((dats2 m c).before_in_eq_fetched 3 rfl (fun _ => rfl) (fun _ _ _ => rfl) (fun t => by rw [after2_3]; rfl) t d).trans rfl
theorem before2_4 (c : Dev nD) (t : Fin cfg2.N) (d) : (dats2 m c).before 4 t d = iblk2 m c 4 t :=
  ((dats2 m c).before_in_eq_fetched 4 rfl (fun _ => rfl) (fun _ _ _ => rfl) (fun t => by rw [after2_4]; rfl) t d).trans rfl
theorem before2_5 (c : Dev nD) (t : Fin cfg2.N) (d) : (dats2 m c).before 5 t d = iblk2 m c 5 t :=
  ((dats2 m c).before_in_eq_fetched 5 rfl (fun _ => rfl) (fun _ _ _ => rfl) (fun t => by rw [after2_5]; rfl) t d).trans rfl

/-- What the body is called with at point `t`, the windows one by one, -/
def bodyPre2 (c : Dev nD) (t : Fin cfg2.N) : sProp 𝕄 :=
  iprop((dats2 m c).Φ t.castSucc ∗ (dats2 m c).owesAt () t.castSucc
    ∗ (∃ d, owns (c : Thread nD τ) (st2_0 t) fullShare ((dats2 m c).before 0 t d))
    ∗ (∃ d, owns (c : Thread nD τ) (st2_1 t) fullShare ((dats2 m c).before 1 t d))
    ∗ (∃ d, owns (c : Thread nD τ) (st2_2 t) fullShare ((dats2 m c).before 2 t d))
    ∗ (∃ d, owns (c : Thread nD τ) (st2_3 t) fullShare ((dats2 m c).before 3 t d))
    ∗ (∃ d, owns (c : Thread nD τ) (st2_4 t) fullShare ((dats2 m c).before 4 t d))
    ∗ (∃ d, owns (c : Thread nD τ) (st2_5 t) fullShare ((dats2 m c).before 5 t d))
    ∗ (∃ d, owns (c : Thread nD τ) (st2_6 t) fullShare ((dats2 m c).before 6 t d)))

/-- and what it returns. -/
def bodyPost2 (c : Dev nD) (t : Fin cfg2.N) : sProp 𝕄 :=
  iprop((dats2 m c).Φ t.succ ∗ (dats2 m c).owesAt () t.succ
    ∗ owns (c : Thread nD τ) (st2_0 t) fullShare ((dats2 m c).after 0 t)
    ∗ owns (c : Thread nD τ) (st2_1 t) fullShare ((dats2 m c).after 1 t)
    ∗ owns (c : Thread nD τ) (st2_2 t) fullShare ((dats2 m c).after 2 t)
    ∗ owns (c : Thread nD τ) (st2_3 t) fullShare ((dats2 m c).after 3 t)
    ∗ owns (c : Thread nD τ) (st2_4 t) fullShare ((dats2 m c).after 4 t)
    ∗ owns (c : Thread nD τ) (st2_5 t) fullShare ((dats2 m c).after 5 t)
    ∗ owns (c : Thread nD τ) (st2_6 t) fullShare ((dats2 m c).after 6 t))

/-- The body at any point: the invariant and the core's dues pass through unread. -/
theorem sound_body2 (c : Dev nD) (t : Fin cfg2.N) :
    bodyPre2 m c t ⊢ wp frame (wpE (defs₀ (F := F)) Variants.none c none) Set.univ (bodyAt2 t) (fun _ => bodyPost2 m c t) := by
  unfold bodyPre2 bodyPost2 bodyAt2
  simp only [before2_0, before2_1, before2_2, before2_3, before2_4, before2_5]
  rw [show (dats2 m c).Φ t.succ = (dats2 m c).Φ t.castSucc from rfl,
    show (dats2 m c).owesAt () t.succ = (dats2 m c).owesAt () t.castSucc from rfl,
    after2_0, after2_1, after2_2, after2_3, after2_4, after2_5, after2_6]
  iintro ⟨HΦ, Ho, ⟨%d0, B0⟩, ⟨%d1, B1⟩, ⟨%d2, B2⟩, ⟨%d3, B3⟩, ⟨%d4, B4⟩, ⟨%d5, B5⟩, ⟨%d6, B6⟩⟩
  iapply (sound_kernel2 c Set.univ (grid2.coords t) _ _ _ _ _ _ _ _ _ _ _ _ _ _ (iblk2 m c 0 t) (iblk2 m c 1 t) (iblk2 m c 2 t) (iblk2 m c 3 t) (iblk2 m c 4 t) (iblk2 m c 5 t) _)
  isplitl [B0]; · iexact B0
  isplitl [B1]; · iexact B1
  isplitl [B2]; · iexact B2
  isplitl [B3]; · iexact B3
  isplitl [B4]; · iexact B4
  isplitl [B5]; · iexact B5
  isplitl [B6]; · iexists _; iexact B6
  iintro ⟨B0, B1, B2, B3, B4, B5, B6⟩
  isplitl [HΦ]; · iexact HΦ
  isplitl [Ho]; · iexact Ho
  isplitl [B0]; · iexact B0
  isplitl [B1]; · iexact B1
  isplitl [B2]; · iexact B2
  isplitl [B3]; · iexact B3
  isplitl [B4]; · iexact B4
  isplitl [B5]; · iexact B5
  iexact B6

/-- The body obligation of region 2's proof data. -/
theorem body_obligation2 (c : Dev nD) : BodyObligation (dats2 (F := F) m c) (defs₀ (F := F)) Variants.none () Set.univ := fun t => by
  rw [bigSep_W2, bigSep_W2]
  exact sound_body2 m c t

end Cert.KernelIdeal.Hand

end
-- ==== Proof.KiSegs.lean ====
/-
  The three kernel regions as segments of the program, for any float instance.

  Between two items of the program a core holds its unscoped buffers, each whole, at a known valuation — the
  launch contents after the host operations; then, region by region, the output arrays replaced by what the
  write-backs left — and owes no other core anything.  A region is entered by dealing those buffers: the
  arrays its windows stage go to the pipeline (an array read through two windows is dealt as the two halves of
  its share), every other unscoped buffer bypasses the region untouched, and the scoped buffers that are no
  staging buffer of the region are the body's invariant, which the body never opens.  At the region's exit the
  arrays come back at their final contents — an input's as it was found, an output's at what the write-backs
  made — and together with the bypassing buffers they are again all the unscoped buffers, at the next valuation.
-/
import proofs.«104506_g65979287601806_cont_sun_c4_486_7_alg».proof.Proof.KiBody0
import proofs.«104506_g65979287601806_cont_sun_c4_486_7_alg».proof.Proof.KiBody1
import proofs.«104506_g65979287601806_cont_sun_c4_486_7_alg».proof.Proof.KiBody2
import proofs.«104506_g65979287601806_cont_sun_c4_486_7_alg».proof.Proof.LibSharedExit
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable (m : (ℓ : Loc nD τ sig) → Buf (Elt F) ℓ)

/-- No core owes another anything: no level is assigned. -/
abbrev 𝒱₀ : Variants := Variants.none
abbrev L : GSem nD τ sig → Finset Unit := fun _ => ∅
abbrev lv : GSem nD τ sig → Unit → ℕ := fun _ _ => 0

/-- What rides beside the buffers between items: the core owes nothing. -/
abbrev Rw (c : Dev nD) : sProp 𝕄 := iprop(∃ W, owes (c : Thread nD τ) (0 : CellTallies nD τ sig Unit) W)

/-! ## The valuations between the regions -/

theorem W2_v5 (c : Dev nD) : W2 m c main_v5 = out5 m c := by unfold W2; exact Function.update_self _ _ _
theorem W2_of (c : Dev nD) (r : Ref sig .tc) (h : r ≠ main_v5) : W2 m c r = Gen.V1 m c r := by
  unfold W2; exact Function.update_of_ne (StableHlo.devRef_ne_of_ne h) _ _
theorem W3_v61 (c : Dev nD) : W3 m c main_v6_1 = out61 m c := by unfold W3; exact Function.update_self _ _ _
theorem W3_v60 (c : Dev nD) : W3 m c main_v6_0 = out60 m c := by
  unfold W3
  rw [Function.update_of_ne (StableHlo.devRef_ne_of_ne (by decide : main_v6_0 ≠ main_v6_1))]
  exact Function.update_self _ _ _
theorem W3_of (c : Dev nD) (r : Ref sig .tc) (h0 : r ≠ main_v6_0) (h1 : r ≠ main_v6_1) : W3 m c r = W2 m c r := by
  unfold W3
  rw [Function.update_of_ne (StableHlo.devRef_ne_of_ne h1), Function.update_of_ne (StableHlo.devRef_ne_of_ne h0)]
theorem W4_v7 (c : Dev nD) : W4 m c main_v7 = out7 m c := by unfold W4; exact Function.update_self _ _ _
theorem W4_of (c : Dev nD) (r : Ref sig .tc) (h : r ≠ main_v7) : W4 m c r = W3 m c r := by
  unfold W4; exact Function.update_of_ne (StableHlo.devRef_ne_of_ne h) _ _

/-! ## Region 0 -/

/-- Region 0's arrays at its last point are the next valuation's. -/
theorem final0 (c : Dev nD) (w : Fin cfg0.W) : (dats0 m c).arrAt w cfg0.N = E2 m c (Pipeline.arrRef spec0 w) := by
  match w with
  | ⟨0, _⟩ => exact ((dats0 m c).arrAt_in 0 rfl _).trans (W2_of m c main_arg0 (by decide)).symm
  | ⟨1, _⟩ => exact ((dats0 m c).arrAt_in 1 rfl _).trans (W2_of m c main_arg2 (by decide)).symm
  | ⟨2, _⟩ => exact (W2_v5 m c).symm

/-- The buffers bypassing region 0 are the same at both valuations. -/
theorem rest0 (c : Dev nD) :
    (Pipeline.unscopedRest (Ix := Unit) (Name := ℕ) (U := UR sig nD τ) (Lvl := ℕ) spec0 c (E1 m c) : sProp 𝕄)
      = Pipeline.unscopedRest spec0 c (E2 m c) := by
  unfold Pipeline.unscopedRest
  refine bigSep_congr fun b hb => ?_
  have hb' : b ∉ Finset.univ.image (Pipeline.arrRef spec0) := (Finset.mem_sdiff.mp hb).2
  have h5 : b ≠ main_v5 := fun h => hb' (h ▸ Finset.mem_image.mpr ⟨2, Finset.mem_univ _, rfl⟩)
  rw [show E2 m c b = E1 m c b from W2_of m c b h5]

-- the launch lemmas stated over `cfgs p` unify with the pinned configuration only when unification may unfold
-- plain definitions in a metavariable's type
set_option backward.isDefEq.respectTransparency.types false in
/-- REGION 0: entered from the valuation after the host operations, left at the next one. -/
def reg0 : RegionSeg (pcfgs (F := F)) adm (pdats m) () defs₀ 𝒱₀ L lv 0 where
  win := launch0.win.to₀
  block_pos := launch0.block_pos
  stage_whole := launch0.stage_whole
  K := PEmpty
  osem := fun k => k.elim
  ho := Pipeline.OwnSemFacts.none _
  hbody c := (body_obligation0 m c).loose
  hwaits := Pipeline.hwaits_of_owed_zero _ _ _ _ L lv 0 fun _ _ => rfl
  pre c := iprop(StableHlo.held (c : Thread nD τ) (Pipeline.ucRefs τ sig) (Gen.V1 m c) ∗ Rw c)
  post c := iprop(StableHlo.held (c : Thread nD τ) (Pipeline.ucRefs τ sig) (W2 m c) ∗ Rw c)
  X _ := iprop(emp)
  Y _ := iprop(emp)
  Z c := Pipeline.unscopedRest spec0 c (E1 m c)
  hentry c := by
    rw [show StableHlo.held (c : Thread nD τ) (Pipeline.ucRefs τ sig) (Gen.V1 m c) = unscopedBufs c (E1 m c) from (Pipeline.unscopedBufs_held c _).symm]
    have hsplit := Pipeline.arrays_of_unscopedBufs (p := (0 : Fin 3)) (pcfgs (F := F)) adm (pdats m) launch0.win launch0.arr_whole c
      ((dats0 m c).share_full fun _ => rfl) (E1 m c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    show iprop(iprop(emp) ∗ _ ∗ Pipeline.scopedRest spec0 c) ⊢ (Pipeline.scopedRest spec0 c : sProp 𝕄)
    iintro ⟨-, -, Hr⟩
    iexact Hr
  hout c := by
    rw [Pipeline.ownSems0_none]
    show (Pipeline.scopedRest spec0 c : sProp 𝕄) ⊢ iprop(iprop(emp) ∗ emp ∗ Pipeline.scopedRest spec0 c)
    iintro Hr
    isplitr; · iempintro
    isplitr; · iempintro
    iexact Hr
  hexit c := by
    rw [show StableHlo.held (c : Thread nD τ) (Pipeline.ucRefs τ sig) (W2 m c) = unscopedBufs c (E2 m c) from (Pipeline.unscopedBufs_held c _).symm,
      Pipeline.unscopedBufs_split cfgs 0 launch0.win.arr_unscoped launch0.win.arr_inj c (E2 m c)]
    have hA : (pdats m 0 c).arrays (fun w => (pdats m 0 c).arrAt w cfg0.N)
        ⊢ (bigSep Finset.univ fun w => (((c : Thread nD τ).loc (Pipeline.arrRef spec0 w)) ↦{fullShare} E2 m c (Pipeline.arrRef spec0 w) : sProp 𝕄)) := by
      rw [Pipeline.arrays_eq cfgs (pdats m) 0 c launch0.arr_whole ((dats0 m c).share_full fun _ => rfl)]
      exact Entails.of_eq (bigSep_congr fun w _ => by rw [show (pdats m 0 c).arrAt w cfg0.N = E2 m c (Pipeline.arrRef spec0 w) from final0 m c w]; rfl)
    iintro ⟨Ha, HO, -, Hr⟩
    imodintro
    isplitr [HO]
    · isplitl [Ha]
      · iapply hA; iexact Ha
      · iapply (Entails.of_eq (rest0 m c)); iexact Hr
    · unfold Pipeline.Dat.owesAt Pipeline.owesWithin
      icases HO with ⟨%W, -, HO⟩; iexists W; iexact HO

/-! ## Region 1 -/

/-- Region 1's arrays at its last point are the next valuation's. -/
theorem final1 (c : Dev nD) (w : Fin cfg1.W) : (dats1 m c).arrAt w cfg1.N = E3 m c (Pipeline.arrRef spec1 w) := by
  match w with
  | ⟨0, _⟩ => exact ((dats1 m c).arrAt_in 0 rfl _).trans (W3_of m c main_arg1 (by decide) (by decide)).symm
  | ⟨1, _⟩ => exact ((dats1 m c).arrAt_in 1 rfl _).trans (W3_of m c main_arg1 (by decide) (by decide)).symm
  | ⟨2, _⟩ => exact ((dats1 m c).arrAt_in 2 rfl _).trans (W3_of m c main_v5 (by decide) (by decide)).symm
  | ⟨3, _⟩ => exact ((dats1 m c).arrAt_in 3 rfl _).trans (W3_of m c main_v0 (by decide) (by decide)).symm
  | ⟨4, _⟩ => exact ((dats1 m c).arrAt_in 4 rfl _).trans (W3_of m c main_arg4 (by decide) (by decide)).symm
  | ⟨5, _⟩ => exact ((dats1 m c).arrAt_in 5 rfl _).trans (W3_of m c main_v3 (by decide) (by decide)).symm
  | ⟨6, _⟩ => exact ((dats1 m c).arrAt_in 6 rfl _).trans (W3_of m c main_v2 (by decide) (by decide)).symm
  | ⟨7, _⟩ => exact (W3_v60 m c).symm
  | ⟨8, _⟩ => exact (W3_v61 m c).symm

/-- The buffers bypassing region 1 are the same at both valuations. -/
theorem rest1 (c : Dev nD) :
    (Pipeline.unscopedRest (Ix := Unit) (Name := ℕ) (U := UR sig nD τ) (Lvl := ℕ) spec1 c (E2 m c) : sProp 𝕄)
      = Pipeline.unscopedRest spec1 c (E3 m c) := by
  unfold Pipeline.unscopedRest
  refine bigSep_congr fun b hb => ?_
  have hb' : b ∉ Finset.univ.image (Pipeline.arrRef spec1) := (Finset.mem_sdiff.mp hb).2
  have hn0 : b ≠ main_v6_0 := fun h => hb' (h ▸ Finset.mem_image.mpr ⟨7, Finset.mem_univ _, rfl⟩)
  have hn1 : b ≠ main_v6_1 := fun h => hb' (h ▸ Finset.mem_image.mpr ⟨8, Finset.mem_univ _, rfl⟩)
  rw [show E3 m c b = E2 m c b from W3_of m c b hn0 hn1]

/-- Apart from the second window on the support, the windows' arrays are distinct. -/
theorem injOn1 : Set.InjOn (Pipeline.arrRef spec1) (Finset.univ.erase (1 : Fin cfg1.W) : Finset (Fin cfg1.W)) := by
  have key : ∀ a b : Fin 9, a ≠ 1 → b ≠ 1 → Pipeline.arrRef spec1 a = Pipeline.arrRef spec1 b → a = b := by decide
  intro a ha b hb h
  exact key a b (Finset.mem_erase.mp ha).1 (Finset.mem_erase.mp hb).1 h

/-- Every window but the two on the support holds its array at the full share. -/
theorem share1_rest (c : Dev nD) : ∀ w : Fin cfg1.W, w ≠ 0 → w ≠ 1 → (dats1 m c).share w = fullShare := fun w h0 h1 =>
  match w, h0, h1 with
  | ⟨0, _⟩, h0, _ => absurd rfl h0
  | ⟨1, _⟩, _, h1 => absurd rfl h1
  | ⟨2, _⟩, _, _ => rfl
  | ⟨3, _⟩, _, _ => rfl
  | ⟨4, _⟩, _, _ => rfl
  | ⟨5, _⟩, _, _ => rfl
  | ⟨6, _⟩, _, _ => rfl
  | ⟨7, _⟩, _, _ => rfl
  | ⟨8, _⟩, _, _ => rfl

set_option backward.isDefEq.respectTransparency.types false in
/-- REGION 1: the support is dealt to its two windows as the halves of its share and rejoined at the exit. -/
def reg1 : RegionSeg (pcfgs (F := F)) adm (pdats m) () defs₀ 𝒱₀ L lv 1 where
  win := winFacts₀1
  block_pos := block_pos1
  stage_whole := stage_whole1
  K := PEmpty
  osem := fun k => k.elim
  ho := Pipeline.OwnSemFacts.none _
  hbody c := (body_obligation1 m c).loose
  hwaits := Pipeline.hwaits_of_owed_zero _ _ _ _ L lv 1 fun _ _ => rfl
  pre c := iprop(StableHlo.held (c : Thread nD τ) (Pipeline.ucRefs τ sig) (W2 m c) ∗ Rw c)
  post c := iprop(StableHlo.held (c : Thread nD τ) (Pipeline.ucRefs τ sig) (W3 m c) ∗ Rw c)
  X _ := iprop(emp)
  Y _ := iprop(emp)
  Z c := Pipeline.unscopedRest spec1 c (E2 m c)
  hentry c := by
    rw [show StableHlo.held (c : Thread nD τ) (Pipeline.ucRefs τ sig) (W2 m c) = unscopedBufs c (E2 m c) from (Pipeline.unscopedBufs_held c _).symm,
      Pipeline.unscopedBufs_split₀ cfgs 1 winFacts₀1.arr_unscoped c (E2 m c)]
    have hsplit := Pipeline.SharedFrame.arrays_of_pair cfgs (pdats m) 1 c 0 1 (by decide) rfl injOn1 arr_whole1 rfl rfl (share1_rest m c)
      (E2 m c) (fun w => (pdats m 1 c).arrAt w 0) (fun w => rfl)
    iintro ⟨⟨⟨Hab, Hr⟩, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    show iprop(iprop(emp) ∗ _ ∗ Pipeline.scopedRest spec1 c) ⊢ (Pipeline.scopedRest spec1 c : sProp 𝕄)
    iintro ⟨-, -, Hr⟩
    iexact Hr
  hout c := by
    rw [Pipeline.ownSems0_none]
    show (Pipeline.scopedRest spec1 c : sProp 𝕄) ⊢ iprop(iprop(emp) ∗ emp ∗ Pipeline.scopedRest spec1 c)
    iintro Hr
    isplitr; · iempintro
    isplitr; · iempintro
    iexact Hr
  hexit c := by
    rw [show StableHlo.held (c : Thread nD τ) (Pipeline.ucRefs τ sig) (W3 m c) = unscopedBufs c (E3 m c) from (Pipeline.unscopedBufs_held c _).symm,
      Pipeline.unscopedBufs_split₀ cfgs 1 winFacts₀1.arr_unscoped c (E3 m c)]
    have hjoin := Pipeline.SharedFrame.arrBufs_of_pair cfgs (pdats m) 1 c 0 1 (by decide) rfl injOn1 arr_whole1 rfl rfl (share1_rest m c)
      (E3 m c) (fun w => (pdats m 1 c).arrAt w cfg1.N) (final1 m c)
    iintro ⟨Ha, HO, -, Hr⟩
    ihave Hab := hjoin $$ Ha
    imodintro
    isplitr [HO]
    · isplitl [Hab]; · iexact Hab
      iapply (Entails.of_eq (rest1 m c)); iexact Hr
    · unfold Pipeline.Dat.owesAt Pipeline.owesWithin
      icases HO with ⟨%W, -, HO⟩; iexists W; iexact HO

/-- The core's unscoped buffers at the end, as a function of the references. -/
abbrev E4 (c : Dev nD) (b : Ref sig .tc) : Buf (Elt F) ((c : Thread nD τ).loc b) := W4 m c b

/-! ## Region 2 -/

/-- Region 2's arrays at its last point are the next valuation's. -/
theorem final2 (c : Dev nD) (w : Fin cfg2.W) : (dats2 m c).arrAt w cfg2.N = E4 m c (Pipeline.arrRef spec2 w) := by
  match w with
  | ⟨0, _⟩ => exact ((dats2 m c).arrAt_in 0 rfl _).trans (W4_of m c main_arg1 (by decide)).symm
  | ⟨1, _⟩ => exact ((dats2 m c).arrAt_in 1 rfl _).trans (W4_of m c main_arg1 (by decide)).symm
  | ⟨2, _⟩ => exact ((dats2 m c).arrAt_in 2 rfl _).trans (W4_of m c main_v6_0 (by decide)).symm
  | ⟨3, _⟩ => exact ((dats2 m c).arrAt_in 3 rfl _).trans (W4_of m c main_v1 (by decide)).symm
  | ⟨4, _⟩ => exact ((dats2 m c).arrAt_in 4 rfl _).trans (W4_of m c main_v4 (by decide)).symm
  | ⟨5, _⟩ => exact ((dats2 m c).arrAt_in 5 rfl _).trans (W4_of m c main_v6_1 (by decide)).symm
  | ⟨6, _⟩ => exact (W4_v7 m c).symm

/-- The buffers bypassing region 2 are the same at both valuations. -/
theorem rest2 (c : Dev nD) :
    (Pipeline.unscopedRest (Ix := Unit) (Name := ℕ) (U := UR sig nD τ) (Lvl := ℕ) spec2 c (E3 m c) : sProp 𝕄)
      = Pipeline.unscopedRest spec2 c (E4 m c) := by
  unfold Pipeline.unscopedRest
  refine bigSep_congr fun b hb => ?_
  have hb' : b ∉ Finset.univ.image (Pipeline.arrRef spec2) := (Finset.mem_sdiff.mp hb).2
  have hn0 : b ≠ main_v7 := fun h => hb' (h ▸ Finset.mem_image.mpr ⟨6, Finset.mem_univ _, rfl⟩)
  rw [show E4 m c b = E3 m c b from W4_of m c b hn0]

/-- Apart from the second window on the support, the windows' arrays are distinct. -/
theorem injOn2 : Set.InjOn (Pipeline.arrRef spec2) (Finset.univ.erase (1 : Fin cfg2.W) : Finset (Fin cfg2.W)) := by
  have key : ∀ a b : Fin 7, a ≠ 1 → b ≠ 1 → Pipeline.arrRef spec2 a = Pipeline.arrRef spec2 b → a = b := by decide
  intro a ha b hb h
  exact key a b (Finset.mem_erase.mp ha).1 (Finset.mem_erase.mp hb).1 h

/-- Every window but the two on the support holds its array at the full share. -/
theorem share2_rest (c : Dev nD) : ∀ w : Fin cfg2.W, w ≠ 0 → w ≠ 1 → (dats2 m c).share w = fullShare := fun w h0 h1 =>
  match w, h0, h1 with
  | ⟨0, _⟩, h0, _ => absurd rfl h0
  | ⟨1, _⟩, _, h1 => absurd rfl h1
  | ⟨2, _⟩, _, _ => rfl
  | ⟨3, _⟩, _, _ => rfl
  | ⟨4, _⟩, _, _ => rfl
  | ⟨5, _⟩, _, _ => rfl
  | ⟨6, _⟩, _, _ => rfl

set_option backward.isDefEq.respectTransparency.types false in
/-- REGION 2: the support is dealt to its two windows as the halves of its share and rejoined at the exit. -/
def reg2 : RegionSeg (pcfgs (F := F)) adm (pdats m) () defs₀ 𝒱₀ L lv 2 where
  win := winFacts₀2
  block_pos := block_pos2
  stage_whole := stage_whole2
  K := PEmpty
  osem := fun k => k.elim
  ho := Pipeline.OwnSemFacts.none _
  hbody c := (body_obligation2 m c).loose
  hwaits := Pipeline.hwaits_of_owed_zero _ _ _ _ L lv 2 fun _ _ => rfl
  pre c := iprop(StableHlo.held (c : Thread nD τ) (Pipeline.ucRefs τ sig) (W3 m c) ∗ Rw c)
  post c := iprop(StableHlo.held (c : Thread nD τ) (Pipeline.ucRefs τ sig) (W4 m c) ∗ Rw c)
  X _ := iprop(emp)
  Y _ := iprop(emp)
  Z c := Pipeline.unscopedRest spec2 c (E3 m c)
  hentry c := by
    rw [show StableHlo.held (c : Thread nD τ) (Pipeline.ucRefs τ sig) (W3 m c) = unscopedBufs c (E3 m c) from (Pipeline.unscopedBufs_held c _).symm,
      Pipeline.unscopedBufs_split₀ cfgs 2 winFacts₀2.arr_unscoped c (E3 m c)]
    have hsplit := Pipeline.SharedFrame.arrays_of_pair cfgs (pdats m) 2 c 0 1 (by decide) rfl injOn2 arr_whole2 rfl rfl (share2_rest m c)
      (E3 m c) (fun w => (pdats m 2 c).arrAt w 0) (fun w => rfl)
    iintro ⟨⟨⟨Hab, Hr⟩, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    show iprop(iprop(emp) ∗ _ ∗ Pipeline.scopedRest spec2 c) ⊢ (Pipeline.scopedRest spec2 c : sProp 𝕄)
    iintro ⟨-, -, Hr⟩
    iexact Hr
  hout c := by
    rw [Pipeline.ownSems0_none]
    show (Pipeline.scopedRest spec2 c : sProp 𝕄) ⊢ iprop(iprop(emp) ∗ emp ∗ Pipeline.scopedRest spec2 c)
    iintro Hr
    isplitr; · iempintro
    isplitr; · iempintro
    iexact Hr
  hexit c := by
    rw [show StableHlo.held (c : Thread nD τ) (Pipeline.ucRefs τ sig) (W4 m c) = unscopedBufs c (E4 m c) from (Pipeline.unscopedBufs_held c _).symm,
      Pipeline.unscopedBufs_split₀ cfgs 2 winFacts₀2.arr_unscoped c (E4 m c)]
    have hjoin := Pipeline.SharedFrame.arrBufs_of_pair cfgs (pdats m) 2 c 0 1 (by decide) rfl injOn2 arr_whole2 rfl rfl (share2_rest m c)
      (E4 m c) (fun w => (pdats m 2 c).arrAt w cfg2.N) (final2 m c)
    iintro ⟨Ha, HO, -, Hr⟩
    ihave Hab := hjoin $$ Ha
    imodintro
    isplitr [HO]
    · isplitl [Hab]; · iexact Hab
      iapply (Entails.of_eq (rest2 m c)); iexact Hr
    · unfold Pipeline.Dat.owesAt Pipeline.owesWithin
      icases HO with ⟨%W, -, HO⟩; iexists W; iexact HO

end Cert.KernelIdeal.Hand

end
-- ==== Proof.KiRun.lean ====
/-
  The run of the whole program, for any float instance: from any memory with every semaphore counter at zero,
  every weakly fair execution on the TensorCores terminates, faulting nowhere, and in every final state the
  result array holds what region 2's write-backs made of it and every argument array holds what it held at
  launch.  The program is the list of its items — the five host operations, then the three kernel regions —
  each entered from the thread state the one before it left; the first thread state is made from what the
  launch deals (the unscoped buffers at the launch memory, the core owing nothing), and the last is read against
  a final state: the result at the last valuation's contents, each argument at a buffer no item writes.
-/
import proofs.«104506_g65979287601806_cont_sun_c4_486_7_alg».proof.Proof.KiSegs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An argument array is written by no item: it holds its launch contents at the last valuation. -/
theorem W4_arg (c : Dev nD) (r : Ref sig .tc) (h7 : r ≠ main_v7) (h60 : r ≠ main_v6_0) (h61 : r ≠ main_v6_1) (h5 : r ≠ main_v5)
    (hh : r ∉ Gen.hostOps0_W) : W4 m c r = m ((c : Thread nD τ).loc r) :=
  (W4_of m c r h7).trans <| (W3_of m c r h60 h61).trans <| (W2_of m c r h5).trans <| (Gen.V1_of m c r hh).trans rfl

/-- The host operations as a segment: the unscoped buffers from the launch valuation, the core's dues riding along. -/
abbrev hostSeg : HostSeg (Ix := Unit) (Name := ℕ) (U := UR sig nD τ) (Lvl := ℕ) (pcfgs (F := F)) defs₀ 𝒱₀ L lv :=
  Gen.seg0 m 𝒱₀ L lv (fun _ => Rw)

/-- The program's items, in order. -/
abbrev segs : List (Seg (pcfgs (F := F)) adm (pdats m) () defs₀ 𝒱₀ L lv) :=
  [.host (hostSeg m), .region (reg0 m), .region (reg1 m), .region (reg2 m)]

-- the launch theorem's implicit arguments are found by unifying its conclusion with this one, which takes unfolding plain
-- definitions in a metavariable's type
set_option backward.isDefEq.respectTransparency.types false in
/-- THE RUN: the result array at `out7`, every argument as launched. -/
theorem run_main : θ_run defs (onTc (τ := τ) (main (F := F))) ⟨m, fun _ => 0, ρ⟩ (fun r => ∀ c : Dev nD,
      r.2.mem ((c.tc : Thread nD τ).loc main_v7) = out7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m) () cellOf_inj emb₁ defs₀ 𝒱₀ L lv m ρ main (segs m)
    (fun c Q => by rw [main_segs adm (pdats m) () 𝒱₀ L lv (hostSeg m) (reg0 m) (reg1 m) (reg2 m) rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rw c))
    (Tₙ := fun c => StableHlo.held (c : Thread nD τ) (Pipeline.ucRefs τ sig) (W4 m c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c) from Pipeline.unscopedBufs_held c (Gen.V0 m c)]
      iintro ⟨⟨Hh, -, HO, -, -, -⟩, -⟩
      imodintro
      isplitl [Hh]; · iexact Hh
      iexists ∅; iexact HO)
    (QY := fun c s => s.mem ((c.tc : Thread nD τ).loc main_v7) = out7 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => by
      unfold StableHlo.held
      iintro ⟨Hh, HSI⟩
      ihave Hr := (pointsTo_read_all (Pipeline.ucRefs τ sig) (fun b => ((c : Thread nD τ).1, b)) (W4 m c) s') $$ [Hh HSI]
      · isplitl [Hh] <;> iassumption
      icases Hr with ⟨%h, HSI⟩
      imodintro
      isplitr
      · ipureintro
        exact ⟨(h (Proc.devRef .tc main_v7) (Finset.mem_filter.mpr ⟨StableHlo.devRef_mem_tcRefs main_v7, by decide⟩)).trans (W4_v7 m c),
        (h (Proc.devRef .tc main_arg0) (Finset.mem_filter.mpr ⟨StableHlo.devRef_mem_tcRefs main_arg0, by decide⟩)).trans (W4_arg m c main_arg0 (by decide) (by decide) (by decide) (by decide) (by decide)),
        (h (Proc.devRef .tc main_arg1) (Finset.mem_filter.mpr ⟨StableHlo.devRef_mem_tcRefs main_arg1, by decide⟩)).trans (W4_arg m c main_arg1 (by decide) (by decide) (by decide) (by decide) (by decide)),
        (h (Proc.devRef .tc main_arg2) (Finset.mem_filter.mpr ⟨StableHlo.devRef_mem_tcRefs main_arg2, by decide⟩)).trans (W4_arg m c main_arg2 (by decide) (by decide) (by decide) (by decide) (by decide)),
        (h (Proc.devRef .tc main_arg3) (Finset.mem_filter.mpr ⟨StableHlo.devRef_mem_tcRefs main_arg3, by decide⟩)).trans (W4_arg m c main_arg3 (by decide) (by decide) (by decide) (by decide) (by decide)),
        (h (Proc.devRef .tc main_arg4) (Finset.mem_filter.mpr ⟨StableHlo.devRef_mem_tcRefs main_arg4, by decide⟩)).trans (W4_arg m c main_arg4 (by decide) (by decide) (by decide) (by decide) (by decide)),
        (h (Proc.devRef .tc main_arg5) (Finset.mem_filter.mpr ⟨StableHlo.devRef_mem_tcRefs main_arg5, by decide⟩)).trans (W4_arg m c main_arg5 (by decide) (by decide) (by decide) (by decide) (by decide)),
        (h (Proc.devRef .tc main_arg6) (Finset.mem_filter.mpr ⟨StableHlo.devRef_mem_tcRefs main_arg6, by decide⟩)).trans (W4_arg m c main_arg6 (by decide) (by decide) (by decide) (by decide) (by decide)),
        (h (Proc.devRef .tc main_arg7) (Finset.mem_filter.mpr ⟨StableHlo.devRef_mem_tcRefs main_arg7, by decide⟩)).trans (W4_arg m c main_arg7 (by decide) (by decide) (by decide) (by decide) (by decide))⟩
      · iexact HSI)
    (hQ := fun _ h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end Cert.KernelIdeal.Hand

end
-- ==== Proof.Spec.lean ====
/-
  The function both programs compute, index by index, on the extended reals.

  A two-layer graph convolution with a concatenating read-out.  With `x` the node features, `A` the dense
  support matrix, `W0, b0` and `W1, b1` the layers' weights and biases, `Wp, bp` the read-out's:

    g0 = x · W0                 h0 = max (A · g0 + b0) 0
    g1 = h0 · W1                h1 = max (A · g1 + b1) 0
    out = (h0 · Wp[0:128] + bp) + h1 · Wp[128:256]

  Every product and sum is the exact one of the extended reals; the zero of the two rectifiers is kept as
  the float word it is written with (the same word on both sides, never evaluated).  `out` is written in
  the arrangement of the row-blocked computation: the read-out of the first layer's rows, the bias added,
  then the read-out of the second layer's rows.  The companion module SpecCat states the arrangement of the
  plain formula — one product with the concatenation `[h0, h1]` over 256 columns, then the bias — and that
  the two agree: a sum over 256 columns is the sum over the first 128 plus the sum over the last 128, and
  addition of extended reals is commutative and associative (no finiteness is needed).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals with `a` rows and `b` columns, as a function of its index. -/
abbrev Mat (a b : Nat) : Type := (⟨2, ![a, b]⟩ : Shape).Idx → EReal
/-- A vector of extended reals of length `a`. -/
abbrev Vc (a : Nat) : Type := (⟨1, ![a]⟩ : Shape).Idx → EReal

/-- The rectifiers' zero, as the float word both programs write. -/
abbrev z : EReal := Ideal.ofBits .f32 0x00000000#32

variable (x : Mat 10000 128) (A : Mat 10000 10000) (W0 : Mat 128 128) (b0 : Vc 128)
  (W1 : Mat 128 128) (b1 : Vc 128) (Wp : Mat 256 128) (bp : Vc 128)

/-- The projected features `x · W0`. -/
def g0 (n : Fin 10000) (j : Fin 128) : EReal := ∑ k : Fin 128, x (ix2 n k) * W0 (ix2 k j)

/-- The first layer: `max (A · g0 + b0) 0`. -/
def h0 (r : Fin 10000) (j : Fin 128) : EReal :=
  max ((∑ n : Fin 10000, A (ix2 r n) * g0 x W0 n j) + b0 (ix1 j)) z

/-- The first layer projected for the second: `h0 · W1`. -/
def g1 (n : Fin 10000) (j : Fin 128) : EReal := ∑ k : Fin 128, h0 x A W0 b0 n k * W1 (ix2 k j)

/-- The second layer: `max (A · g1 + b1) 0`. -/
def h1 (r : Fin 10000) (j : Fin 128) : EReal :=
  max ((∑ n : Fin 10000, A (ix2 r n) * g1 x A W0 b0 W1 n j) + b1 (ix1 j)) z

/-- Row `k` of the read-out's upper half, as a row of the whole. -/
def top (k : Fin 128) : Fin 256 := ⟨k.val, by omega⟩
/-- Row `k` of the read-out's lower half, as a row of the whole. -/
def bot (k : Fin 128) : Fin 256 := ⟨128 + k.val, by omega⟩

/-- The first layer's share of the read-out, with the bias: `h0 · Wp[0:128] + bp`. -/
def p (r : Fin 10000) (j : Fin 128) : EReal :=
  (∑ k : Fin 128, h0 x A W0 b0 r k * Wp (ix2 (top k) j)) + bp (ix1 j)

/-- The result at `(r, j)`: the first layer's share, then the second layer's. -/
def out (r : Fin 10000) (j : Fin 128) : EReal :=
  p x A W0 b0 Wp bp r j + ∑ k : Fin 128, h1 x A W0 b0 W1 b1 r k * Wp (ix2 (bot k) j)

/-- The result as an array. -/
def G : Mat 10000 128 := fun i => out x A W0 b0 W1 b1 Wp bp (i 0) (i 1)

theorem G_apply (r : Fin 10000) (j : Fin 128) :
    G x A W0 b0 W1 b1 Wp bp (ix2 r j) = out x A W0 b0 W1 b1 Wp bp r j := rfl

end Cert.Spec

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.PayAt0.lean ====
/-
  The projection kernel's stored value at an index, over the extended reals: entry (n, j) of the product of
  the node features with the first layer's weights, accumulated into zero, is the sum over the 128 contracted
  columns of the products of the entries.  The change of float format on the way out keeps every entry.
-/
import proofs.«104506_g65979287601806_cont_sun_c4_486_7_alg».proof.Proof.Gen.KernelIdeal.Skeleton
import proofs.«104506_g65979287601806_cont_sun_c4_486_7_alg».proof.Proof.Spec
import proofs.«104506_g65979287601806_cont_sun_c4_486_7_alg».proof.Proof.LibRowOps

noncomputable section

namespace Cert.KernelIdeal.PayAt

open Idealize.ShloMosaic Idealize.ShloMosaic.ValueIdx Cert.KernelIdeal Cert.KernelIdeal.Gen

/-- Entry (n, j) of x · W0. -/
theorem pay0 (v0 : Vec Ideal S10000x128 .f32) (v1 : Vec Ideal S128x128 .f32) (n : Fin 10000) (j : Fin 128) :
    k0_pay1 (F := Ideal) v0 v1 (ix2 n j) = ∑ k : Fin 128, v0 (ix2 n k) * v1 (ix2 k j) := by
  unfold k0_pay1
  exact Cert.KernelBody.matmul_plain_zero_apply (φ₁ := .f32) (φ₂ := .f32)
    Gen.dot_S10000x128_S128x128_S10000x128_1_0_0_1_n_n_wf none v0 v1 n j

end Cert.KernelIdeal.PayAt

end
-- ==== Proof.KiValue0.lean ====
/-
  Region 0 as a whole array, over the extended reals: the one point's block is the whole of each array, so
  what the region leaves in the projected features' array is, at every index (n, j), the sum over the 128
  contracted columns of the products of the node features' row n with the first layer's weights' column j —
  the specification's `g0`.
-/
import proofs.«104506_g65979287601806_cont_sun_c4_486_7_alg».proof.Proof.KiData
import proofs.«104506_g65979287601806_cont_sun_c4_486_7_alg».proof.Proof.PayAt0
import proofs.«104506_g65979287601806_cont_sun_c4_486_7_alg».proof.Proof.Spec
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The argument arrays as the launch holds them, as matrices and vectors of extended reals. -/
abbrev aX : Cert.Spec.Mat 10000 128 := m ((c : Thread nD τ).loc main_arg0)
abbrev aA : Cert.Spec.Mat 10000 10000 := m ((c : Thread nD τ).loc main_arg1)
abbrev aW0 : Cert.Spec.Mat 128 128 := m ((c : Thread nD τ).loc main_arg2)
abbrev ab0 : Cert.Spec.Vc 128 := m ((c : Thread nD τ).loc main_arg3)
abbrev aW1 : Cert.Spec.Mat 128 128 := m ((c : Thread nD τ).loc main_arg4)
abbrev ab1 : Cert.Spec.Vc 128 := m ((c : Thread nD τ).loc main_arg5)
abbrev aWp : Cert.Spec.Mat 256 128 := m ((c : Thread nD τ).loc main_arg6)
abbrev abp : Cert.Spec.Vc 128 := m ((c : Thread nD τ).loc main_arg7)

theorem hz : (![0, 0] : Fin 2 → Nat) = fun _ => 0 := funext fun a => by fin_cases a <;> rfl

/-- The block the body leaves, at an index: the product of the two input blocks. -/
theorem blk0_apply (x0 : Vec Ideal S10000x128 .f32) (x1 : Vec Ideal S128x128 .f32) (n : Fin 10000) (j : Fin 128) :
    Hand.blk0 x0 x1 (ix2 n j) = ∑ k : Fin 128, x0 (ix2 n k) * x1 (ix2 k j) := by
  unfold Hand.blk0
  rw [View.canon_unit_zero hz]
  simp only [View.ld_unit_zero (S := S10000x128) hz, View.ld_unit_zero (S := S128x128) hz]
  exact PayAt.pay0 x0 x1 n j

/-! Each window's block is its whole array: an index of the block is the same index of the array. -/

theorem emb0_0 (t : Fin cfg0.N) (y : S10000x128.Idx) : (((cfg0.win 0).blk t).view.emb y : S10000x128.Idx) = y := by
  funext a; apply Fin.ext
  match a with
  | ⟨0, _⟩ => show win0_0.index t 0 * 10000 + 1 * (y 0).val = (y 0).val; rw [show win0_0.index t 0 = 0 from rfl]; omega
  | ⟨1, _⟩ => show win0_0.index t 1 * 128 + 1 * (y 1).val = (y 1).val; rw [show win0_0.index t 1 = 0 from rfl]; omega

theorem emb0_1 (t : Fin cfg0.N) (y : S128x128.Idx) : (((cfg0.win 1).blk t).view.emb y : S128x128.Idx) = y := by
  funext a; apply Fin.ext
  match a with
  | ⟨0, _⟩ => show win0_1.index t 0 * 128 + 1 * (y 0).val = (y 0).val; rw [show win0_1.index t 0 = 0 from rfl]; omega
  | ⟨1, _⟩ => show win0_1.index t 1 * 128 + 1 * (y 1).val = (y 1).val; rw [show win0_1.index t 1 = 0 from rfl]; omega

theorem emb0_2 (t : Fin cfg0.N) (y : S10000x128.Idx) : (((cfg0.win 2).blk t).view.emb y : S10000x128.Idx) = y := by
  funext a; apply Fin.ext
  match a with
  | ⟨0, _⟩ => show win0_2.index t 0 * 10000 + 1 * (y 0).val = (y 0).val; rw [show win0_2.index t 0 = 0 from rfl]; omega
  | ⟨1, _⟩ => show win0_2.index t 1 * 128 + 1 * (y 1).val = (y 1).val; rw [show win0_2.index t 1 = 0 from rfl]; omega

/-- The features' block is the features' array as launched: no host operation writes it. -/
theorem iblk0_0_apply (t : Fin cfg0.N) (n : Fin 10000) (k : Fin 128) :
    iblk0 m c 0 t (ix2 n k) = aX m c (ix2 n k) := by
  show Gen.V1 m c main_arg0 (((cfg0.win 0).blk t).view.emb (ix2 n k)) = _
  rw [Gen.V1_of m c main_arg0 (by decide)]
  exact congrArg (aX m c) (emb0_0 t (ix2 n k))

/-- The weights' block is the weights' array as launched. -/
theorem iblk0_1_apply (t : Fin cfg0.N) (k : Fin 128) (j : Fin 128) :
    iblk0 m c 1 t (ix2 k j) = aW0 m c (ix2 k j) := by
  show Gen.V1 m c main_arg2 (((cfg0.win 1).blk t).view.emb (ix2 k j)) = _
  rw [Gen.V1_of m c main_arg2 (by decide)]
  exact congrArg (aW0 m c) (emb0_1 t (ix2 k j))

/-- What the point writes back is its block of `g0`. -/
theorem flushed0_eq (t : Fin cfg0.N) :
    (Hand.dats0 m c).flushed 2 t
      = ((cfg0.win 2).blk t).view.read (Elt Ideal)
          (fun i : S10000x128.Idx => Cert.Spec.g0 (aX m c) (aW0 m c) (i 0) (i 1)) := by
  show (cfg0.win 2).cut (grid0.coords t) ((Hand.dats0 m c).after 2 t) = _
  dsimp only [Hand.dats0]
  funext y
  obtain ⟨n, j, rfl⟩ : ∃ (n : Fin 10000) (j : Fin 128), y = ix2 n j := ⟨y 0, y 1, eq_ix2 y⟩
  refine (blk0_apply (iblk0 m c 0 t) (iblk0 m c 1 t) n j).trans ?_
  show _ = (fun i : S10000x128.Idx => Cert.Spec.g0 (aX m c) (aW0 m c) (i 0) (i 1))
    (((cfg0.win 2).blk t).view.emb (ix2 n j))
  rw [emb0_2 t (ix2 n j)]
  show _ = ∑ k : Fin 128, aX m c (ix2 n k) * aW0 m c (ix2 k j)
  refine Finset.sum_congr rfl fun k _ => ?_
  rw [iblk0_0_apply, iblk0_1_apply]

/-- An index of the array is in the point's block iff each coordinate is in the block's range on its axis. -/
theorem mem_blk0 (t : Fin cfg0.N) (i : S10000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v5).slice (win0_2.rect t)).set ↔ _
  rw [View.set_slice_whole, Rect.mem_set_unit]
  exact Iff.rfl

/-- The one point's block covers the array. -/
theorem cover0 (i : S10000x128.Idx) :
    ∃ t : Fin cfg0.N, (cfg0.win 2).flush t = true ∧ i ∈ ((cfg0.win 2).blk t).view.set := by
  refine ⟨t0_0, flush0_2 t0_0, (mem_blk0 t0_0 i).mpr fun a => ?_⟩
  have h0 : (i 0).val < 10000 := idx2_lt0 i
  have h1 : (i 1).val < 128 := idx2_lt1 i
  match a with
  | ⟨0, _⟩ =>
    show win0_2.index t0_0 0 * 10000 ≤ (i 0).val ∧ (i 0).val < win0_2.index t0_0 0 * 10000 + 10000
    rw [show win0_2.index t0_0 0 = 0 from rfl]; omega
  | ⟨1, _⟩ =>
    show win0_2.index t0_0 1 * 128 ≤ (i 1).val ∧ (i 1).val < win0_2.index t0_0 1 * 128 + 128
    rw [show win0_2.index t0_0 1 = 0 from rfl]; omega

/-- REGION 0 leaves the projected features `g0 = x · W0` in its output array. -/
theorem out5_eq :
    Hand.out5 m c = fun i : S10000x128.Idx => Cert.Spec.g0 (aX m c) (aW0 m c) (i 0) (i 1) :=
  (Hand.dats0 m c).arrAt_eq_of_cover 2 _ (fun t _ => flushed0_eq m c t) cover0

end Cert.KernelIdeal.HandValue

end
-- ==== Proof.KiEntry.lean ====
/-
  What each region finds in the core's buffers, over the extended reals.

  Before the first region the host has written five buffers from the arguments: the three bias vectors as rows
  [1, 128] — entry (0, j) of the row is entry j of the vector —, and the upper and the lower half of the read-out
  matrix — row k of a half is row k, respectively 128 + k, of the whole.  The arguments themselves are as
  launched.  A region changes only its own output arrays, so what a later region finds in any other buffer is
  what the one before found there.
-/
import proofs.«104506_g65979287601806_cont_sun_c4_486_7_alg».proof.Proof.KiData
import proofs.«104506_g65979287601806_cont_sun_c4_486_7_alg».proof.Proof.KiValue0
import proofs.«104506_g65979287601806_cont_sun_c4_486_7_alg».proof.Proof.LibRowOps
import Idealize.ShloMosaic.Lib.StableHlo.Run
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-! ## After the host operations -/

/-- The first layer's bias as a row. -/
theorem V1_v0 (j : Fin 128) :
    (Gen.V1 m c main_v0 : S1x128.Idx → EReal) (ix2 (0 : Fin 1) j) = ab0 m c (ix1 j) := by
  have e : (Gen.V1 m c main_v0 : S1x128.Idx → EReal) = shapeCast S1x128 (ab0 m c) Gen.shapeCasts_S128_S1x128 := by
    dsimp only [Gen.V1, Gen.hostOps0]; after_results; rfl
  rw [e]
  exact Cert.KernelBody.shapeCast_row_apply (ab0 m c) _ j

/-- The second layer's bias as a row. -/
theorem V1_v1 (j : Fin 128) :
    (Gen.V1 m c main_v1 : S1x128.Idx → EReal) (ix2 (0 : Fin 1) j) = ab1 m c (ix1 j) := by
  have e : (Gen.V1 m c main_v1 : S1x128.Idx → EReal) = shapeCast S1x128 (ab1 m c) Gen.shapeCasts_S128_S1x128 := by
    dsimp only [Gen.V1, Gen.hostOps0]; after_results; rfl
  rw [e]
  exact Cert.KernelBody.shapeCast_row_apply (ab1 m c) _ j

/-- The read-out's bias as a row. -/
theorem V1_v2 (j : Fin 128) :
    (Gen.V1 m c main_v2 : S1x128.Idx → EReal) (ix2 (0 : Fin 1) j) = abp m c (ix1 j) := by
  have e : (Gen.V1 m c main_v2 : S1x128.Idx → EReal) = shapeCast S1x128 (abp m c) Gen.shapeCasts_S128_S1x128 := by
    dsimp only [Gen.V1, Gen.hostOps0]; after_results; rfl
  rw [e]
  exact Cert.KernelBody.shapeCast_row_apply (abp m c) _ j

/-- The read-out's upper half: rows 0 … 127 of the whole. -/
theorem V1_v3 (k j : Fin 128) :
    (Gen.V1 m c main_v3 : S128x128.Idx → EReal) (ix2 k j) = aWp m c (ix2 (Cert.Spec.top k) j) := by
  have e : (Gen.V1 m c main_v3 : S128x128.Idx → EReal)
      = extractStridedSlice S128x128 ![0, 0] (aWp m c) Gen.slices_S256x128_S128x128_0_0 := by
    dsimp only [Gen.V1, Gen.hostOps0]; after_results
  rw [e]
  refine extractStridedSlice_apply _ _ _ (ix2 k j) (ix2 (Cert.Spec.top k) j) fun a => ?_
  match a with
  | ⟨0, _⟩ => show k.val = 0 + k.val; omega
  | ⟨1, _⟩ => show j.val = 0 + j.val; omega

/-- The read-out's lower half: rows 128 … 255 of the whole. -/
theorem V1_v4 (k j : Fin 128) :
    (Gen.V1 m c main_v4 : S128x128.Idx → EReal) (ix2 k j) = aWp m c (ix2 (Cert.Spec.bot k) j) := by
  have e : (Gen.V1 m c main_v4 : S128x128.Idx → EReal)
      = extractStridedSlice S128x128 ![128, 0] (aWp m c) Gen.slices_S256x128_S128x128_128_0 := by
    dsimp only [Gen.V1, Gen.hostOps0]; after_results
  rw [e]
  refine extractStridedSlice_apply _ _ _ (ix2 k j) (ix2 (Cert.Spec.bot k) j) fun a => ?_
  match a with
  | ⟨0, _⟩ => show 128 + k.val = 128 + k.val; rfl
  | ⟨1, _⟩ => show j.val = 0 + j.val; omega

/-- The support as launched. -/
theorem V1_arg1 : (Gen.V1 m c main_arg1 : S10000x10000.Idx → EReal) = aA m c := Gen.V1_of m c main_arg1 (by decide)
/-- The second layer's weights as launched. -/
theorem V1_arg4 : (Gen.V1 m c main_arg4 : S128x128.Idx → EReal) = aW1 m c := Gen.V1_of m c main_arg4 (by decide)

/-! ## When region 1 is entered -/

/-- Region 0's output array holds what region 0 left. -/
theorem E2_at_v5 : Hand.E2 m c main_v5 = Hand.out5 m c := by
  unfold Hand.E2 Hand.W2
  exact Function.update_self ..

/-- Every other buffer is as region 0 found it. -/
theorem E2_other (r : Ref sig .tc) (h : r ≠ main_v5) : Hand.E2 m c r = Gen.V1 m c r := by
  unfold Hand.E2 Hand.W2
  exact Function.update_of_ne (StableHlo.devRef_ne_of_ne h) ..

/-! ## When region 2 is entered -/

/-- Region 1's first output array holds what region 1 left. -/
theorem E3_at_v60 : Hand.E3 m c main_v6_0 = Hand.out60 m c := by
  unfold Hand.E3 Hand.W3
  rw [Function.update_of_ne (StableHlo.devRef_ne_of_ne (by decide : main_v6_0 ≠ main_v6_1))]
  exact Function.update_self ..

/-- Region 1's second output array holds what region 1 left. -/
theorem E3_at_v61 : Hand.E3 m c main_v6_1 = Hand.out61 m c := by
  unfold Hand.E3 Hand.W3
  exact Function.update_self ..

/-- Every other buffer is as region 1 found it. -/
theorem E3_other (r : Ref sig .tc) (h0 : r ≠ main_v6_0) (h1 : r ≠ main_v6_1) : Hand.E3 m c r = Hand.E2 m c r := by
  unfold Hand.E3 Hand.W3
  rw [Function.update_of_ne (StableHlo.devRef_ne_of_ne h1), Function.update_of_ne (StableHlo.devRef_ne_of_ne h0)]

end Cert.KernelIdeal.HandValue

end
-- ==== Proof.PayAt1.lean ====
/-
  The first layer's kernel at an index, over the extended reals.  One 200-row slab `s` of the support, the
  resident projected features `g` and the bias row `b` give, at row `p` and column `j`,

      a p j = (∑ n, s (p, n) · g (n, j)) + b (0, j)        h p j = max (a p j) z

  (`z` the rectifier's zero word), and from `h` the two stored values: the projection for the second layer
  `∑ k, h p k · w (k, j)` and the first layer's share of the read-out `(∑ k, h p k · w (k, j)) + b' (0, j)`.  The
  changes of float format and the casts to the same shape keep every entry; each matrix product is accumulated
  into zero, so it is the plain sum over the contracted coordinate.
-/
import proofs.«104506_g65979287601806_cont_sun_c4_486_7_alg».proof.Proof.Gen.KernelIdeal.Skeleton
import proofs.«104506_g65979287601806_cont_sun_c4_486_7_alg».proof.Proof.Spec
import proofs.«104506_g65979287601806_cont_sun_c4_486_7_alg».proof.Proof.LibRowOps

noncomputable section

namespace Cert.KernelIdeal.PayAt

open Idealize.ShloMosaic Idealize.ShloMosaic.ValueIdx Cert.KernelIdeal Cert.KernelIdeal.Gen
open Cert.KernelBody (matmul_plain_zero_apply broadcastTo_row_apply)

section slab

variable (g : Vec Ideal S10000x128 .bf16) (s : Vec Ideal S200x10000 .f32) (b : Vec Ideal S1x128 .f32)

/-- The slab's affine value: support slab times features, plus the bias row. -/
theorem affine1 (p : Fin 200) (j : Fin 128) :
    k1_pay8 (F := Ideal) g s b (ix2 p j) = (∑ n : Fin 10000, s (ix2 p n) * g (ix2 n j)) + b (ix2 0 j) := by
  unfold k1_pay8 k1_pay4
  refine (addf_apply _ _ (ix2 p j)).trans (congrArg₂ (· + ·) ?_ ?_)
  · rw [shapeCast_self]
    exact matmul_plain_zero_apply (φ₁ := .bf16) (φ₂ := .bf16)
      Gen.dot_S200x10000_S10000x128_S200x128_1_0_0_1_n_n_wf none (truncf .bf16 s Gen.bitsLt_bf16_f32) g p j
  · rw [shapeCast_self]
    exact broadcastTo_row_apply b Gen.broadcasts_S1x128_S200x128 p j

/-- The rectified value of the first slab is the rectifier applied to the carried pair of the second slab's
    form: the same affine value against the same zero splat. -/
theorem k1_pay5_eq : k1_pay5 (F := Ideal) g s b = k1_pay1 (k1_pay8 g s b) k1_pay9 := rfl

/-- The hidden value, in the split form the second slab carries. -/
theorem hidden1' (p : Fin 200) (j : Fin 128) :
    k1_pay1 (F := Ideal) (k1_pay8 g s b) k1_pay9 (ix2 p j)
      = max ((∑ n : Fin 10000, s (ix2 p n) * g (ix2 n j)) + b (ix2 0 j)) Cert.Spec.z := by
  refine (maximumf_apply _ _ (ix2 p j)).trans ?_
  rw [affine1]
  rfl

/-- The hidden value of the first slab. -/
theorem hidden1 (p : Fin 200) (j : Fin 128) :
    k1_pay5 (F := Ideal) g s b (ix2 p j)
      = max ((∑ n : Fin 10000, s (ix2 p n) * g (ix2 n j)) + b (ix2 0 j)) Cert.Spec.z := by
  rw [k1_pay5_eq]
  exact hidden1' g s b p j

end slab

section stores

variable (g : Vec Ideal S10000x128 .bf16) (s : Vec Ideal S200x10000 .f32) (b : Vec Ideal S1x128 .f32)
  (u v : FVec Ideal S200x128 .f32)

/-- The second slab's projection for the next layer: the rectified pair times the weights. -/
theorem pay2_at (w1 : Vec Ideal S128x128 .f32) (p : Fin 200) (j : Fin 128) :
    k1_pay2 (F := Ideal) u v w1 (ix2 p j) = ∑ k : Fin 128, k1_pay1 (F := Ideal) u v (ix2 p k) * w1 (ix2 k j) := by
  unfold k1_pay2
  exact matmul_plain_zero_apply (φ₁ := .f32) (φ₂ := .f32)
    Gen.dot_S200x128_S128x128_S200x128_1_0_0_1_n_n_wf none (k1_pay1 u v) w1 p j

/-- The second slab's share of the read-out: the rectified pair times the weights, plus the bias row. -/
theorem pay3_at (wt : Vec Ideal S128x128 .f32) (bpr : Vec Ideal S1x128 .f32) (p : Fin 200) (j : Fin 128) :
    k1_pay3 (F := Ideal) u v wt bpr (ix2 p j)
      = (∑ k : Fin 128, k1_pay1 (F := Ideal) u v (ix2 p k) * wt (ix2 k j)) + bpr (ix2 0 j) := by
  unfold k1_pay3
  refine (addf_apply _ _ (ix2 p j)).trans (congrArg₂ (· + ·) ?_ ?_)
  · rw [shapeCast_self]
    exact matmul_plain_zero_apply (φ₁ := .f32) (φ₂ := .f32)
      Gen.dot_S200x128_S128x128_S200x128_1_0_0_1_n_n_wf none (k1_pay1 u v) wt p j
  · rw [shapeCast_self]
    exact broadcastTo_row_apply bpr Gen.broadcasts_S1x128_S200x128 p j

/-- The first slab's projection for the next layer. -/
theorem pay6_at (w1 : Vec Ideal S128x128 .f32) (p : Fin 200) (j : Fin 128) :
    k1_pay6 (F := Ideal) g s b w1 (ix2 p j) = ∑ k : Fin 128, k1_pay5 (F := Ideal) g s b (ix2 p k) * w1 (ix2 k j) := by
  unfold k1_pay6
  exact matmul_plain_zero_apply (φ₁ := .f32) (φ₂ := .f32)
    Gen.dot_S200x128_S128x128_S200x128_1_0_0_1_n_n_wf none (k1_pay5 g s b) w1 p j

/-- The first slab's share of the read-out. -/
theorem pay7_at (wt : Vec Ideal S128x128 .f32) (bpr : Vec Ideal S1x128 .f32) (p : Fin 200) (j : Fin 128) :
    k1_pay7 (F := Ideal) g s b wt bpr (ix2 p j)
      = (∑ k : Fin 128, k1_pay5 (F := Ideal) g s b (ix2 p k) * wt (ix2 k j)) + bpr (ix2 0 j) := by
  unfold k1_pay7
  refine (addf_apply _ _ (ix2 p j)).trans (congrArg₂ (· + ·) ?_ ?_)
  · rw [shapeCast_self]
    exact matmul_plain_zero_apply (φ₁ := .f32) (φ₂ := .f32)
      Gen.dot_S200x128_S128x128_S200x128_1_0_0_1_n_n_wf none (k1_pay5 g s b) wt p j
  · rw [shapeCast_self]
    exact broadcastTo_row_apply bpr Gen.broadcasts_S1x128_S200x128 p j

end stores

end Cert.KernelIdeal.PayAt

end
-- ==== Proof.KiValue1.lean ====
/-
  Region 1 as whole arrays, over the extended reals.  Point t of the 25 reads rows [400t, 400t + 400) of the
  support as two slabs of 200 rows, the whole of g0 = x · W0, the first bias row, the second layer's weights,
  the read-out's upper half and the read-out's bias row.  A row 400t + q of the block it writes is, in the
  first output array, the row of g1 = h0 · W1 and, in the second, the row of p = h0 · Wp_top + bp, where
  h0 = max (A · g0 + b0) 0 is taken on that row of the support: rows q < 200 come from the first slab and are
  stored in the upper half of the block, rows q ≥ 200 from the second slab, stored in the lower half.  The 25
  blocks tile the 10000 rows (row r is in block r / 400), so each output array ends as the specification's
  function at every index.
-/
import proofs.«104506_g65979287601806_cont_sun_c4_486_7_alg».proof.Proof.KiData
import proofs.«104506_g65979287601806_cont_sun_c4_486_7_alg».proof.Proof.KiValue0
import proofs.«104506_g65979287601806_cont_sun_c4_486_7_alg».proof.Proof.KiEntry
import proofs.«104506_g65979287601806_cont_sun_c4_486_7_alg».proof.Proof.PayAt1
import proofs.«104506_g65979287601806_cont_sun_c4_486_7_alg».proof.Proof.Spec
import Idealize.ShloMosaic.Lib.Pipeline.Value

noncomputable section

namespace Cert.KernelIdeal.HandValue1

open Cert.KernelIdeal Cert.KernelIdeal.Gen Cert.KernelIdeal.Hand Cert.KernelIdeal.HandValue
open Idealize.ShloMosaic Idealize.ShloMosaic.TcCoe Idealize.ShloMosaic.ValueIdx Idealize.SL.Sem
open Idealize.ShloMosaic.Pipeline (Dat)

/-! ## The two halves of a 400-row block -/

/-- Row `p` of the upper half, as a row of the block. -/
def up (p : Fin 200) : Fin 400 := ⟨p.val, by omega⟩
/-- Row `p` of the lower half, as a row of the block. -/
def lo (p : Fin 200) : Fin 400 := ⟨200 + p.val, by omega⟩

/-- Every row of the block is a row of one of the halves. -/
theorem up_or_lo (q : Fin 400) : (∃ p : Fin 200, q = up p) ∨ (∃ p : Fin 200, q = lo p) := by
  by_cases h : q.val < 200
  · exact Or.inl ⟨⟨q.val, h⟩, Fin.ext rfl⟩
  · exact Or.inr ⟨⟨q.val - 200, by have := q.isLt; omega⟩, Fin.ext (by show q.val = 200 + (q.val - 200); omega)⟩

theorem rTop_emb (p : Fin 200) (j : Fin 128) : Hand.rTop.emb (ix2 p j) = ix2 (up p) j := by
  funext a; apply Fin.ext
  match a with
  | ⟨0, _⟩ => show 0 + 1 * p.val = p.val; omega
  | ⟨1, _⟩ => show 0 + 1 * j.val = j.val; omega

theorem rBot_emb (p : Fin 200) (j : Fin 128) : Hand.rBot.emb (ix2 p j) = ix2 (lo p) j := by
  funext a; apply Fin.ext
  match a with
  | ⟨0, _⟩ => show 200 + 1 * p.val = 200 + p.val; omega
  | ⟨1, _⟩ => show 0 + 1 * j.val = j.val; omega

/-- A row of the upper half is not in the lower half's rectangle. -/
theorem up_not_mem_rBot (p : Fin 200) (j : Fin 128) : (ix2 (up p) j : S400x128.Idx) ∉ Hand.rBot.set := by
  rw [Rect.mem_set_unit]
  intro h
  have h0 := (h 0).1
  have : (200 : Nat) ≤ p.val := h0
  have := p.isLt
  omega

/-- The canon of the body's two stores at a row of the lower half: the last store's payload. -/
theorem canon_lo {e : EltTy} (w1 w3 : Vec Ideal S200x128 e) (p : Fin 200) (j : Fin 128) :
    View.canon ([⟨Hand.rBot, w1⟩, ⟨Hand.rTop, w3⟩] : List (View.Piece (Elt Ideal) S400x128 e)) (ix2 (lo p) j)
      = w1 (ix2 p j) := by
  rw [← rBot_emb p j]
  exact View.canon_cons_emb Hand.rBot w1 _ (ix2 p j)

/-- At a row of the upper half: the first store's payload. -/
theorem canon_up {e : EltTy} (w1 w3 : Vec Ideal S200x128 e) (p : Fin 200) (j : Fin 128) :
    View.canon ([⟨Hand.rBot, w1⟩, ⟨Hand.rTop, w3⟩] : List (View.Piece (Elt Ideal) S400x128 e)) (ix2 (up p) j)
      = w3 (ix2 p j) := by
  refine (View.canon_cons_of_not_mem (⟨Hand.rBot, w1⟩ : View.Piece (Elt Ideal) S400x128 e) _
    (up_not_mem_rBot p j)).trans ?_
  rw [← rTop_emb p j]
  exact View.canon_cons_emb Hand.rTop w3 _ (ix2 p j)

/-! ## The output blocks, index by index -/

section Block

variable (s0 s1 : Vec Ideal S200x10000 .f32) (g : Vec Ideal S10000x128 .bf16) (b : Vec Ideal S1x128 .f32)
  (w : Vec Ideal S128x128 .f32) (bpr : Vec Ideal S1x128 .f32)

/-- The first output block at a row of the lower half: the second slab's hidden row times the weights. -/
theorem blk7_lo (p : Fin 200) (j : Fin 128) :
    Hand.blk1_7 (F := Ideal) s0 s1 g b w (ix2 (lo p) j)
      = ∑ k : Fin 128,
          (max ((∑ n : Fin 10000, s1 (ix2 p n) * g (ix2 n k)) + b (ix2 0 k)) Cert.Spec.z) * w (ix2 k j) := by
  unfold Hand.blk1_7
  refine (canon_lo _ _ p j).trans ?_
  simp only [View.ld_unit_zero (S := S10000x128) hz, View.ld_unit_zero (S := S200x10000) hz,
    View.ld_unit_zero (S := S1x128) hz, View.ld_unit_zero (S := S128x128) hz]
  refine (PayAt.pay2_at (k1_pay8 g s1 b) (k1_pay9 (F := Ideal)) w p j).trans ?_
  refine Finset.sum_congr rfl fun k _ => ?_
  rw [PayAt.hidden1' g s1 b p k]

/-- The first output block at a row of the upper half: the first slab's hidden row times the weights. -/
theorem blk7_up (p : Fin 200) (j : Fin 128) :
    Hand.blk1_7 (F := Ideal) s0 s1 g b w (ix2 (up p) j)
      = ∑ k : Fin 128,
          (max ((∑ n : Fin 10000, s0 (ix2 p n) * g (ix2 n k)) + b (ix2 0 k)) Cert.Spec.z) * w (ix2 k j) := by
  unfold Hand.blk1_7
  refine (canon_up _ _ p j).trans ?_
  simp only [View.ld_unit_zero (S := S10000x128) hz, View.ld_unit_zero (S := S200x10000) hz,
    View.ld_unit_zero (S := S1x128) hz, View.ld_unit_zero (S := S128x128) hz]
  refine (PayAt.pay6_at g s0 b w p j).trans ?_
  refine Finset.sum_congr rfl fun k _ => ?_
  rw [PayAt.hidden1 g s0 b p k]

/-- The second output block at a row of the lower half: the same, plus the read-out's bias row. -/
theorem blk8_lo (p : Fin 200) (j : Fin 128) :
    Hand.blk1_8 (F := Ideal) s0 s1 g b w bpr (ix2 (lo p) j)
      = (∑ k : Fin 128,
          (max ((∑ n : Fin 10000, s1 (ix2 p n) * g (ix2 n k)) + b (ix2 0 k)) Cert.Spec.z) * w (ix2 k j))
        + bpr (ix2 0 j) := by
  unfold Hand.blk1_8
  refine (canon_lo _ _ p j).trans ?_
  simp only [View.ld_unit_zero (S := S10000x128) hz, View.ld_unit_zero (S := S200x10000) hz,
    View.ld_unit_zero (S := S1x128) hz, View.ld_unit_zero (S := S128x128) hz]
  refine (PayAt.pay3_at (k1_pay8 g s1 b) (k1_pay9 (F := Ideal)) w bpr p j).trans ?_
  refine congrArg (· + bpr (ix2 0 j)) (Finset.sum_congr rfl fun k _ => ?_)
  rw [PayAt.hidden1' g s1 b p k]

/-- The second output block at a row of the upper half. -/
theorem blk8_up (p : Fin 200) (j : Fin 128) :
    Hand.blk1_8 (F := Ideal) s0 s1 g b w bpr (ix2 (up p) j)
      = (∑ k : Fin 128,
          (max ((∑ n : Fin 10000, s0 (ix2 p n) * g (ix2 n k)) + b (ix2 0 k)) Cert.Spec.z) * w (ix2 k j))
        + bpr (ix2 0 j) := by
  unfold Hand.blk1_8
  refine (canon_up _ _ p j).trans ?_
  simp only [View.ld_unit_zero (S := S10000x128) hz, View.ld_unit_zero (S := S200x10000) hz,
    View.ld_unit_zero (S := S1x128) hz, View.ld_unit_zero (S := S128x128) hz]
  refine (PayAt.pay7_at g s0 b w bpr p j).trans ?_
  refine congrArg (· + bpr (ix2 0 j)) (Finset.sum_congr rfl fun k _ => ?_)
  rw [PayAt.hidden1 g s0 b p k]

end Block

/-! ## The windows' blocks, as rows of the arrays region 1 finds -/

/-- The printed index maps over the 25 points: the two slabs of the support are blocks `2t` and `2t + 1` of
    200 rows, the two output blocks block `t` of 400 rows, the resident windows block 0. -/
theorem idx_facts : ∀ t : Fin cfg1.N,
    win1_0.index t (0 : Fin 2) = 2 * t.val ∧ win1_0.index t (1 : Fin 2) = 0
    ∧ win1_1.index t (0 : Fin 2) = 2 * t.val + 1 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The region has 25 points. -/
theorem t_lt (t : Fin cfg1.N) : t.val < 25 := by
  have h := t.isLt
  have e : cfg1.N = 25 := N_1
  omega

section Reads

variable (m : (ℓ : Loc nD τ sig) → Buf (Elt Ideal) ℓ) (c : Dev nD)

/-- The first slab at point `t`: rows `400 t + p` of the support. -/
theorem iblk_0_at (t : Fin cfg1.N) (p : Fin 200) (n : Fin 10000) (r : Fin 10000) (hr : r.val = 400 * t.val + p.val) :
    (Hand.iblk1 m c 0 t : Vec Ideal S200x10000 .f32) (ix2 p n) = aA m c (ix2 r n) := by
  obtain ⟨e0, e1, -⟩ := idx_facts t
  have he : (((cfg1.win 0).blk t).view.emb (ix2 p n) : S10000x10000.Idx) = ix2 r n := by
    funext a; apply Fin.ext
    match a with
    | ⟨0, _⟩ => show win1_0.index t (0 : Fin 2) * 200 + 1 * p.val = r.val; rw [e0, hr]; omega
    | ⟨1, _⟩ => show win1_0.index t (1 : Fin 2) * 10000 + 1 * n.val = n.val; rw [e1]; omega
  show Hand.E2 m c main_arg1 (((cfg1.win 0).blk t).view.emb (ix2 p n)) = _
  rw [he, E2_other m c main_arg1 (by decide), V1_arg1]

/-- The second slab at point `t`: rows `400 t + 200 + p` of the support. -/
theorem iblk_1_at (t : Fin cfg1.N) (p : Fin 200) (n : Fin 10000) (r : Fin 10000)
    (hr : r.val = 400 * t.val + 200 + p.val) :
    (Hand.iblk1 m c 1 t : Vec Ideal S200x10000 .f32) (ix2 p n) = aA m c (ix2 r n) := by
  obtain ⟨-, -, e0, e1, -⟩ := idx_facts t
  have he : (((cfg1.win 1).blk t).view.emb (ix2 p n) : S10000x10000.Idx) = ix2 r n := by
    funext a; apply Fin.ext
    match a with
    | ⟨0, _⟩ => show win1_1.index t (0 : Fin 2) * 200 + 1 * p.val = r.val; rw [e0, hr]; omega
    | ⟨1, _⟩ => show win1_1.index t (1 : Fin 2) * 10000 + 1 * n.val = n.val; rw [e1]; omega
  show Hand.E2 m c main_arg1 (((cfg1.win 1).blk t).view.emb (ix2 p n)) = _
  rw [he, E2_other m c main_arg1 (by decide), V1_arg1]

/-- The resident features' block is the whole of what region 0 left: `g0`. -/
theorem iblk_2_at (t : Fin cfg1.N) (n : Fin 10000) (k : Fin 128) :
    (Hand.iblk1 m c 2 t : Vec Ideal S10000x128 .bf16) (ix2 n k) = Cert.Spec.g0 (aX m c) (aW0 m c) n k := by
  obtain ⟨-, -, -, -, e0, e1, -⟩ := idx_facts t
  have he : (((cfg1.win 2).blk t).view.emb (ix2 n k) : S10000x128.Idx) = ix2 n k := by
    funext a; apply Fin.ext
    match a with
    | ⟨0, _⟩ => show win1_2.index t (0 : Fin 2) * 10000 + 1 * n.val = n.val; rw [e0]; omega
    | ⟨1, _⟩ => show win1_2.index t (1 : Fin 2) * 128 + 1 * k.val = k.val; rw [e1]; omega
  show Hand.E2 m c main_v5 (((cfg1.win 2).blk t).view.emb (ix2 n k)) = _
  rw [he, E2_at_v5, out5_eq]

/-- The first bias row. -/
theorem iblk_3_at (t : Fin cfg1.N) (k : Fin 128) :
    (Hand.iblk1 m c 3 t : Vec Ideal S1x128 .f32) (ix2 (0 : Fin 1) k) = ab0 m c (ix1 k) := by
  obtain ⟨-, -, -, -, -, -, e0, e1, -⟩ := idx_facts t
  have he : (((cfg1.win 3).blk t).view.emb (ix2 (0 : Fin 1) k) : S1x128.Idx) = ix2 (0 : Fin 1) k := by
    funext a; apply Fin.ext
    match a with
    | ⟨0, _⟩ => show win1_3.index t (0 : Fin 2) * 1 + 1 * 0 = 0; omega
    | ⟨1, _⟩ => show win1_3.index t (1 : Fin 2) * 128 + 1 * k.val = k.val; rw [e1]; omega
  show Hand.E2 m c main_v0 (((cfg1.win 3).blk t).view.emb (ix2 (0 : Fin 1) k)) = _
  rw [he, E2_other m c main_v0 (by decide)]
  exact V1_v0 m c k

/-- The second layer's weights. -/
theorem iblk_4_at (t : Fin cfg1.N) (k j : Fin 128) :
    (Hand.iblk1 m c 4 t : Vec Ideal S128x128 .f32) (ix2 k j) = aW1 m c (ix2 k j) := by
  obtain ⟨-, -, -, -, -, -, -, -, e0, e1, -⟩ := idx_facts t
  have he : (((cfg1.win 4).blk t).view.emb (ix2 k j) : S128x128.Idx) = ix2 k j := by
    funext a; apply Fin.ext
    match a with
    | ⟨0, _⟩ => show win1_4.index t (0 : Fin 2) * 128 + 1 * k.val = k.val; rw [e0]; omega
    | ⟨1, _⟩ => show win1_4.index t (1 : Fin 2) * 128 + 1 * j.val = j.val; rw [e1]; omega
  show Hand.E2 m c main_arg4 (((cfg1.win 4).blk t).view.emb (ix2 k j)) = _
  rw [he, E2_other m c main_arg4 (by decide), V1_arg4]

/-- The read-out's upper half: rows 0 … 127 of the whole. -/
theorem iblk_5_at (t : Fin cfg1.N) (k j : Fin 128) :
    (Hand.iblk1 m c 5 t : Vec Ideal S128x128 .f32) (ix2 k j) = aWp m c (ix2 (Cert.Spec.top k) j) := by
  obtain ⟨-, -, -, -, -, -, -, -, -, -, e0, e1, -⟩ := idx_facts t
  have he : (((cfg1.win 5).blk t).view.emb (ix2 k j) : S128x128.Idx) = ix2 k j := by
    funext a; apply Fin.ext
    match a with
    | ⟨0, _⟩ => show win1_5.index t (0 : Fin 2) * 128 + 1 * k.val = k.val; rw [e0]; omega
    | ⟨1, _⟩ => show win1_5.index t (1 : Fin 2) * 128 + 1 * j.val = j.val; rw [e1]; omega
  show Hand.E2 m c main_v3 (((cfg1.win 5).blk t).view.emb (ix2 k j)) = _
  rw [he, E2_other m c main_v3 (by decide)]
  exact V1_v3 m c k j

/-- The read-out's bias row. -/
theorem iblk_6_at (t : Fin cfg1.N) (j : Fin 128) :
    (Hand.iblk1 m c 6 t : Vec Ideal S1x128 .f32) (ix2 (0 : Fin 1) j) = abp m c (ix1 j) := by
  obtain ⟨-, -, -, -, -, -, -, -, -, -, -, -, e0, e1, -⟩ := idx_facts t
  have he : (((cfg1.win 6).blk t).view.emb (ix2 (0 : Fin 1) j) : S1x128.Idx) = ix2 (0 : Fin 1) j := by
    funext a; apply Fin.ext
    match a with
    | ⟨0, _⟩ => show win1_6.index t (0 : Fin 2) * 1 + 1 * 0 = 0; omega
    | ⟨1, _⟩ => show win1_6.index t (1 : Fin 2) * 128 + 1 * j.val = j.val; rw [e1]; omega
  show Hand.E2 m c main_v2 (((cfg1.win 6).blk t).view.emb (ix2 (0 : Fin 1) j)) = _
  rw [he, E2_other m c main_v2 (by decide)]
  exact V1_v2 m c j

end Reads

/-! ## A block's row as the specification's row -/

section Rows

variable (m : (ℓ : Loc nD τ sig) → Buf (Elt Ideal) ℓ) (c : Dev nD)
  (s : Vec Ideal S200x10000 .f32) (g : Vec Ideal S10000x128 .bf16) (b : Vec Ideal S1x128 .f32)
  (w : Vec Ideal S128x128 .f32) (bpr : Vec Ideal S1x128 .f32)

/-- The hidden value: when the slab's row `p` is the support's row `r`, the resident block is `g0` and the
    bias row is `b0`, the rectified affine value at `(p, k)` is the first layer at `(r, k)`. -/
theorem hidden_eq (p : Fin 200) (r : Fin 10000) (k : Fin 128)
    (hs : ∀ n : Fin 10000, s (ix2 p n) = aA m c (ix2 r n))
    (hg : ∀ n : Fin 10000, g (ix2 n k) = Cert.Spec.g0 (aX m c) (aW0 m c) n k)
    (hb : b (ix2 (0 : Fin 1) k) = ab0 m c (ix1 k)) :
    max ((∑ n : Fin 10000, s (ix2 p n) * g (ix2 n k)) + b (ix2 (0 : Fin 1) k)) Cert.Spec.z
      = Cert.Spec.h0 (aX m c) (aA m c) (aW0 m c) (ab0 m c) r k := by
  unfold Cert.Spec.h0
  rw [hb]
  refine congrArg (fun v => max (v + ab0 m c (ix1 k)) Cert.Spec.z) (Finset.sum_congr rfl fun n _ => ?_)
  rw [hs n, hg n]

/-- A row of the projection for the second layer. -/
theorem row7 (p : Fin 200) (r : Fin 10000) (j : Fin 128)
    (hs : ∀ n : Fin 10000, s (ix2 p n) = aA m c (ix2 r n))
    (hg : ∀ (n : Fin 10000) (k : Fin 128), g (ix2 n k) = Cert.Spec.g0 (aX m c) (aW0 m c) n k)
    (hb : ∀ k : Fin 128, b (ix2 (0 : Fin 1) k) = ab0 m c (ix1 k))
    (hw : ∀ k : Fin 128, w (ix2 k j) = aW1 m c (ix2 k j)) :
    (∑ k : Fin 128,
        (max ((∑ n : Fin 10000, s (ix2 p n) * g (ix2 n k)) + b (ix2 (0 : Fin 1) k)) Cert.Spec.z) * w (ix2 k j))
      = Cert.Spec.g1 (aX m c) (aA m c) (aW0 m c) (ab0 m c) (aW1 m c) r j := by
  unfold Cert.Spec.g1
  refine Finset.sum_congr rfl fun k _ => ?_
  rw [hidden_eq m c s g b p r k hs (fun n => hg n k) (hb k), hw k]

/-- A row of the first layer's share of the read-out. -/
theorem row8 (p : Fin 200) (r : Fin 10000) (j : Fin 128)
    (hs : ∀ n : Fin 10000, s (ix2 p n) = aA m c (ix2 r n))
    (hg : ∀ (n : Fin 10000) (k : Fin 128), g (ix2 n k) = Cert.Spec.g0 (aX m c) (aW0 m c) n k)
    (hb : ∀ k : Fin 128, b (ix2 (0 : Fin 1) k) = ab0 m c (ix1 k))
    (hw : ∀ k : Fin 128, w (ix2 k j) = aWp m c (ix2 (Cert.Spec.top k) j))
    (hbp : bpr (ix2 (0 : Fin 1) j) = abp m c (ix1 j)) :
    (∑ k : Fin 128,
        (max ((∑ n : Fin 10000, s (ix2 p n) * g (ix2 n k)) + b (ix2 (0 : Fin 1) k)) Cert.Spec.z) * w (ix2 k j))
        + bpr (ix2 (0 : Fin 1) j)
      = Cert.Spec.p (aX m c) (aA m c) (aW0 m c) (ab0 m c) (aWp m c) (abp m c) r j := by
  unfold Cert.Spec.p
  rw [hbp]
  refine congrArg (· + abp m c (ix1 j)) (Finset.sum_congr rfl fun k _ => ?_)
  rw [hidden_eq m c s g b p r k hs (fun n => hg n k) (hb k), hw k]

end Rows

/-! ## What a point writes back -/

section Flushed

variable (m : (ℓ : Loc nD τ sig) → Buf (Elt Ideal) ℓ) (c : Dev nD)

/-- Row `q` of the first output's block at point `t` is row `400 t + q` of the array. -/
theorem emb7 (t : Fin cfg1.N) (q : Fin 400) (j : Fin 128) (r : Fin 10000) (hr : r.val = 400 * t.val + q.val) :
    (((cfg1.win 7).blk t).view.emb (ix2 q j) : S10000x128.Idx) = ix2 r j := by
  obtain ⟨-, -, -, -, -, -, -, -, -, -, -, -, -, -, e0, e1, -⟩ := idx_facts t
  funext a; apply Fin.ext
  match a with
  | ⟨0, _⟩ => show win1_7.index t (0 : Fin 2) * 400 + 1 * q.val = r.val; rw [e0, hr]; omega
  | ⟨1, _⟩ => show win1_7.index t (1 : Fin 2) * 128 + 1 * j.val = j.val; rw [e1]; omega

/-- The same for the second output's block. -/
theorem emb8 (t : Fin cfg1.N) (q : Fin 400) (j : Fin 128) (r : Fin 10000) (hr : r.val = 400 * t.val + q.val) :
    (((cfg1.win 8).blk t).view.emb (ix2 q j) : S10000x128.Idx) = ix2 r j := by
  obtain ⟨-, -, -, -, -, -, -, -, -, -, -, -, -, -, -, -, e0, e1⟩ := idx_facts t
  funext a; apply Fin.ext
  match a with
  | ⟨0, _⟩ => show win1_8.index t (0 : Fin 2) * 400 + 1 * q.val = r.val; rw [e0, hr]; omega
  | ⟨1, _⟩ => show win1_8.index t (1 : Fin 2) * 128 + 1 * j.val = j.val; rw [e1]; omega

/-- What point `t` writes back to the first output array is its block of `g1`. -/
theorem flushed7_eq (t : Fin cfg1.N) :
    (Hand.dats1 m c).flushed 7 t
      = ((cfg1.win 7).blk t).view.read (Elt Ideal)
          (fun i : S10000x128.Idx =>
            Cert.Spec.g1 (aX m c) (aA m c) (aW0 m c) (ab0 m c) (aW1 m c) (i 0) (i 1)) := by
  show (cfg1.win 7).cut (grid1.coords t) ((Hand.dats1 m c).after 7 t) = _
  dsimp only [Hand.dats1]
  funext y
  obtain ⟨q, j, rfl⟩ : ∃ (q : Fin 400) (j : Fin 128), y = ix2 q j := ⟨y 0, y 1, eq_ix2 y⟩
  have ht : t.val < 25 := t_lt t
  have hq : q.val < 400 := q.isLt
  show Hand.blk1_7 (iblk1 m c 0 t) (iblk1 m c 1 t) (iblk1 m c 2 t) (iblk1 m c 3 t) (iblk1 m c 4 t) (ix2 q j)
    = (fun i : S10000x128.Idx => Cert.Spec.g1 (aX m c) (aA m c) (aW0 m c) (ab0 m c) (aW1 m c) (i 0) (i 1))
        (((cfg1.win 7).blk t).view.emb (ix2 q j))
  rw [emb7 t q j ⟨400 * t.val + q.val, by omega⟩ rfl]
  show _ = Cert.Spec.g1 (aX m c) (aA m c) (aW0 m c) (ab0 m c) (aW1 m c) ⟨400 * t.val + q.val, by omega⟩ j
  rcases up_or_lo q with ⟨p, rfl⟩ | ⟨p, rfl⟩
  · refine (blk7_up (iblk1 m c 0 t) (iblk1 m c 1 t) (iblk1 m c 2 t) (iblk1 m c 3 t) (iblk1 m c 4 t) p j).trans ?_
    exact row7 m c (iblk1 m c 0 t) (iblk1 m c 2 t) (iblk1 m c 3 t) (iblk1 m c 4 t) p _ j
      (fun n => iblk_0_at m c t p n _ rfl) (fun n k => iblk_2_at m c t n k) (fun k => iblk_3_at m c t k)
      (fun k => iblk_4_at m c t k j)
  · refine (blk7_lo (iblk1 m c 0 t) (iblk1 m c 1 t) (iblk1 m c 2 t) (iblk1 m c 3 t) (iblk1 m c 4 t) p j).trans ?_
    exact row7 m c (iblk1 m c 1 t) (iblk1 m c 2 t) (iblk1 m c 3 t) (iblk1 m c 4 t) p _ j
      (fun n => iblk_1_at m c t p n _ (by show 400 * t.val + (200 + p.val) = 400 * t.val + 200 + p.val; omega))
      (fun n k => iblk_2_at m c t n k) (fun k => iblk_3_at m c t k) (fun k => iblk_4_at m c t k j)

/-- What point `t` writes back to the second output array is its block of `p`. -/
theorem flushed8_eq (t : Fin cfg1.N) :
    (Hand.dats1 m c).flushed 8 t
      = ((cfg1.win 8).blk t).view.read (Elt Ideal)
          (fun i : S10000x128.Idx =>
            Cert.Spec.p (aX m c) (aA m c) (aW0 m c) (ab0 m c) (aWp m c) (abp m c) (i 0) (i 1)) := by
  show (cfg1.win 8).cut (grid1.coords t) ((Hand.dats1 m c).after 8 t) = _
  dsimp only [Hand.dats1]
  funext y
  obtain ⟨q, j, rfl⟩ : ∃ (q : Fin 400) (j : Fin 128), y = ix2 q j := ⟨y 0, y 1, eq_ix2 y⟩
  have ht : t.val < 25 := t_lt t
  have hq : q.val < 400 := q.isLt
  show Hand.blk1_8 (iblk1 m c 0 t) (iblk1 m c 1 t) (iblk1 m c 2 t) (iblk1 m c 3 t) (iblk1 m c 5 t)
      (iblk1 m c 6 t) (ix2 q j)
    = (fun i : S10000x128.Idx =>
        Cert.Spec.p (aX m c) (aA m c) (aW0 m c) (ab0 m c) (aWp m c) (abp m c) (i 0) (i 1))
        (((cfg1.win 8).blk t).view.emb (ix2 q j))
  rw [emb8 t q j ⟨400 * t.val + q.val, by omega⟩ rfl]
  show _ = Cert.Spec.p (aX m c) (aA m c) (aW0 m c) (ab0 m c) (aWp m c) (abp m c) ⟨400 * t.val + q.val, by omega⟩ j
  rcases up_or_lo q with ⟨p, rfl⟩ | ⟨p, rfl⟩
  · refine (blk8_up (iblk1 m c 0 t) (iblk1 m c 1 t) (iblk1 m c 2 t) (iblk1 m c 3 t) (iblk1 m c 5 t)
      (iblk1 m c 6 t) p j).trans ?_
    exact row8 m c (iblk1 m c 0 t) (iblk1 m c 2 t) (iblk1 m c 3 t) (iblk1 m c 5 t) (iblk1 m c 6 t) p _ j
      (fun n => iblk_0_at m c t p n _ rfl) (fun n k => iblk_2_at m c t n k) (fun k => iblk_3_at m c t k)
      (fun k => iblk_5_at m c t k j) (iblk_6_at m c t j)
  · refine (blk8_lo (iblk1 m c 0 t) (iblk1 m c 1 t) (iblk1 m c 2 t) (iblk1 m c 3 t) (iblk1 m c 5 t)
      (iblk1 m c 6 t) p j).trans ?_
    exact row8 m c (iblk1 m c 1 t) (iblk1 m c 2 t) (iblk1 m c 3 t) (iblk1 m c 5 t) (iblk1 m c 6 t) p _ j
      (fun n => iblk_1_at m c t p n _ (by show 400 * t.val + (200 + p.val) = 400 * t.val + 200 + p.val; omega))
      (fun n k => iblk_2_at m c t n k) (fun k => iblk_3_at m c t k)
      (fun k => iblk_5_at m c t k j) (iblk_6_at m c t j)

end Flushed

/-! ## The 25 blocks tile the array -/

/-- An index of the array is in the point's block iff each coordinate is in the block's range on its axis. -/
theorem mem_blk7 (t : Fin cfg1.N) (i : S10000x128.Idx) :
    i ∈ ((cfg1.win 7).blk t).view.set ↔ ∀ a : Fin 2, win1_7.index t a * S400x128.size a ≤ (i a).val
      ∧ (i a).val < win1_7.index t a * S400x128.size a + S400x128.size a := by
  show i ∈ ((View.whole main_v6_0).slice (win1_7.rect t)).set ↔ _
  rw [View.set_slice_whole, Rect.mem_set_unit]
  exact Iff.rfl

theorem mem_blk8 (t : Fin cfg1.N) (i : S10000x128.Idx) :
    i ∈ ((cfg1.win 8).blk t).view.set ↔ ∀ a : Fin 2, win1_8.index t a * S400x128.size a ≤ (i a).val
      ∧ (i a).val < win1_8.index t a * S400x128.size a + S400x128.size a := by
  show i ∈ ((View.whole main_v6_1).slice (win1_8.rect t)).set ↔ _
  rw [View.set_slice_whole, Rect.mem_set_unit]
  exact Iff.rfl

/-- The point whose block holds row `r`: `r / 400`. -/
def pt (i : S10000x128.Idx) : Fin cfg1.N :=
  Fin.cast N_1.symm ⟨(i 0).val / 400, by have := idx2_lt0 i; omega⟩

theorem pt_val (i : S10000x128.Idx) : (pt i).val = (i 0).val / 400 := rfl

/-- Row `r` is in block `r / 400` of the first output array. -/
theorem cover7 (i : S10000x128.Idx) :
    ∃ t : Fin cfg1.N, (cfg1.win 7).flush t = true ∧ i ∈ ((cfg1.win 7).blk t).view.set := by
  refine ⟨pt i, flush1_7 (pt i), (mem_blk7 (pt i) i).mpr fun a => ?_⟩
  obtain ⟨-, -, -, -, -, -, -, -, -, -, -, -, -, -, e0, e1, -⟩ := idx_facts (pt i)
  have hv := pt_val i
  have h0 : (i 0).val < 10000 := idx2_lt0 i
  have h1 : (i 1).val < 128 := idx2_lt1 i
  match a with
  | ⟨0, _⟩ =>
    show win1_7.index (pt i) (0 : Fin 2) * 400 ≤ (i 0).val
      ∧ (i 0).val < win1_7.index (pt i) (0 : Fin 2) * 400 + 400
    rw [e0, hv]; omega
  | ⟨1, _⟩ =>
    show win1_7.index (pt i) (1 : Fin 2) * 128 ≤ (i 1).val
      ∧ (i 1).val < win1_7.index (pt i) (1 : Fin 2) * 128 + 128
    rw [e1]; omega

/-- Row `r` is in block `r / 400` of the second output array. -/
theorem cover8 (i : S10000x128.Idx) :
    ∃ t : Fin cfg1.N, (cfg1.win 8).flush t = true ∧ i ∈ ((cfg1.win 8).blk t).view.set := by
  refine ⟨pt i, flush1_8 (pt i), (mem_blk8 (pt i) i).mpr fun a => ?_⟩
  obtain ⟨-, -, -, -, -, -, -, -, -, -, -, -, -, -, -, -, e0, e1⟩ := idx_facts (pt i)
  have hv := pt_val i
  have h0 : (i 0).val < 10000 := idx2_lt0 i
  have h1 : (i 1).val < 128 := idx2_lt1 i
  match a with
  | ⟨0, _⟩ =>
    show win1_8.index (pt i) (0 : Fin 2) * 400 ≤ (i 0).val
      ∧ (i 0).val < win1_8.index (pt i) (0 : Fin 2) * 400 + 400
    rw [e0, hv]; omega
  | ⟨1, _⟩ =>
    show win1_8.index (pt i) (1 : Fin 2) * 128 ≤ (i 1).val
      ∧ (i 1).val < win1_8.index (pt i) (1 : Fin 2) * 128 + 128
    rw [e1]; omega

/-! ## The two output arrays -/

variable (m : (ℓ : Loc nD τ sig) → Buf (Elt Ideal) ℓ) (c : Dev nD)

/-- REGION 1 leaves `g1 = h0 · W1` in its first output array. -/
theorem out60_eq :
    Hand.out60 m c = fun i : S10000x128.Idx =>
      Cert.Spec.g1 (aX m c) (aA m c) (aW0 m c) (ab0 m c) (aW1 m c) (i 0) (i 1) :=
  (Hand.dats1 m c).arrAt_eq_of_cover 7 _ (fun t _ => flushed7_eq m c t) cover7

/-- REGION 1 leaves `p = h0 · Wp_top + bp` in its second output array. -/
theorem out61_eq :
    Hand.out61 m c = fun i : S10000x128.Idx =>
      Cert.Spec.p (aX m c) (aA m c) (aW0 m c) (ab0 m c) (aWp m c) (abp m c) (i 0) (i 1) :=
  (Hand.dats1 m c).arrAt_eq_of_cover 8 _ (fun t _ => flushed8_eq m c t) cover8

end Cert.KernelIdeal.HandValue1

end
-- ==== Proof.PayAt2.lean ====
/-
  The second layer's kernel at an index, over the extended reals.  With the hidden value of a slab

      h p k = max ((∑ n, s (p, n) · g (n, k)) + b (0, k)) z

  (`g` the resident projected features of the second layer, `b` its bias row, `z` the rectifier's zero word),
  the stored value adds the slab's share of the read-out to the partial output already there:
  `pb (p, j) + ∑ k, h p k · wb (k, j)`.  The first slab stores it as one value, the second carries the cast
  partial block and the product separately and adds them at the store.
-/
import proofs.«104506_g65979287601806_cont_sun_c4_486_7_alg».proof.Proof.PayAt1

noncomputable section

namespace Cert.KernelIdeal.PayAt

open Idealize.ShloMosaic Idealize.ShloMosaic.ValueIdx Cert.KernelIdeal Cert.KernelIdeal.Gen
open Cert.KernelBody (matmul_plain_zero_apply)

variable (g : Vec Ideal S10000x128 .bf16) (s : Vec Ideal S200x10000 .f32) (b : Vec Ideal S1x128 .f32)
  (pb : Vec Ideal S200x128 .f32) (wb : Vec Ideal S128x128 .f32)

/-- The second layer's hidden value is built by the same operations as the first layer's. -/
theorem k2_pay5_eq :
    k2_pay5 (F := Ideal) g s b wb
      = matmul (φ₁ := .f32) (φ₂ := .f32) dot_S200x128_S128x128_S200x128_1_0_0_1_n_n none
          (k1_pay5 (F := Ideal) g s b) (shapeCast S128x128 wb Gen.shapeCasts_S128x128_S128x128)
          (constant S200x128 .f32 0x00000000#32) := rfl

/-- The slab's share of the read-out: the hidden value times the lower half of the read-out's weights. -/
theorem share2 (p : Fin 200) (j : Fin 128) :
    k2_pay5 (F := Ideal) g s b wb (ix2 p j)
      = ∑ k : Fin 128, (max ((∑ n : Fin 10000, s (ix2 p n) * g (ix2 n k)) + b (ix2 0 k)) Cert.Spec.z)
          * wb (ix2 k j) := by
  rw [k2_pay5_eq, shapeCast_self]
  refine (matmul_plain_zero_apply (φ₁ := .f32) (φ₂ := .f32)
    Gen.dot_S200x128_S128x128_S200x128_1_0_0_1_n_n_wf none (k1_pay5 g s b) wb p j).trans ?_
  exact Finset.sum_congr rfl fun k _ => congrArg (· * wb (ix2 k j)) (hidden1 g s b p k)

/-- The second slab's stored value: the carried partial block plus the carried product. -/
theorem pay1_2_at (p : Fin 200) (j : Fin 128) :
    k2_pay1 (F := Ideal) (k2_pay4 pb) (k2_pay5 g s b wb) (ix2 p j)
      = pb (ix2 p j) + ∑ k : Fin 128,
          (max ((∑ n : Fin 10000, s (ix2 p n) * g (ix2 n k)) + b (ix2 0 k)) Cert.Spec.z) * wb (ix2 k j) := by
  unfold k2_pay1 k2_pay4
  refine (addf_apply _ _ (ix2 p j)).trans (congrArg₂ (· + ·) ?_ (share2 g s b wb p j))
  rw [shapeCast_self]

/-- The first slab's stored value is the same sum, written as one value. -/
theorem k2_pay3_eq :
    k2_pay3 (F := Ideal) g s b pb wb = k2_pay1 (k2_pay4 pb) (k2_pay5 g s b wb) := rfl

/-- The first slab's stored value. -/
theorem pay3_2_at (p : Fin 200) (j : Fin 128) :
    k2_pay3 (F := Ideal) g s b pb wb (ix2 p j)
      = pb (ix2 p j) + ∑ k : Fin 128,
          (max ((∑ n : Fin 10000, s (ix2 p n) * g (ix2 n k)) + b (ix2 0 k)) Cert.Spec.z) * wb (ix2 k j) := by
  rw [k2_pay3_eq]
  exact pay1_2_at g s b pb wb p j

end Cert.KernelIdeal.PayAt

end
-- ==== Proof.KiValue2.lean ====
/-
  Region 2 as a whole array, over the extended reals.  Point t of the 25 reads rows [400t, 400t + 400) of the
  support as two slabs of 200 rows, the whole of g1 = h0 · W1, the second bias row, the read-out's lower half
  and rows [400t, 400t + 400) of the partial output p = h0 · Wp_top + bp.  Row 400t + q of the block it writes
  is p at that row plus the read-out's lower half applied to h1 = max (A · g1 + b1) 0 on that row of the
  support: rows q < 200 come from the first slab and are stored in the upper half of the block, rows q ≥ 200
  from the second slab, stored in the lower half.  The 25 blocks tile the 10000 rows (row r is in block r / 400),
  so the result's array ends as the specification's function at every index — stated under pointwise
  hypotheses on what the region finds in its five input arrays.
-/
import proofs.«104506_g65979287601806_cont_sun_c4_486_7_alg».proof.Proof.KiData
import proofs.«104506_g65979287601806_cont_sun_c4_486_7_alg».proof.Proof.PayAt2
import proofs.«104506_g65979287601806_cont_sun_c4_486_7_alg».proof.Proof.Spec
import Idealize.ShloMosaic.Lib.Pipeline.Value

noncomputable section

namespace Cert.KernelIdeal.HandValue2

open Cert.KernelIdeal Cert.KernelIdeal.Gen Idealize.ShloMosaic Idealize.ShloMosaic.TcCoe Idealize.SL.Sem
  Idealize.ShloMosaic.ValueIdx
open Idealize.ShloMosaic.Pipeline (Dat)

/-! ## The output block, index by index -/

theorem hz : (![0, 0] : Fin 2 → Nat) = fun _ => 0 := funext fun a => by fin_cases a <;> rfl

/-- Row `p` of the upper half, as a row of the block. -/
def up (p : Fin 200) : Fin 400 := ⟨p.val, by omega⟩
/-- Row `p` of the lower half, as a row of the block. -/
def lo (p : Fin 200) : Fin 400 := ⟨200 + p.val, by omega⟩

theorem rTop_emb (p : Fin 200) (j : Fin 128) : Hand.rTop.emb (ix2 p j) = ix2 (up p) j := by
  funext a; apply Fin.ext
  match a with
  | ⟨0, _⟩ => show 0 + 1 * p.val = p.val; omega
  | ⟨1, _⟩ => show 0 + 1 * j.val = j.val; omega

theorem rBot_emb (p : Fin 200) (j : Fin 128) : Hand.rBot.emb (ix2 p j) = ix2 (lo p) j := by
  funext a; apply Fin.ext
  match a with
  | ⟨0, _⟩ => show 200 + 1 * p.val = 200 + p.val; omega
  | ⟨1, _⟩ => show 0 + 1 * j.val = j.val; omega

/-- A row of the upper half is not in the lower half's rectangle. -/
theorem up_not_mem_rBot (p : Fin 200) (j : Fin 128) : (ix2 (up p) j : S400x128.Idx) ∉ Hand.rBot.set := by
  rw [Rect.mem_set_unit]
  intro h
  have h0 := (h 0).1
  have : (200 : Nat) ≤ p.val := h0
  have := p.isLt
  omega

/-- The canon of the body's two stores at a row of the lower half: the last store's payload. -/
theorem canon_lo (w1 w3 : Vec Ideal S200x128 .f32) (p : Fin 200) (j : Fin 128) :
    View.canon ([⟨Hand.rBot, w1⟩, ⟨Hand.rTop, w3⟩] : List (View.Piece (Elt Ideal) S400x128 .f32)) (ix2 (lo p) j)
      = w1 (ix2 p j) := by
  rw [← rBot_emb p j]
  exact View.canon_cons_emb Hand.rBot w1 _ (ix2 p j)

/-- At a row of the upper half: the first store's payload. -/
theorem canon_up (w1 w3 : Vec Ideal S200x128 .f32) (p : Fin 200) (j : Fin 128) :
    View.canon ([⟨Hand.rBot, w1⟩, ⟨Hand.rTop, w3⟩] : List (View.Piece (Elt Ideal) S400x128 .f32)) (ix2 (up p) j)
      = w3 (ix2 p j) := by
  refine (View.canon_cons_of_not_mem (⟨Hand.rBot, w1⟩ : View.Piece (Elt Ideal) S400x128 .f32) _
    (up_not_mem_rBot p j)).trans ?_
  rw [← rTop_emb p j]
  exact View.canon_cons_emb Hand.rTop w3 _ (ix2 p j)

section Block

variable (s0 s1 : Vec Ideal S200x10000 .f32) (g : Vec Ideal S10000x128 .bf16) (b : Vec Ideal S1x128 .f32)
  (wb : Vec Ideal S128x128 .f32) (pb : Vec Ideal S400x128 .f32)

/-- A row of the lower half: the partial block there plus the second slab's share of the read-out. -/
theorem blk_lo (p : Fin 200) (j : Fin 128) :
    Hand.blk2_6 (F := Ideal) s0 s1 g b wb pb (ix2 (lo p) j)
      = pb (ix2 (lo p) j) + ∑ k : Fin 128,
          (max ((∑ n : Fin 10000, s1 (ix2 p n) * g (ix2 n k)) + b (ix2 0 k)) Cert.Spec.z) * wb (ix2 k j) := by
  unfold Hand.blk2_6
  refine (canon_lo _ _ p j).trans ?_
  simp only [View.ld_unit_zero (S := S10000x128) hz, View.ld_unit_zero (S := S200x10000) hz,
    View.ld_unit_zero (S := S1x128) hz, View.ld_unit_zero (S := S128x128) hz]
  refine (PayAt.pay1_2_at g s1 b (View.ld pb Hand.rBot) wb p j).trans ?_
  rw [← rBot_emb p j]
  rfl

/-- A row of the upper half: the partial block there plus the first slab's share of the read-out. -/
theorem blk_up (p : Fin 200) (j : Fin 128) :
    Hand.blk2_6 (F := Ideal) s0 s1 g b wb pb (ix2 (up p) j)
      = pb (ix2 (up p) j) + ∑ k : Fin 128,
          (max ((∑ n : Fin 10000, s0 (ix2 p n) * g (ix2 n k)) + b (ix2 0 k)) Cert.Spec.z) * wb (ix2 k j) := by
  unfold Hand.blk2_6
  refine (canon_up _ _ p j).trans ?_
  simp only [View.ld_unit_zero (S := S10000x128) hz, View.ld_unit_zero (S := S200x10000) hz,
    View.ld_unit_zero (S := S1x128) hz, View.ld_unit_zero (S := S128x128) hz]
  refine (PayAt.pay3_2_at g s0 b (View.ld pb Hand.rTop) wb p j).trans ?_
  rw [← rTop_emb p j]
  rfl

end Block

/-! ## The windows' blocks, as rows of the arrays region 2 finds -/

/-- The printed index maps over the 25 points: the two slabs of the support are blocks `2t` and `2t + 1` of
    200 rows, the partial output and the result block `t` of 400 rows, the resident windows block 0. -/
theorem idx_facts : ∀ t : Fin cfg2.N,
    win2_0.index t (0 : Fin 2) = 2 * t.val ∧ win2_0.index t (1 : Fin 2) = 0
    ∧ win2_1.index t (0 : Fin 2) = 2 * t.val + 1 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

section Reads

variable (m : (ℓ : Loc nD τ sig) → Buf (Elt Ideal) ℓ) (c : Dev nD)

/-- The first slab at point `t`: rows `400 t + p` of the support. -/
theorem iblk0_at (t : Fin cfg2.N) (p : Fin 200) (n : Fin 10000) (r : Fin 10000) (hr : r.val = 400 * t.val + p.val) :
    (Hand.iblk2 m c 0 t : Vec Ideal S200x10000 .f32) (ix2 p n)
      = (Hand.E3 m c main_arg1 : S10000x10000.Idx → EReal) (ix2 r n) := by
  obtain ⟨e0, e1, -⟩ := idx_facts t
  unfold Hand.iblk2
  rw [View.read_apply]
  show Hand.E3 m c main_arg1 _ = Hand.E3 m c main_arg1 _
  refine congrArg (Hand.E3 m c main_arg1) (funext fun a => Fin.ext ?_)
  match a with
  | ⟨0, _⟩ => show win2_0.index t (0 : Fin 2) * 200 + 1 * p.val = r.val; rw [e0, hr]; omega
  | ⟨1, _⟩ => show win2_0.index t (1 : Fin 2) * 10000 + 1 * n.val = n.val; rw [e1]; omega

/-- The second slab at point `t`: rows `400 t + 200 + p` of the support. -/
theorem iblk1_at (t : Fin cfg2.N) (p : Fin 200) (n : Fin 10000) (r : Fin 10000)
    (hr : r.val = 400 * t.val + 200 + p.val) :
    (Hand.iblk2 m c 1 t : Vec Ideal S200x10000 .f32) (ix2 p n)
      = (Hand.E3 m c main_arg1 : S10000x10000.Idx → EReal) (ix2 r n) := by
  obtain ⟨-, -, e0, e1, -⟩ := idx_facts t
  unfold Hand.iblk2
  rw [View.read_apply]
  show Hand.E3 m c main_arg1 _ = Hand.E3 m c main_arg1 _
  refine congrArg (Hand.E3 m c main_arg1) (funext fun a => Fin.ext ?_)
  match a with
  | ⟨0, _⟩ => show win2_1.index t (0 : Fin 2) * 200 + 1 * p.val = r.val; rw [e0, hr]; omega
  | ⟨1, _⟩ => show win2_1.index t (1 : Fin 2) * 10000 + 1 * n.val = n.val; rw [e1]; omega

/-- The projected features of the second layer are read whole at every point. -/
theorem iblk2_at (t : Fin cfg2.N) (n : Fin 10000) (k : Fin 128) :
    (Hand.iblk2 m c 2 t : Vec Ideal S10000x128 .bf16) (ix2 n k)
      = (Hand.E3 m c main_v6_0 : S10000x128.Idx → EReal) (ix2 n k) := by
  obtain ⟨-, -, -, -, e0, e1, -⟩ := idx_facts t
  unfold Hand.iblk2
  rw [View.read_apply]
  show Hand.E3 m c main_v6_0 _ = Hand.E3 m c main_v6_0 _
  refine congrArg (Hand.E3 m c main_v6_0) (funext fun a => Fin.ext ?_)
  match a with
  | ⟨0, _⟩ => show win2_2.index t (0 : Fin 2) * 10000 + 1 * n.val = n.val; rw [e0]; omega
  | ⟨1, _⟩ => show win2_2.index t (1 : Fin 2) * 128 + 1 * k.val = k.val; rw [e1]; omega

/-- The second bias row is read whole at every point. -/
theorem iblk3_at (t : Fin cfg2.N) (k : Fin 128) :
    (Hand.iblk2 m c 3 t : Vec Ideal S1x128 .f32) (ix2 (0 : Fin 1) k)
      = (Hand.E3 m c main_v1 : S1x128.Idx → EReal) (ix2 (0 : Fin 1) k) := by
  obtain ⟨-, -, -, -, -, -, e0, e1, -⟩ := idx_facts t
  unfold Hand.iblk2
  rw [View.read_apply]
  show Hand.E3 m c main_v1 _ = Hand.E3 m c main_v1 _
  refine congrArg (Hand.E3 m c main_v1) (funext fun a => Fin.ext ?_)
  match a with
  | ⟨0, _⟩ => show win2_3.index t (0 : Fin 2) * 1 + 1 * 0 = 0; rw [e0]
  | ⟨1, _⟩ => show win2_3.index t (1 : Fin 2) * 128 + 1 * k.val = k.val; rw [e1]; omega

/-- The lower half of the read-out's weights is read whole at every point. -/
theorem iblk4_at (t : Fin cfg2.N) (k j : Fin 128) :
    (Hand.iblk2 m c 4 t : Vec Ideal S128x128 .f32) (ix2 k j)
      = (Hand.E3 m c main_v4 : S128x128.Idx → EReal) (ix2 k j) := by
  obtain ⟨-, -, -, -, -, -, -, -, e0, e1, -⟩ := idx_facts t
  unfold Hand.iblk2
  rw [View.read_apply]
  show Hand.E3 m c main_v4 _ = Hand.E3 m c main_v4 _
  refine congrArg (Hand.E3 m c main_v4) (funext fun a => Fin.ext ?_)
  match a with
  | ⟨0, _⟩ => show win2_4.index t (0 : Fin 2) * 128 + 1 * k.val = k.val; rw [e0]; omega
  | ⟨1, _⟩ => show win2_4.index t (1 : Fin 2) * 128 + 1 * j.val = j.val; rw [e1]; omega

/-- The partial output's block at point `t`: rows `400 t + q` of its array. -/
theorem iblk5_at (t : Fin cfg2.N) (q : Fin 400) (j : Fin 128) (r : Fin 10000) (hr : r.val = 400 * t.val + q.val) :
    (Hand.iblk2 m c 5 t : Vec Ideal S400x128 .f32) (ix2 q j)
      = (Hand.E3 m c main_v6_1 : S10000x128.Idx → EReal) (ix2 r j) := by
  obtain ⟨-, -, -, -, -, -, -, -, -, -, e0, e1, -⟩ := idx_facts t
  unfold Hand.iblk2
  rw [View.read_apply]
  show Hand.E3 m c main_v6_1 _ = Hand.E3 m c main_v6_1 _
  refine congrArg (Hand.E3 m c main_v6_1) (funext fun a => Fin.ext ?_)
  match a with
  | ⟨0, _⟩ => show win2_5.index t (0 : Fin 2) * 400 + 1 * q.val = r.val; rw [e0, hr]; omega
  | ⟨1, _⟩ => show win2_5.index t (1 : Fin 2) * 128 + 1 * j.val = j.val; rw [e1]; omega

/-- Row `q` of the result's block at point `t` is row `400 t + q` of the result. -/
theorem emb6_at (t : Fin cfg2.N) (q : Fin 400) (j : Fin 128) (r : Fin 10000) (hr : r.val = 400 * t.val + q.val) :
    (((cfg2.win 6).blk t).view.emb (ix2 q j) : S10000x128.Idx) = ix2 r j := by
  obtain ⟨-, -, -, -, -, -, -, -, -, -, -, -, e0, e1⟩ := idx_facts t
  funext a; apply Fin.ext
  match a with
  | ⟨0, _⟩ => show win2_6.index t (0 : Fin 2) * 400 + 1 * q.val = r.val; rw [e0, hr]; omega
  | ⟨1, _⟩ => show win2_6.index t (1 : Fin 2) * 128 + 1 * j.val = j.val; rw [e1]; omega

end Reads

/-! ## The output block is the block of the specification's result -/

section BlockSpec

variable (x : Cert.Spec.Mat 10000 128) (A : Cert.Spec.Mat 10000 10000) (W0 : Cert.Spec.Mat 128 128)
  (b0 : Cert.Spec.Vc 128) (W1 : Cert.Spec.Mat 128 128) (b1 : Cert.Spec.Vc 128) (Wp : Cert.Spec.Mat 256 128)
  (bp : Cert.Spec.Vc 128)

variable (s0 s1 : Vec Ideal S200x10000 .f32) (g : Vec Ideal S10000x128 .bf16) (b : Vec Ideal S1x128 .f32)
  (wb : Vec Ideal S128x128 .f32) (pb : Vec Ideal S400x128 .f32)

/-- A slab's share of the read-out is the second layer's at row `r`, when the slab's row `p` is row `r` of the
    support, the resident block the projected features `g1`, the bias row `b1` and the weights the read-out's
    lower half. -/
theorem share_eq (s : Vec Ideal S200x10000 .f32) (p : Fin 200) (r : Fin 10000) (j : Fin 128)
    (hs : ∀ n : Fin 10000, (s (ix2 p n) : EReal) = A (ix2 r n))
    (hg : ∀ (n : Fin 10000) (k : Fin 128), (g (ix2 n k) : EReal) = Cert.Spec.g1 x A W0 b0 W1 n k)
    (hb : ∀ k : Fin 128, (b (ix2 (0 : Fin 1) k) : EReal) = b1 (ix1 k))
    (hw : ∀ k j : Fin 128, (wb (ix2 k j) : EReal) = Wp (ix2 (Cert.Spec.bot k) j)) :
    (∑ k : Fin 128, (max ((∑ n : Fin 10000, s (ix2 p n) * g (ix2 n k)) + b (ix2 0 k)) Cert.Spec.z) * wb (ix2 k j))
      = ∑ k : Fin 128, Cert.Spec.h1 x A W0 b0 W1 b1 r k * Wp (ix2 (Cert.Spec.bot k) j) := by
  refine Finset.sum_congr rfl fun k _ => ?_
  unfold Cert.Spec.h1
  refine congrArg₂ (fun u v : EReal => u * v)
    (congrArg₂ (fun u v : EReal => max u v)
      (congrArg₂ (fun u v : EReal => u + v) (Finset.sum_congr rfl fun n _ => ?_) (hb k)) rfl) (hw k j)
  exact congrArg₂ (fun u v : EReal => u * v) (hs n) (hg n k)

/-- The output block at row `q`, when that row is row `r` of the arrays: the specification's result at `r`. -/
theorem block_eq (q : Fin 400) (r : Fin 10000) (j : Fin 128)
    (hs0 : ∀ p : Fin 200, q.val = p.val → ∀ n : Fin 10000, (s0 (ix2 p n) : EReal) = A (ix2 r n))
    (hs1 : ∀ p : Fin 200, q.val = 200 + p.val → ∀ n : Fin 10000, (s1 (ix2 p n) : EReal) = A (ix2 r n))
    (hg : ∀ (n : Fin 10000) (k : Fin 128), (g (ix2 n k) : EReal) = Cert.Spec.g1 x A W0 b0 W1 n k)
    (hb : ∀ k : Fin 128, (b (ix2 (0 : Fin 1) k) : EReal) = b1 (ix1 k))
    (hw : ∀ k j : Fin 128, (wb (ix2 k j) : EReal) = Wp (ix2 (Cert.Spec.bot k) j))
    (hp : (pb (ix2 q j) : EReal) = Cert.Spec.p x A W0 b0 Wp bp r j) :
    (Hand.blk2_6 (F := Ideal) s0 s1 g b wb pb (ix2 q j) : EReal) = Cert.Spec.out x A W0 b0 W1 b1 Wp bp r j := by
  by_cases h : q.val < 200
  · obtain ⟨p, rfl⟩ : ∃ p : Fin 200, q = up p := ⟨⟨q.val, h⟩, Fin.ext rfl⟩
    refine (blk_up s0 s1 g b wb pb p j).trans ?_
    unfold Cert.Spec.out
    exact congrArg₂ (fun u v : EReal => u + v) hp
      (share_eq x A W0 b0 W1 b1 Wp g b wb s0 p r j (hs0 p rfl) hg hb hw)
  · have hq := q.isLt
    obtain ⟨p, rfl⟩ : ∃ p : Fin 200, q = lo p :=
      ⟨⟨q.val - 200, by omega⟩, Fin.ext (by show q.val = 200 + (q.val - 200); omega)⟩
    refine (blk_lo s0 s1 g b wb pb p j).trans ?_
    unfold Cert.Spec.out
    exact congrArg₂ (fun u v : EReal => u + v) hp
      (share_eq x A W0 b0 W1 b1 Wp g b wb s1 p r j (hs1 p rfl) hg hb hw)

end BlockSpec

/-! ## Region 2 as a whole array -/

section Whole

variable (m : (ℓ : Loc nD τ sig) → Buf (Elt Ideal) ℓ) (c : Dev nD)

variable (x : Cert.Spec.Mat 10000 128) (A : Cert.Spec.Mat 10000 10000) (W0 : Cert.Spec.Mat 128 128)
  (b0 : Cert.Spec.Vc 128) (W1 : Cert.Spec.Mat 128 128) (b1 : Cert.Spec.Vc 128) (Wp : Cert.Spec.Mat 256 128)
  (bp : Cert.Spec.Vc 128)

theorem N2 : cfg2.N = 25 := rfl

/-- What point `t`'s body leaves at row `q` of the result's block: the specification's result at row `400 t + q`. -/
theorem point_eq
    (hA : ∀ (r n : Fin 10000), (Hand.E3 m c main_arg1 : S10000x10000.Idx → EReal) (ix2 r n) = A (ix2 r n))
    (hg : ∀ (n : Fin 10000) (k : Fin 128),
      (Hand.E3 m c main_v6_0 : S10000x128.Idx → EReal) (ix2 n k) = Cert.Spec.g1 x A W0 b0 W1 n k)
    (hb : ∀ k : Fin 128, (Hand.E3 m c main_v1 : S1x128.Idx → EReal) (ix2 (0 : Fin 1) k) = b1 (ix1 k))
    (hw : ∀ k j : Fin 128, (Hand.E3 m c main_v4 : S128x128.Idx → EReal) (ix2 k j) = Wp (ix2 (Cert.Spec.bot k) j))
    (hp : ∀ (r : Fin 10000) (j : Fin 128),
      (Hand.E3 m c main_v6_1 : S10000x128.Idx → EReal) (ix2 r j) = Cert.Spec.p x A W0 b0 Wp bp r j)
    (t : Fin cfg2.N) (q : Fin 400) (j : Fin 128) (r : Fin 10000) (hr : r.val = 400 * t.val + q.val) :
    (Hand.blk2_6 (F := Ideal) (Hand.iblk2 m c 0 t) (Hand.iblk2 m c 1 t) (Hand.iblk2 m c 2 t) (Hand.iblk2 m c 3 t)
        (Hand.iblk2 m c 4 t) (Hand.iblk2 m c 5 t) (ix2 q j) : EReal)
      = Cert.Spec.out x A W0 b0 W1 b1 Wp bp r j :=
  block_eq x A W0 b0 W1 b1 Wp bp (Hand.iblk2 m c 0 t) (Hand.iblk2 m c 1 t) (Hand.iblk2 m c 2 t) (Hand.iblk2 m c 3 t)
    (Hand.iblk2 m c 4 t) (Hand.iblk2 m c 5 t) q r j
    (fun p hq n => (iblk0_at m c t p n r (by omega)).trans (hA r n))
    (fun p hq n => (iblk1_at m c t p n r (by omega)).trans (hA r n))
    (fun n k => (iblk2_at m c t n k).trans (hg n k))
    (fun k => (iblk3_at m c t k).trans (hb k))
    (fun k j => (iblk4_at m c t k j).trans (hw k j))
    ((iblk5_at m c t q j r hr).trans (hp r j))

/-- What point `t` writes back is its block of the specification's result. -/
theorem flushed2_eq
    (hA : ∀ (r n : Fin 10000), (Hand.E3 m c main_arg1 : S10000x10000.Idx → EReal) (ix2 r n) = A (ix2 r n))
    (hg : ∀ (n : Fin 10000) (k : Fin 128),
      (Hand.E3 m c main_v6_0 : S10000x128.Idx → EReal) (ix2 n k) = Cert.Spec.g1 x A W0 b0 W1 n k)
    (hb : ∀ k : Fin 128, (Hand.E3 m c main_v1 : S1x128.Idx → EReal) (ix2 (0 : Fin 1) k) = b1 (ix1 k))
    (hw : ∀ k j : Fin 128, (Hand.E3 m c main_v4 : S128x128.Idx → EReal) (ix2 k j) = Wp (ix2 (Cert.Spec.bot k) j))
    (hp : ∀ (r : Fin 10000) (j : Fin 128),
      (Hand.E3 m c main_v6_1 : S10000x128.Idx → EReal) (ix2 r j) = Cert.Spec.p x A W0 b0 Wp bp r j)
    (t : Fin cfg2.N) :
    (Hand.dats2 m c).flushed 6 t
      = ((cfg2.win 6).blk t).view.read (Elt Ideal) (Cert.Spec.G x A W0 b0 W1 b1 Wp bp) := by
  show (cfg2.win 6).cut (grid2.coords t) ((Hand.dats2 m c).after 6 t) = _
  dsimp only [Hand.dats2]
  funext y
  obtain ⟨q, j, rfl⟩ : ∃ (q : Fin 400) (j : Fin 128), y = ix2 q j := ⟨y 0, y 1, eq_ix2 y⟩
  have hq := q.isLt
  have ht : t.val < 25 := N2 ▸ t.isLt
  obtain ⟨r, hr⟩ : ∃ r : Fin 10000, r.val = 400 * t.val + q.val := ⟨⟨400 * t.val + q.val, by omega⟩, rfl⟩
  refine (point_eq m c x A W0 b0 W1 b1 Wp bp hA hg hb hw hp t q j r hr).trans ?_
  show _ = Cert.Spec.G x A W0 b0 W1 b1 Wp bp (((cfg2.win 6).blk t).view.emb (ix2 q j))
  rw [emb6_at t q j r hr]
  rfl

/-- An index of the array is in the point's block iff each coordinate is in the block's range on its axis. -/
theorem mem_blk2 (t : Fin cfg2.N) (i : S10000x128.Idx) :
    i ∈ ((cfg2.win 6).blk t).view.set ↔ ∀ a : Fin 2, win2_6.index t a * S400x128.size a ≤ (i a).val
      ∧ (i a).val < win2_6.index t a * S400x128.size a + S400x128.size a := by
  show i ∈ ((View.whole main_v7).slice (win2_6.rect t)).set ↔ _
  rw [View.set_slice_whole, Rect.mem_set_unit]
  exact Iff.rfl

/-- Row `r` of the result is in the block of point `r / 400`. -/
theorem cover2 (i : S10000x128.Idx) :
    ∃ t : Fin cfg2.N, (cfg2.win 6).flush t = true ∧ i ∈ ((cfg2.win 6).blk t).view.set := by
  have h0 : (i 0).val < 10000 := idx2_lt0 i
  have h1 : (i 1).val < 128 := idx2_lt1 i
  obtain ⟨t, htv⟩ : ∃ t : Fin cfg2.N, t.val = (i 0).val / 400 :=
    ⟨⟨(i 0).val / 400, by rw [N2]; omega⟩, rfl⟩
  obtain ⟨-, -, -, -, -, -, -, -, -, -, -, -, e0, e1⟩ := idx_facts t
  refine ⟨t, flush2_6 t, ?_⟩
  rw [mem_blk2]
  intro a
  match a with
  | ⟨0, _⟩ =>
    show win2_6.index t (0 : Fin 2) * 400 ≤ (i 0).val ∧ (i 0).val < win2_6.index t (0 : Fin 2) * 400 + 400
    rw [e0, htv]; omega
  | ⟨1, _⟩ =>
    show win2_6.index t (1 : Fin 2) * 128 ≤ (i 1).val ∧ (i 1).val < win2_6.index t (1 : Fin 2) * 128 + 128
    rw [e1]; omega

/-- REGION 2 leaves the specification's result in its output array, when it finds the support, the second
    layer's projected features, its bias row, the read-out's lower half and the partial output in its inputs. -/
theorem out7_eq
    (hA : ∀ (r n : Fin 10000), (Hand.E3 m c main_arg1 : S10000x10000.Idx → EReal) (ix2 r n) = A (ix2 r n))
    (hg : ∀ (n : Fin 10000) (k : Fin 128),
      (Hand.E3 m c main_v6_0 : S10000x128.Idx → EReal) (ix2 n k) = Cert.Spec.g1 x A W0 b0 W1 n k)
    (hb : ∀ k : Fin 128, (Hand.E3 m c main_v1 : S1x128.Idx → EReal) (ix2 (0 : Fin 1) k) = b1 (ix1 k))
    (hw : ∀ k j : Fin 128, (Hand.E3 m c main_v4 : S128x128.Idx → EReal) (ix2 k j) = Wp (ix2 (Cert.Spec.bot k) j))
    (hp : ∀ (r : Fin 10000) (j : Fin 128),
      (Hand.E3 m c main_v6_1 : S10000x128.Idx → EReal) (ix2 r j) = Cert.Spec.p x A W0 b0 Wp bp r j) :
    Hand.out7 m c = Cert.Spec.G x A W0 b0 W1 b1 Wp bp :=
  (Hand.dats2 m c).arrAt_eq_of_cover 6 _
    (fun t _ => flushed2_eq m c x A W0 b0 W1 b1 Wp bp hA hg hb hw hp t) cover2

end Whole

end Cert.KernelIdeal.HandValue2

end
-- ==== Proof.KiValue.lean ====
/-
  The kernel's result as a whole array, over the extended reals.

  Region 2 finds in its inputs: the support as launched (no region and no host operation writes it); the second
  layer's projected rows g1 = h0 · W1 and the first layer's share p = h0 · Wp[0:128] + bp where region 1 left
  them; the second bias as a row and the read-out's lower half where the host wrote them before the first
  region.  So what region 2 leaves in the result's array is, index by index, the specification's array of the
  argument arrays.
-/
import proofs.«104506_g65979287601806_cont_sun_c4_486_7_alg».proof.Proof.KiEntry
import proofs.«104506_g65979287601806_cont_sun_c4_486_7_alg».proof.Proof.KiValue1
import proofs.«104506_g65979287601806_cont_sun_c4_486_7_alg».proof.Proof.KiValue2

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- THE KERNEL'S RESULT: the specification's array of the arguments as launched. -/
theorem out7_G :
    Hand.out7 m c
      = Cert.Spec.G (aX m c) (aA m c) (aW0 m c) (ab0 m c) (aW1 m c) (ab1 m c) (aWp m c) (abp m c) :=
  Cert.KernelIdeal.HandValue2.out7_eq m c (aX m c) (aA m c) (aW0 m c) (ab0 m c) (aW1 m c) (ab1 m c) (aWp m c) (abp m c)
    (fun r n => by
      rw [E3_other m c main_arg1 (by decide) (by decide), E2_other m c main_arg1 (by decide), V1_arg1])
    (fun n k => by rw [E3_at_v60, Cert.KernelIdeal.HandValue1.out60_eq])
    (fun k => by
      rw [E3_other m c main_v1 (by decide) (by decide), E2_other m c main_v1 (by decide)]; exact V1_v1 m c k)
    (fun k j => by
      rw [E3_other m c main_v4 (by decide) (by decide), E2_other m c main_v4 (by decide)]; exact V1_v4 m c k j)
    (fun r j => by rw [E3_at_v61, Cert.KernelIdeal.HandValue1.out61_eq])

end Cert.KernelIdeal.HandValue

end
-- ==== Proof.SpecCat.lean ====
/-
  The plain formula's arrangement of the read-out, and its agreement with the row-blocked one.

  The plain formula multiplies the concatenation `[h0, h1]` (256 columns) with the whole read-out matrix and
  then adds the bias:

    outCat r j = (∑ k < 256, cat r k · Wp k j) + bp j,   cat r k = h0 r k for k < 128, h1 r (k - 128) otherwise.

  A sum over 256 columns is the sum over the first 128 plus the sum over the last 128, and in the additive
  commutative monoid of the extended reals `(S₀ + S₁) + c = (S₀ + c) + S₁`.  No finiteness is used.
-/
import proofs.«104506_g65979287601806_cont_sun_c4_486_7_alg».proof.Proof.Spec

noncomputable section

namespace Cert.Spec

open Idealize.ShloMosaic Idealize.ShloMosaic.ValueIdx

variable (x : Mat 10000 128) (A : Mat 10000 10000) (W0 : Mat 128 128) (b0 : Vc 128)
  (W1 : Mat 128 128) (b1 : Vc 128) (Wp : Mat 256 128) (bp : Vc 128)

/-- Column `k` of the concatenation `[h0, h1]` of row `r`: the first layer's row below column 128, the
    second layer's from column 128 on, 128 less. -/
def cat (r : Fin 10000) (k : Fin 256) : EReal :=
  if h : k.val < 128 then h0 x A W0 b0 r ⟨k.val, h⟩
  else h1 x A W0 b0 W1 b1 r ⟨k.val - 128, by have := k.isLt; omega⟩

/-- The result at `(r, j)` in the plain formula's arrangement: one product over 256 columns, then the bias. -/
def outCat (r : Fin 10000) (j : Fin 128) : EReal :=
  (∑ k : Fin 256, cat x A W0 b0 W1 b1 r k * Wp (ix2 k j)) + bp (ix1 j)

/-- A column of the upper half reads the first layer. -/
theorem cat_top (r : Fin 10000) (k : Fin 128) : cat x A W0 b0 W1 b1 r (top k) = h0 x A W0 b0 r k := by
  unfold cat
  rw [dif_pos (show (top k).val < 128 from k.isLt)]
  rfl

/-- A column of the lower half reads the second layer. -/
theorem cat_bot (r : Fin 10000) (k : Fin 128) : cat x A W0 b0 W1 b1 r (bot k) = h1 x A W0 b0 W1 b1 r k := by
  unfold cat
  rw [dif_neg (show ¬ (bot k).val < 128 from by show ¬ (128 + k.val < 128); omega)]
  exact congrArg (h1 x A W0 b0 W1 b1 r) (Fin.ext (by show 128 + k.val - 128 = k.val; omega))

/-- A sum over 256 columns is the sum over the first 128 plus the sum over the last 128. -/
theorem sum_halves (f : Fin 256 → EReal) :
    ∑ k : Fin 256, f k = (∑ k : Fin 128, f (top k)) + ∑ k : Fin 128, f (bot k) :=
  Fin.sum_univ_add (M := EReal) (a := 128) (b := 128) f

/-- The two arrangements agree: `(S₀ + S₁) + c = (S₀ + c) + S₁`. -/
theorem outCat_eq (r : Fin 10000) (j : Fin 128) :
    outCat x A W0 b0 W1 b1 Wp bp r j = out x A W0 b0 W1 b1 Wp bp r j := by
  unfold outCat out p
  rw [sum_halves]
  simp only [cat_top, cat_bot]
  exact add_right_comm _ _ _

end Cert.Spec

end
-- ==== Proof.RefValue.lean ====
/-
  The reference program computes the specification.

  The reference's run ends with its result at the composed term of its operations over the arguments.  Read
  at an index `(r, j)`, outermost operation first, that term is: the sum of a product over 256 columns and a
  broadcast bias; the product's left operand at `(r, k)` is the concatenation of the two layers, which reads
  the first layer at `(r, k)` for `k < 128` and the second at `(r, k - 128)` otherwise; each layer is the
  maximum of (support · projected features + broadcast bias) with a broadcast zero word; each projection is a
  sum over 128 columns.  That is the plain formula's arrangement `outCat`, which equals the row-blocked
  arrangement `out` of the specification (SpecCat).
-/
import proofs.«104506_g65979287601806_cont_sun_c4_486_7_alg».proof.Proof.Gen.ReferenceIdeal.Read
import proofs.«104506_g65979287601806_cont_sun_c4_486_7_alg».proof.Proof.SpecCat
import proofs.«104506_g65979287601806_cont_sun_c4_486_7_alg».proof.Defs
import proofs.«104506_g65979287601806_cont_sun_c4_486_7_alg».proof.Proof.Gen.Pre_finite_inputs

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

variable (x : FVec Ideal S10000x128 .f32) (A : FVec Ideal S10000x10000 .f32) (W0 : FVec Ideal S128x128 .f32)
  (b0 : FVec Ideal S128 .f32) (W1 : FVec Ideal S128x128 .f32) (b1 : FVec Ideal S128 .f32)
  (Wp : FVec Ideal S256x128 .f32) (bp : FVec Ideal S128 .f32)

/-! ## The operand indices of the products and broadcasts, by coordinates -/

theorem lidx0 (n : Fin 10000) (j k : Fin 128) : lidx_main_v0 (ix2 n j) k = ix2 n k := by
  funext a; match a with | ⟨0, _⟩ => rfl | ⟨1, _⟩ => rfl
theorem ridx0 (n : Fin 10000) (j k : Fin 128) : ridx_main_v0 (ix2 n j) k = ix2 k j := by
  funext a; match a with | ⟨0, _⟩ => rfl | ⟨1, _⟩ => rfl
theorem lidx1 (r : Fin 10000) (j : Fin 128) (n : Fin 10000) : lidx_main_v1 (ix2 r j) n = ix2 r n := by
  funext a; match a with | ⟨0, _⟩ => rfl | ⟨1, _⟩ => rfl
theorem ridx1 (r : Fin 10000) (j : Fin 128) (n : Fin 10000) : ridx_main_v1 (ix2 r j) n = ix2 n j := by
  funext a; match a with | ⟨0, _⟩ => rfl | ⟨1, _⟩ => rfl
theorem bidx (r : Fin 10000) (j : Fin 128) : idx_main_v2 (idx_main_v3 (ix2 r j)) = ix1 j := by
  funext a; match a with | ⟨0, _⟩ => rfl

/-- The projected features at `(n, j)`. -/
theorem v0_at (n : Fin 10000) (j : Fin 128) : val_main_v0 (F := Ideal) x W0 (ix2 n j) = Cert.Spec.g0 x W0 n j := by
  rw [val_main_v0_apply]
  unfold Cert.Spec.g0
  refine Finset.sum_congr rfl fun k _ => ?_
  rw [lidx0, ridx0]

/-- The support's product with the projected features at `(r, j)`. -/
theorem v1_at (r : Fin 10000) (j : Fin 128) :
    val_main_v1 (F := Ideal) x A W0 (ix2 r j) = ∑ n : Fin 10000, A (ix2 r n) * Cert.Spec.g0 x W0 n j := by
  rw [val_main_v1_apply]
  refine Finset.sum_congr rfl fun n _ => ?_
  rw [lidx1, ridx1, v0_at]

/-- The first bias, broadcast over the rows, at `(r, j)`. -/
theorem v3_at (r : Fin 10000) (j : Fin 128) : val_main_v3 (F := Ideal) b0 (ix2 r j) = b0 (ix1 j) := by
  rw [val_main_v3_apply, val_main_v2_apply, bidx]

/-- The rectifier's zero, broadcast, at any index. -/
theorem zero0_at (i : S10000x128.Idx) : val_main_call0_v0 (F := Ideal) i = Cert.Spec.z := by
  rw [val_main_call0_v0_apply]; rfl

/-- The first layer at `(r, j)`. -/
theorem v5_at (r : Fin 10000) (j : Fin 128) :
    val_main_v5 (F := Ideal) x A W0 b0 (ix2 r j) = Cert.Spec.h0 x A W0 b0 r j := by
  rw [val_main_v5_apply, val_main_v4_apply, v1_at, v3_at, zero0_at]
  rfl

theorem lidx6 (n : Fin 10000) (j k : Fin 128) : lidx_main_v6 (ix2 n j) k = ix2 n k := by
  funext a; match a with | ⟨0, _⟩ => rfl | ⟨1, _⟩ => rfl
theorem ridx6 (n : Fin 10000) (j k : Fin 128) : ridx_main_v6 (ix2 n j) k = ix2 k j := by
  funext a; match a with | ⟨0, _⟩ => rfl | ⟨1, _⟩ => rfl
theorem lidx7 (r : Fin 10000) (j : Fin 128) (n : Fin 10000) : lidx_main_v7 (ix2 r j) n = ix2 r n := by
  funext a; match a with | ⟨0, _⟩ => rfl | ⟨1, _⟩ => rfl
theorem ridx7 (r : Fin 10000) (j : Fin 128) (n : Fin 10000) : ridx_main_v7 (ix2 r j) n = ix2 n j := by
  funext a; match a with | ⟨0, _⟩ => rfl | ⟨1, _⟩ => rfl
theorem bidx' (r : Fin 10000) (j : Fin 128) : idx_main_v8 (idx_main_v9 (ix2 r j)) = ix1 j := by
  funext a; match a with | ⟨0, _⟩ => rfl
theorem bidx'' (r : Fin 10000) (j : Fin 128) : idx_main_v14 (idx_main_v15 (ix2 r j)) = ix1 j := by
  funext a; match a with | ⟨0, _⟩ => rfl
theorem lidx13 (r : Fin 10000) (j : Fin 128) (k : Fin 256) : lidx_main_v13 (ix2 r j) k = ix2 r k := by
  funext a; match a with | ⟨0, _⟩ => rfl | ⟨1, _⟩ => rfl
theorem ridx13 (r : Fin 10000) (j : Fin 128) (k : Fin 256) : ridx_main_v13 (ix2 r j) k = ix2 k j := by
  funext a; match a with | ⟨0, _⟩ => rfl | ⟨1, _⟩ => rfl

/-- The first layer projected for the second, at `(n, j)`. -/
theorem v6_at (n : Fin 10000) (j : Fin 128) :
    val_main_v6 (F := Ideal) x A W0 b0 W1 (ix2 n j) = Cert.Spec.g1 x A W0 b0 W1 n j := by
  rw [val_main_v6_apply]
  unfold Cert.Spec.g1
  refine Finset.sum_congr rfl fun k _ => ?_
  rw [lidx6, ridx6, v5_at]

/-- The support's product with it, at `(r, j)`. -/
theorem v7_at (r : Fin 10000) (j : Fin 128) :
    val_main_v7 (F := Ideal) x A W0 b0 W1 (ix2 r j) = ∑ n : Fin 10000, A (ix2 r n) * Cert.Spec.g1 x A W0 b0 W1 n j := by
  rw [val_main_v7_apply]
  refine Finset.sum_congr rfl fun n _ => ?_
  rw [lidx7, ridx7, v6_at]

/-- The second bias, broadcast over the rows, at `(r, j)`. -/
theorem v9_at (r : Fin 10000) (j : Fin 128) : val_main_v9 (F := Ideal) b1 (ix2 r j) = b1 (ix1 j) := by
  rw [val_main_v9_apply, val_main_v8_apply, bidx']

theorem zero1_at (i : S10000x128.Idx) : val_main_call1_v0 (F := Ideal) i = Cert.Spec.z := by
  rw [val_main_call1_v0_apply]; rfl

/-- The second layer at `(r, j)`. -/
theorem v11_at (r : Fin 10000) (j : Fin 128) :
    val_main_v11 (F := Ideal) x A W0 b0 W1 b1 (ix2 r j) = Cert.Spec.h1 x A W0 b0 W1 b1 r j := by
  rw [val_main_v11_apply, val_main_v10_apply, v7_at, v9_at, zero1_at]
  rfl

/-- The concatenation `[h0, h1]` at `(r, k)`: a column below 128 reads the first layer, one from 128 on the
    second layer, 128 less. -/
theorem v12_at (r : Fin 10000) (k : Fin 256) :
    val_main_v12 (F := Ideal) x A W0 b0 W1 b1 (ix2 r k) = Cert.Spec.cat x A W0 b0 W1 b1 r k := by
  unfold val_main_v12 Cert.Spec.cat
  by_cases h : k.val < 128
  · rw [dif_pos h, ← v5_at]
    exact concatenate_pair_apply_left (t := S10000x256) (s₁ := S10000x128) (s₂ := S10000x128) 1 _ _ _ (ix2 r k) rfl (ix2 r (⟨k.val, h⟩ : Fin 128)) (fun b => by
      match b with
      | ⟨0, _⟩ => rfl
      | ⟨1, _⟩ => rfl)
  · rw [dif_neg h, ← v11_at]
    exact concatenate_pair_apply_right (t := S10000x256) (s₁ := S10000x128) (s₂ := S10000x128) 1 _ _ _ (ix2 r k) rfl rfl
      (ix2 r (⟨k.val - 128, by have := k.isLt; omega⟩ : Fin 128))
      (fun b hb => by
        match b with
        | ⟨0, _⟩ => rfl
        | ⟨1, _⟩ => exact absurd rfl hb)
      (by show k.val - 128 + 128 = k.val; omega)

/-- The read-out's product at `(r, j)`. -/
theorem v13_at (r : Fin 10000) (j : Fin 128) :
    val_main_v13 (F := Ideal) x A W0 b0 W1 b1 Wp (ix2 r j)
      = ∑ k : Fin 256, Cert.Spec.cat x A W0 b0 W1 b1 r k * Wp (ix2 k j) := by
  rw [val_main_v13_apply]
  refine Finset.sum_congr rfl fun k _ => ?_
  rw [lidx13, ridx13, v12_at]

/-- The read-out's bias, broadcast over the rows, at `(r, j)`. -/
theorem v15_at (r : Fin 10000) (j : Fin 128) : val_main_v15 (F := Ideal) bp (ix2 r j) = bp (ix1 j) := by
  rw [val_main_v15_apply, val_main_v14_apply, bidx'']

/-- The reference's result at `(r, j)` is the plain formula's arrangement. -/
theorem v16_at (r : Fin 10000) (j : Fin 128) :
    val_main_v16 (F := Ideal) x A W0 b0 W1 b1 Wp bp (ix2 r j) = Cert.Spec.outCat x A W0 b0 W1 b1 Wp bp r j := by
  rw [val_main_v16_apply, v13_at, v15_at]
  rfl

/-- The reference's result array is the specification's. -/
theorem result_eq :
    val_main_v16 (F := Ideal) x A W0 b0 W1 b1 Wp bp = Cert.Spec.G x A W0 b0 W1 b1 Wp bp := by
  funext i
  obtain ⟨r, j, rfl⟩ : ∃ (r : Fin 10000) (j : Fin 128), i = ix2 r j := ⟨i 0, i 1, eq_ix2 i⟩
  rw [v16_at, Cert.Spec.outCat_eq]
  rfl

/-! ## The two statements about the reference's run -/

/-- Every weakly fair execution of the reference terminates with its result the specification's array of the
    arguments, the arguments unchanged. -/
theorem run_G (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v16) = Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono
    (fun _ h c => ⟨(h c).1.trans ((val_main_v16_eq _ _ _ _ _ _ _ _).trans (result_eq _ _ _ _ _ _ _ _)), (h c).2⟩)
    (Cert.ReferenceIdeal.Value.run (F := Ideal) m' g')

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate's claim, assembled.

  Both programs compute, over the extended reals, the same array of their arguments: a two-layer graph
  convolution with a concatenating read-out (module Spec).  The kernel computes it row-block by row-block, the
  read-out split into the first layer's share (with the bias) plus the second layer's share; the reference
  multiplies the concatenation [h0, h1] by the whole read-out matrix and then adds the bias.  The two agree
  because a sum over the 256 concatenated columns is the sum over the first 128 plus the sum over the last 128,
  and addition of extended reals is commutative and associative: no finiteness is used.

  The three frames: the kernel's program at either float instance runs as five host operations followed by three
  kernel regions, each region's pipeline handing every block to a body that writes only its output windows
  (modules KbRun at the word level, KiRun over the extended reals); the reference is straight-line host code.
  The idealization rewrote no operation of the kernel, so there is nothing to preserve.
-/
import proofs.«104506_g65979287601806_cont_sun_c4_486_7_alg».proof.Defs
import proofs.«104506_g65979287601806_cont_sun_c4_486_7_alg».proof.Proof.Gen.Kernel
import proofs.«104506_g65979287601806_cont_sun_c4_486_7_alg».proof.Proof.Gen.Kernel.Skeleton
import proofs.«104506_g65979287601806_cont_sun_c4_486_7_alg».proof.Proof.Gen.Kernel.Launch
import proofs.«104506_g65979287601806_cont_sun_c4_486_7_alg».proof.Proof.Gen.Kernel.Regions
import proofs.«104506_g65979287601806_cont_sun_c4_486_7_alg».proof.Proof.Gen.Kernel.Points
import proofs.«104506_g65979287601806_cont_sun_c4_486_7_alg».proof.Proof.Gen.KernelIdeal
import proofs.«104506_g65979287601806_cont_sun_c4_486_7_alg».proof.Proof.Gen.KernelIdeal.Skeleton
import proofs.«104506_g65979287601806_cont_sun_c4_486_7_alg».proof.Proof.Gen.KernelIdeal.Launch
import proofs.«104506_g65979287601806_cont_sun_c4_486_7_alg».proof.Proof.Gen.KernelIdeal.Regions
import proofs.«104506_g65979287601806_cont_sun_c4_486_7_alg».proof.Proof.Gen.KernelIdeal.Points
import proofs.«104506_g65979287601806_cont_sun_c4_486_7_alg».proof.Proof.Gen.ReferenceIdeal
import proofs.«104506_g65979287601806_cont_sun_c4_486_7_alg».proof.Proof.Gen.Pre_finite_inputs
import proofs.«104506_g65979287601806_cont_sun_c4_486_7_alg».proof.Proof.KbRun
import proofs.«104506_g65979287601806_cont_sun_c4_486_7_alg».proof.Proof.KiRun
import proofs.«104506_g65979287601806_cont_sun_c4_486_7_alg».proof.Proof.KiValue
import proofs.«104506_g65979287601806_cont_sun_c4_486_7_alg».proof.Proof.RefValue
import Idealize.ShloMosaic.Adequacy
import Idealize.ShloMosaic.Init

noncomputable section

namespace Cert.Proof

open Idealize.ShloMosaic Idealize.SL.Sem
open Cert.KernelIdeal.HandValue

/-- The two idealized programs, from memories agreeing on the arguments, both end with the specification's
    array of the kernel's arguments in their results. -/
theorem algebraic : Cert.algebraic_KernelIdeal_ReferenceIdeal := fun m ρ m' ρ' _ hagree =>
  ⟨fun c => Cert.Spec.G (aX m c) (aA m c) (aW0 m c) (ab0 m c) (aW1 m c) (ab1 m c) (aWp m c) (abp m c),
   (θ_run Cert.KernelIdeal.defs _ _).mono (fun _ h c => ⟨(h c).1.trans (out7_G m c), (h c).2⟩)
     (Cert.KernelIdeal.Hand.run_main m ρ),
   (θ_run Cert.ReferenceIdeal.defs _ _).mono (fun _ h c => ⟨by
      rw [(h c).1, (hagree c).1, (hagree c).2.1, (hagree c).2.2.1, (hagree c).2.2.2.1, (hagree c).2.2.2.2.1,
        (hagree c).2.2.2.2.2.1, (hagree c).2.2.2.2.2.2.1, (hagree c).2.2.2.2.2.2.2], (h c).2⟩)
     (Cert.ReferenceIdeal.RefValue.run_G m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.ReferenceIdeal.RefValue.frame_ri,
  trivial,
  algebraic⟩

end Cert.Proof

end
